-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000x16 : Shape := ⟨2, ![800000, 16]⟩
abbrev S800000 : Shape := ⟨1, ![800000]⟩
abbrev S50000 : Shape := ⟨1, ![50000]⟩
abbrev S256x256 : Shape := ⟨2, ![256, 256]⟩
abbrev S256 : Shape := ⟨1, ![256]⟩
abbrev S256x200 : Shape := ⟨2, ![256, 200]⟩
abbrev S200 : Shape := ⟨1, ![200]⟩
abbrev S200x1 : Shape := ⟨2, ![200, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x200 : S_.BroadcastsInDim S256x200 (![] : Fin 0 → Fin S256x200.rank)
  reducesTo_S256x200_S_d0_1 : S256x200.ReducesTo [0, 1] S_
  bcast_S_S200 : S_.BroadcastsInDim S200 (![] : Fin 0 → Fin S200.rank)
  reducesTo_S200_S_d0 : S200.ReducesTo [0] S_
  bcast_S_S200x1 : S_.BroadcastsInDim S200x1 (![] : Fin 0 → Fin S200x1.rank)
  reducesTo_S200x1_S_d0_1 : S200x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg27 : FVec F S1 .f32) (main_v98 : IVec S_ 1) (main_v101 : IVec S200x1 1) (main_c_39 : IVec S_ 1) : IVec S_ 1 :=
  let main_v102 : IVec S_ 1 := (fun x v => Host.reduce IntOp.andi x v reducesTo_S200x1_S_d0_1 h_S_) main_v101 main_c_39
  let main_v103 : IVec S_ 1 := andi main_v98 main_v102
  let main_v104 : FVec F S1 .f32 := Host.absf main_arg27
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg24 : FVec F S256x200 .f32) (main_arg25 : FVec F S200 .f32) (main_arg26 : FVec F S200x1 .f32) (main_arg27 : FVec F S1 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x200 .f32 := Host.absf main_arg24
  let main_cst_34 : FVec F S_ .f32 := constant S_ .f32 0x7F800000#32
  let main_v90 : FVec F S256x200 .f32 := broadcastInDim S256x200 ![] bcast_S_S256x200 main_cst_34
  let main_v91 : IVec S256x200 1 := cmpf .olt main_v89 main_v90
  let main_c_35 : IVec S_ 1 := constantI S_ 1 1#1
  let main_v92 : IVec S_ 1 := (fun x v => Host.reduce IntOp.andi x v reducesTo_S256x200_S_d0_1 h_S_) main_v91 main_c_35
  let main_v93 : IVec S_ 1 := andi main_v88 main_v92
  let main_v94 : FVec F S200 .f32 := Host.absf main_arg25
  let main_cst_36 : FVec F S_ .f32 := constant S_ .f32 0x7F800000#32
  let main_v95 : FVec F S200 .f32 := broadcastInDim S200 ![] bcast_S_S200 main_cst_36
  let main_v96 : IVec S200 1 := cmpf .olt main_v94 main_v95
  let main_c_37 : IVec S_ 1 := constantI S_ 1 1#1
  let main_v97 : IVec S_ 1 := (fun x v => Host.reduce IntOp.andi x v reducesTo_S200_S_d0 h_S_) main_v96 main_c_37
  let main_v98 : IVec S_ 1 := andi main_v93 main_v97
  let main_v99 : FVec F S200x1 .f32 := Host.absf main_arg26
  let main_cst_38 : FVec F S_ .f32 := constant S_ .f32 0x7F800000#32
  let main_v100 : FVec F S200x1 .f32 := broadcastInDim S200x1 ![] bcast_S_S200x1 main_cst_38
  let main_v101 : IVec S200x1 1 := cmpf .olt main_v99 main_v100
  let main_c_39 : IVec S_ 1 := constantI S_ 1 1#1
  fn_part6 (F := F) main_arg27 main_v98 main_v101 main_c_39

def fn_part4 {F : FTy → Type} [FloatOps F] (main_arg20 : FVec F S256x200 .f32) (main_arg21 : FVec F S200 .f32) (main_arg22 : FVec F S256x256 .f32) (main_arg23 : FVec F S256 .f32) (main_arg24 : FVec F S256x200 .f32) (main_arg25 : FVec F S200 .f32) (main_arg26 : FVec F S200x1 .f32) (main_arg27 : FVec F S1 .f32) (main_v63 : IVec S_ 1) (main_v67 : IVec S_ 1) : IVec S_ 1 :=
  let main_v68 : IVec S_ 1 := andi main_v63 main_v67
  let main_v69 : FVec F S256x200 .f32 := Host.absf main_arg20
  let main_cst_26 : FVec F S_ .f32 := constant S_ .f32 0x7F800000#32
  let main_v70 : FVec F S256x200 .f32 := broadcastInDim S256x200 ![] bcast_S_S256x200 main_cst_26
  let main_v71 : IVec S256x200 1 := cmpf .olt main_v69 main_v70
  let main_c_27 : IVec S_ 1 := constantI S_ 1 1#1
  let main_v72 : IVec S_ 1 := (fun x v => Host.reduce IntOp.andi x v reducesTo_S256x200_S_d0_1 h_S_) main_v71 main_c_27
  let main_v73 : IVec S_ 1 := andi main_v68 main_v72
  let main_v74 : FVec F S200 .f32 := Host.absf main_arg21
  let main_cst_28 : FVec F S_ .f32 := constant S_ .f32 0x7F800000#32
  let main_v75 : FVec F S200 .f32 := broadcastInDim S200 ![] bcast_S_S200 main_cst_28
  let main_v76 : IVec S200 1 := cmpf .olt main_v74 main_v75
  let main_c_29 : IVec S_ 1 := constantI S_ 1 1#1
  let main_v77 : IVec S_ 1 := (fun x v => Host.reduce IntOp.andi x v reducesTo_S200_S_d0 h_S_) main_v76 main_c_29
  let main_v78 : IVec S_ 1 := andi main_v73 main_v77
  let main_v79 : FVec F S256x256 .f32 := Host.absf main_arg22
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg23
  let main_cst_32 : FVec F S_ .f32 := constant S_ .f32 0x7F800000#32
  fn_part5 (F := F) main_arg24 main_arg25 main_arg26 main_arg27 main_v83 main_v84 main_cst_32

def fn_part3 {F : FTy → Type} [FloatOps F] (main_arg17 : FVec F S256 .f32) (main_arg18 : FVec F S256x256 .f32) (main_arg19 : FVec F S256 .f32) (main_arg20 : FVec F S256x200 .f32) (main_arg21 : FVec F S200 .f32) (main_arg22 : FVec F S256x256 .f32) (main_arg23 : FVec F S256 .f32) (main_arg24 : FVec F S256x200 .f32) (main_arg25 : FVec F S200 .f32) (main_arg26 : FVec F S200x1 .f32) (main_arg27 : FVec F S1 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg17
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg18
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg19
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg20 main_arg21 main_arg22 main_arg23 main_arg24 main_arg25 main_arg26 main_arg27 main_v63 main_v67

def fn_part2 {F : FTy → Type} [FloatOps F] (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x200 .f32) (main_arg21 : FVec F S200 .f32) (main_arg22 : FVec F S256x256 .f32) (main_arg23 : FVec F S256 .f32) (main_arg24 : FVec F S256x200 .f32) (main_arg25 : FVec F S200 .f32) (main_arg26 : FVec F S200x1 .f32) (main_arg27 : FVec F S1 .f32) (main_v33 : IVec S_ 1) : IVec S_ 1 :=
  let main_v34 : FVec F S256 .f32 := Host.absf main_arg13
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg14
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg15
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg16
  let main_cst_18 : FVec F S_ .f32 := constant S_ .f32 0x7F800000#32
  let main_v50 : FVec F S256x256 .f32 := broadcastInDim S256x256 ![] bcast_S_S256x256 main_cst_18
  fn_part3 (F := F) main_arg17 main_arg18 main_arg19 main_arg20 main_arg21 main_arg22 main_arg23 main_arg24 main_arg25 main_arg26 main_arg27 main_v48 main_v49 main_v50

def fn_part1 {F : FTy → Type} [FloatOps F] (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x200 .f32) (main_arg21 : FVec F S200 .f32) (main_arg22 : FVec F S256x256 .f32) (main_arg23 : FVec F S256 .f32) (main_arg24 : FVec F S256x200 .f32) (main_arg25 : FVec F S200 .f32) (main_arg26 : FVec F S200x1 .f32) (main_arg27 : FVec F S1 .f32) (main_v13 : IVec S_ 1) (main_v16 : IVec S800000x16 1) : IVec S_ 1 :=
  let main_c_5 : IVec S_ 1 := constantI S_ 1 1#1
  let main_v17 : IVec S_ 1 := (fun x v => Host.reduce IntOp.andi x v reducesTo_S800000x16_S_d0_1 h_S_) main_v16 main_c_5
  let main_v18 : IVec S_ 1 := andi main_v13 main_v17
  let main_v19 : FVec F S256x256 .f32 := Host.absf main_arg10
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg11
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg12
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S50000x256 .f32) (main_arg1 : FVec F S800000x16 .f32) (main_arg2 : FVec F S50000x256 .f32) (main_arg3 : FVec F S800000x16 .f32) (main_arg4 : IVec S800000 32) (main_arg5 : IVec S800000 32) (main_arg6 : IVec S50000 32) (main_arg7 : IVec S800000 32) (main_arg8 : IVec S800000 32) (main_arg9 : IVec S50000 32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256x200 .f32) (main_arg21 : FVec F S200 .f32) (main_arg22 : FVec F S256x256 .f32) (main_arg23 : FVec F S256 .f32) (main_arg24 : FVec F S256x200 .f32) (main_arg25 : FVec F S200 .f32) (main_arg26 : FVec F S200x1 .f32) (main_arg27 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000x16 .f32 := Host.absf main_arg1
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S50000x256 .f32 := Host.absf main_arg2
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S800000x16 .f32 := Host.absf main_arg3
  let main_cst_4 : FVec F S_ .f32 := constant S_ .f32 0x7F800000#32
  let main_v15 : FVec F S800000x16 .f32 := broadcastInDim S800000x16 ![] bcast_S_S800000x16 main_cst_4
  let main_v16 : IVec S800000x16 1 := cmpf .olt main_v14 main_v15
  fn_part1 (F := F) main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S50000x256 : Shape := ⟨2, ![50000, 256]⟩
abbrev S800000x16 : Shape := ⟨2, ![800000, 16]⟩
abbrev S800000 : Shape := ⟨1, ![800000]⟩
abbrev S50000 : Shape := ⟨1, ![50000]⟩
abbrev S256x256 : Shape := ⟨2, ![256, 256]⟩
abbrev S256 : Shape := ⟨1, ![256]⟩
abbrev S256x200 : Shape := ⟨2, ![256, 200]⟩
abbrev S200 : Shape := ⟨1, ![200]⟩
abbrev S200x1 : Shape := ⟨2, ![200, 1]⟩
abbrev S1 : Shape := ⟨1, ![1]⟩
abbrev S2000x256 : Shape := ⟨2, ![2000, 256]⟩
abbrev S_ : Shape := ⟨0, ![]⟩
abbrev S800000x1 : Shape := ⟨2, ![800000, 1]⟩
abbrev S1x1 : Shape := ⟨2, ![1, 1]⟩
abbrev S800000x256 : Shape := ⟨2, ![800000, 256]⟩
abbrev S1x256 : Shape := ⟨2, ![1, 256]⟩
abbrev S1x200 : Shape := ⟨2, ![1, 200]⟩
abbrev S50000x200 : Shape := ⟨2, ![50000, 200]⟩
abbrev S2000x200 : Shape := ⟨2, ![2000, 200]⟩
abbrev S512x200 : Shape := ⟨2, ![512, 200]⟩
abbrev S50000x1 : Shape := ⟨2, ![50000, 1]⟩
abbrev S512x1 : Shape := ⟨2, ![512, 1]⟩
abbrev S512 : Shape := ⟨1, ![512]⟩

abbrev nBuf : Space → Nat
  | .hbm => 110
  | .vmem => 44
  | .smem => 0
  | _ => 0

abbrev bufTy : (tb : Table) → Fin (tcTables nBuf tb) → BufTy
  | .hbm, ⟨0, _⟩ => ⟨S50000x256, .f32⟩
  | .hbm, ⟨1, _⟩ => ⟨S800000x16, .f32⟩
  | .hbm, ⟨2, _⟩ => ⟨S50000x256, .f32⟩
  | .hbm, ⟨3, _⟩ => ⟨S800000x16, .f32⟩
  | .hbm, ⟨4, _⟩ => ⟨S800000, .i32⟩
  | .hbm, ⟨5, _⟩ => ⟨S800000, .i32⟩
  | .hbm, ⟨6, _⟩ => ⟨S50000, .i32⟩
  | .hbm, ⟨7, _⟩ => ⟨S800000, .i32⟩
  | .hbm, ⟨8, _⟩ => ⟨S800000, .i32⟩
  | .hbm, ⟨9, _⟩ => ⟨S50000, .i32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S256x256, .f32⟩
  | .hbm, ⟨19, _⟩ => ⟨S256, .f32⟩
  | .hbm, ⟨20, _⟩ => ⟨S256x200, .f32⟩
  | .hbm, ⟨21, _⟩ => ⟨S200, .f32⟩
  | .hbm, ⟨22, _⟩ => ⟨S256x256, .f32⟩
  | .hbm, ⟨23, _⟩ => ⟨S256, .f32⟩
  | .hbm, ⟨24, _⟩ => ⟨S256x200, .f32⟩
  | .hbm, ⟨25, _⟩ => ⟨S200, .f32⟩
  | .hbm, ⟨26, _⟩ => ⟨S200x1, .f32⟩
  | .hbm, ⟨27, _⟩ => ⟨S1, .f32⟩
  | .hbm, ⟨28, _⟩ => ⟨S50000x256, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S1, .i32⟩
  | .hbm, ⟨38, _⟩ => ⟨S_, .i32⟩
  | .hbm, ⟨39, _⟩ => ⟨S800000x1, .i32⟩
  | .hbm, ⟨40, _⟩ => ⟨S800000x1, .i1⟩
  | .hbm, ⟨41, _⟩ => ⟨S1x1, .i32⟩
  | .hbm, ⟨42, _⟩ => ⟨S800000x1, .i32⟩
  | .hbm, ⟨43, _⟩ => ⟨S800000x1, .i1⟩
  | .hbm, ⟨44, _⟩ => ⟨S800000x1, .i1⟩
  | .hbm, ⟨45, _⟩ => ⟨S_, .i1⟩
  | .hbm, ⟨46, _⟩ => ⟨S800000, .i1⟩
  | .hbm, ⟨47, _⟩ => ⟨S800000x256, .f32⟩
  | .hbm, ⟨48, _⟩ => ⟨S800000x256, .i1⟩
  | .hbm, ⟨49, _⟩ => ⟨S_, .f32⟩
  | .hbm, ⟨50, _⟩ => ⟨S800000x256, .f32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S1x256, .f32⟩
  | .hbm, ⟨57, _⟩ => ⟨S1x256, .f32⟩
  | .hbm, ⟨58, _⟩ => ⟨S50000x256, .f32⟩
  | .hbm, ⟨59, _⟩ => ⟨S1x256, .f32⟩
  | .hbm, ⟨60, _⟩ => ⟨S1x200, .f32⟩
  | .hbm, ⟨61, _⟩ => ⟨S50000x200, .f32⟩
  | .hbm, ⟨62, _⟩ => ⟨S_, .f32⟩
  | .hbm, ⟨63, _⟩ => ⟨S512x200, .f32⟩
  | .hbm, ⟨64, _⟩ => ⟨S50000x1, .i32⟩
  | .hbm, ⟨65, _⟩ => ⟨S512x200, .f32⟩
  | .hbm, ⟨66, _⟩ => ⟨S50000x256, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S1, .i32⟩
  | .hbm, ⟨76, _⟩ => ⟨S_, .i32⟩
  | .hbm, ⟨77, _⟩ => ⟨S800000x1, .i32⟩
  | .hbm, ⟨78, _⟩ => ⟨S800000x1, .i1⟩
  | .hbm, ⟨79, _⟩ => ⟨S1x1, .i32⟩
  | .hbm, ⟨80, _⟩ => ⟨S800000x1, .i32⟩
  | .hbm, ⟨81, _⟩ => ⟨S800000x1, .i1⟩
  | .hbm, ⟨82, _⟩ => ⟨S800000x1, .i1⟩
  | .hbm, ⟨83, _⟩ => ⟨S_, .i1⟩
  | .hbm, ⟨84, _⟩ => ⟨S800000, .i1⟩
  | .hbm, ⟨85, _⟩ => ⟨S800000x256, .f32⟩
  | .hbm, ⟨86, _⟩ => ⟨S800000x256, .i1⟩
  | .hbm, ⟨87, _⟩ => ⟨S_, .f32⟩
  | .hbm, ⟨88, _⟩ => ⟨S800000x256, .f32⟩
  | .hbm, ⟨89, _⟩ => ⟨S800000x256, .f32⟩
  | .hbm, ⟨90, _⟩ => ⟨S_, .f32⟩
  | .hbm, ⟨91, _⟩ => ⟨S50000x256, .f32⟩
  | .hbm, ⟨92, _⟩ => ⟨S800000x1, .i32⟩
  | .hbm, ⟨93, _⟩ => ⟨S50000x256, .f32⟩
  | .hbm, ⟨94, _⟩ => ⟨S1x256, .f32⟩
  | .hbm, ⟨95, _⟩ => ⟨S1x256, .f32⟩
  | .hbm, ⟨96, _⟩ => ⟨S50000x256, .f32⟩
  | .hbm, ⟨97, _⟩ => ⟨S1x256, .f32⟩
  | .hbm, ⟨98, _⟩ => ⟨S1x200, .f32⟩
  | .hbm, ⟨99, _⟩ => ⟨S50000x200, .f32⟩
  | .hbm, ⟨100, _⟩ => ⟨S_, .f32⟩
  | .hbm, ⟨101, _⟩ => ⟨S512x200, .f32⟩
  | .hbm, ⟨102, _⟩ => ⟨S50000x1, .i32⟩
  | .hbm, ⟨103, _⟩ => ⟨S512x200, .f32⟩
  | .hbm, ⟨104, _⟩ => ⟨S512x200, .f32⟩
  | .hbm, ⟨105, _⟩ => ⟨S512x1, .f32⟩
  | .hbm, ⟨106, _⟩ => ⟨S1x1, .f32⟩
  | .hbm, ⟨107, _⟩ => ⟨S512x1, .f32⟩
  | .hbm, ⟨108, _⟩ => ⟨S512x1, .f32⟩
  | .hbm, ⟨109, _⟩ => ⟨S512, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S256x256, .f32⟩
  | .local _ .vmem, ⟨17, _⟩ => ⟨S1x256, .f32⟩
  | .local _ .vmem, ⟨18, _⟩ => ⟨S256x200, .f32⟩
  | .local _ .vmem, ⟨19, _⟩ => ⟨S1x200, .f32⟩
  | .local _ .vmem, ⟨20, _⟩ => ⟨S2000x200, .f32⟩
  | .local _ .vmem, ⟨21, _⟩ => ⟨S2000x200, .f32⟩
  | .local _ .vmem, ⟨22, _⟩ => ⟨S2000x256, .f32⟩
  | .local _ .vmem, ⟨23, _⟩ => ⟨S2000x256, .f32⟩
  | .local _ .vmem, ⟨24, _⟩ => ⟨S256x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S256x256, .f32⟩
  | .local _ .vmem, ⟨30, _⟩ => ⟨S1x256, .f32⟩
  | .local _ .vmem, ⟨31, _⟩ => ⟨S2000x256, .f32⟩
  | .local _ .vmem, ⟨32, _⟩ => ⟨S2000x256, .f32⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S256x256, .f32⟩
  | .local _ .vmem, ⟨39, _⟩ => ⟨S1x256, .f32⟩
  | .local _ .vmem, ⟨40, _⟩ => ⟨S256x200, .f32⟩
  | .local _ .vmem, ⟨41, _⟩ => ⟨S1x200, .f32⟩
  | .local _ .vmem, ⟨42, _⟩ => ⟨S2000x200, .f32⟩
  | .local _ .vmem, ⟨43, _⟩ => ⟨S2000x200, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst : Ref sig .tc := ⟨.hbm, 49, rfl⟩
abbrev main_call0_v15 : Ref sig .tc := ⟨.hbm, 50, rfl⟩
abbrev main_v1 : Ref sig .tc := ⟨.hbm, 51, rfl⟩
abbrev main_cst : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_cst_0 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_call1_c : Ref sig .tc := ⟨.hbm, 67, rfl⟩
abbrev main_call1_v0 : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_c_1 : Ref sig .tc := ⟨.hbm, 75, rfl⟩
abbrev main_call1_c_2 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_c_3 : Ref sig .tc := ⟨.hbm, 83, rfl⟩
abbrev main_call1_v12 : Ref sig .tc := ⟨.hbm, 84, rfl⟩
abbrev main_call1_v13 : Ref sig .tc := ⟨.hbm, 85, rfl⟩
abbrev main_call1_v14 : Ref sig .tc := ⟨.hbm, 86, rfl⟩
abbrev main_call1_cst : Ref sig .tc := ⟨.hbm, 87, rfl⟩
abbrev main_call1_v15 : Ref sig .tc := ⟨.hbm, 88, rfl⟩
abbrev main_v15 : Ref sig .tc := ⟨.hbm, 89, rfl⟩
abbrev main_cst_1 : Ref sig .tc := ⟨.hbm, 90, rfl⟩
abbrev main_v16 : Ref sig .tc := ⟨.hbm, 91, rfl⟩
abbrev main_v17 : Ref sig .tc := ⟨.hbm, 92, rfl⟩
abbrev main_v18 : Ref sig .tc := ⟨.hbm, 93, rfl⟩
abbrev main_v19 : Ref sig .tc := ⟨.hbm, 94, rfl⟩
abbrev main_v20 : Ref sig .tc := ⟨.hbm, 95, rfl⟩
abbrev main_v21 : Ref sig .tc := ⟨.hbm, 96, rfl⟩
abbrev main_v22 : Ref sig .tc := ⟨.hbm, 97, rfl⟩
abbrev main_v23 : Ref sig .tc := ⟨.hbm, 98, rfl⟩
abbrev main_v24 : Ref sig .tc := ⟨.hbm, 99, rfl⟩
abbrev main_cst_2 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_v31 : Ref sig .tc := ⟨.hbm, 107, rfl⟩
abbrev main_v32 : Ref sig .tc := ⟨.hbm, 108, rfl⟩
abbrev main_v33 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg3_1 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg5_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem3_0 : DmaSem sig := 31
abbrev cc4_sem3_1 : DmaSem sig := 32
abbrev cc4_sem4_0 : DmaSem sig := 33
abbrev cc4_sem5_0 : DmaSem sig := 34
abbrev cc4_sem5_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem5_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x200 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x200 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x200 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x200 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x200 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x200 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x256_0 : S800000.BroadcastsInDim S800000x256 (![0] : Fin 1 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  shapeCasts_S2000x256_S2000x256 : S2000x256.ShapeCasts S2000x256
  shapeCasts_S200_S1x200 : S200.ShapeCasts S1x200
  inb_S256x200_S256x200_0_0 : ∀ a, (![0, 0] : Fin 2 → Nat) a + S256x200.size a ≤ S256x200.size a
  h_S256x200 : 0 < S256x200.numel
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S2000x200 : S1x200.Broadcasts S2000x200
  inb_S2000x200_S2000x200_0_0 : ∀ a, (![0, 0] : Fin 2 → Nat) a + S2000x200.size a ≤ S2000x200.size a
  h_S2000x200 : 0 < S2000x200.numel
  bcast_S_S512x200 : S_.BroadcastsInDim S512x200 (![] : Fin 0 → Fin S512x200.rank)
  bcast_S50000_S50000x1_0 : S50000.BroadcastsInDim S50000x1 (![0] : Fin 1 → Fin S50000x1.rank)
  bcast_S1x1_S512x1_0_1 : S1x1.BroadcastsInDim S512x1 (![0, 1] : Fin 2 → Fin S512x1.rank)
  shapeCasts_S512x1_S512 : S512x1.ShapeCasts S512
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x200_S2000x200_1_0_0_1_n_n_wf : DotDims.WF S2000x256 S256x200 S2000x200 [1] [0] [0] [1] [] []
  scatter_S512x200_S50000x1_S50000x200_1_0_0_1_wf : ScatterDims.WF S512x200 S50000x1 S50000x200 [1] [0] [0] 1
  dot_S512x200_S200x1_S512x1_1_0_0_1_n_n_wf : DotDims.WF S512x200 S200x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x200.size a ≤ S256x200.size a
  hwx2_3 : ∀ i : grid2.Coords, EltTy.bits .f32 = 32 ∨ (Rect.block (s := S256x200) S256x200.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x200.size a ≤ S1x200.size a
  hwx2_4 : ∀ i : grid2.Coords, EltTy.bits .f32 = 32 ∨ (Rect.block (s := S1x200) S1x200.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x200.size a ≤ S50000x200.size a
  hwx2_5 : ∀ i : grid2.Coords, EltTy.bits .f32 = 32 ∨ (Rect.block (s := S50000x200) S2000x200.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x256.size a ≤ S50000x256.size a
  hwx4_3 : ∀ i : grid4.Coords, EltTy.bits .f32 = 32 ∨ (Rect.block (s := S50000x256) S2000x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S50000x256.size a
  hwx4_5 : ∀ i : grid4.Coords, EltTy.bits .f32 = 32 ∨ (Rect.block (s := S50000x256) S2000x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x200.size a ≤ S256x200.size a
  hwx5_3 : ∀ i : grid5.Coords, EltTy.bits .f32 = 32 ∨ (Rect.block (s := S256x200) S256x200.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x200.size a ≤ S1x200.size a
  hwx5_4 : ∀ i : grid5.Coords, EltTy.bits .f32 = 32 ∨ (Rect.block (s := S1x200) S1x200.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x200.size a ≤ S50000x200.size a
  hwx5_5 : ∀ i : grid5.Coords, EltTy.bits .f32 = 32 ∨ (Rect.block (s := S50000x200) S2000x200.size (cc5_transform_5 i) (hinb5_5 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x200_S2000x200_1_0_0_1_n_n : DotDims S2000x256 S256x200 S2000x200 where
  lhsContracting := [1]
  rhsContracting := [0]
  lhsNonContracting := [0]
  rhsNonContracting := [1]
  lhsBatch := []
  rhsBatch := []
  wf := dot_S2000x256_S256x200_S2000x200_1_0_0_1_n_n_wf
def scatter_S512x200_S50000x1_S50000x200_1_0_0_1 : ScatterDims S512x200 S50000x1 S50000x200 where
  updateWindowDims := [1]
  insertedWindowDims := [0]
  scatterDimsToOperandDims := [0]
  indexVectorDim := 1
  wf := scatter_S512x200_S50000x1_S50000x200_1_0_0_1_wf
def dot_S512x200_S200x1_S512x1_1_0_0_1_n_n : DotDims S512x200 S200x1 S512x1 where
  lhsContracting := [1]
  rhsContracting := [0]
  lhsNonContracting := [0]
  rhsNonContracting := [1]
  lhsBatch := []
  rhsBatch := []
  wf := dot_S512x200_S200x1_S512x1_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg10) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg12) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S2000x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v7) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg18) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg20) S256x200.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x200.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S2000x200.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg2) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg14) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v14) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg2) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg16) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v19) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v18) S2000x256.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v20) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v21) S2000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v21) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg22) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v22) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg24) S256x200.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v23) S1x200.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v24) S2000x200.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x256 : Shape := ⟨2, ![50000, 256]⟩
abbrev S800000x16 : Shape := ⟨2, ![800000, 16]⟩
abbrev S800000 : Shape := ⟨1, ![800000]⟩
abbrev S50000 : Shape := ⟨1, ![50000]⟩
abbrev S256x256 : Shape := ⟨2, ![256, 256]⟩
abbrev S256 : Shape := ⟨1, ![256]⟩
abbrev S256x200 : Shape := ⟨2, ![256, 200]⟩
abbrev S200 : Shape := ⟨1, ![200]⟩
abbrev S200x1 : Shape := ⟨2, ![200, 1]⟩
abbrev S1 : Shape := ⟨1, ![1]⟩
abbrev S_ : Shape := ⟨0, ![]⟩
abbrev S800000x1 : Shape := ⟨2, ![800000, 1]⟩
abbrev S1x1 : Shape := ⟨2, ![1, 1]⟩
abbrev S800000x256 : Shape := ⟨2, ![800000, 256]⟩
abbrev S1x256 : Shape := ⟨2, ![1, 256]⟩
abbrev S50000x200 : Shape := ⟨2, ![50000, 200]⟩
abbrev S1x200 : Shape := ⟨2, ![1, 200]⟩
abbrev S512x200 : Shape := ⟨2, ![512, 200]⟩
abbrev S50000x1 : Shape := ⟨2, ![50000, 1]⟩
abbrev S512x1 : Shape := ⟨2, ![512, 1]⟩
abbrev S512 : Shape := ⟨1, ![512]⟩

abbrev nBuf : Space → Nat
  | .hbm => 148
  | .vmem => 0
  | .smem => 0
  | _ => 0

abbrev hbmTy0_0 (i : Nat) : BufTy := match i % 128 with
  | 0 => ⟨S50000x256, .f32⟩
  | 1 => ⟨S800000x16, .f32⟩
  | 2 => ⟨S50000x256, .f32⟩
  | 3 => ⟨S800000x16, .f32⟩
  | 4 => ⟨S800000, .i32⟩
  | 5 => ⟨S800000, .i32⟩
  | 6 => ⟨S50000, .i32⟩
  | 7 => ⟨S800000, .i32⟩
  | 8 => ⟨S800000, .i32⟩
  | 9 => ⟨S50000, .i32⟩
  | 10 => ⟨S256x256, .f32⟩
  | 11 => ⟨S256, .f32⟩
  | 12 => ⟨S256x256, .f32⟩
  | 13 => ⟨S256, .f32⟩
  | 14 => ⟨S256x256, .f32⟩
  | 15 => ⟨S256, .f32⟩
  | 16 => ⟨S256x256, .f32⟩
  | 17 => ⟨S256, .f32⟩
  | 18 => ⟨S256x256, .f32⟩
  | 19 => ⟨S256, .f32⟩
  | 20 => ⟨S256x200, .f32⟩
  | 21 => ⟨S200, .f32⟩
  | 22 => ⟨S256x256, .f32⟩
  | 23 => ⟨S256, .f32⟩
  | 24 => ⟨S256x200, .f32⟩
  | 25 => ⟨S200, .f32⟩
  | 26 => ⟨S200x1, .f32⟩
  | 27 => ⟨S1, .f32⟩
  | 28 => ⟨S50000x256, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S1, .i32⟩
  | 38 => ⟨S_, .i32⟩
  | 39 => ⟨S800000x1, .i32⟩
  | 40 => ⟨S800000x1, .i1⟩
  | 41 => ⟨S1x1, .i32⟩
  | 42 => ⟨S800000x1, .i32⟩
  | 43 => ⟨S800000x1, .i1⟩
  | 44 => ⟨S800000x1, .i1⟩
  | 45 => ⟨S_, .i1⟩
  | 46 => ⟨S800000, .i1⟩
  | 47 => ⟨S800000x256, .f32⟩
  | 48 => ⟨S800000x256, .i1⟩
  | 49 => ⟨S_, .f32⟩
  | 50 => ⟨S800000x256, .f32⟩
  | 51 => ⟨S800000x256, .f32⟩
  | 52 => ⟨S_, .f32⟩
  | 53 => ⟨S50000x256, .f32⟩
  | 54 => ⟨S800000x1, .i32⟩
  | 55 => ⟨S50000x256, .f32⟩
  | 56 => ⟨S1x256, .f32⟩
  | 57 => ⟨S50000x256, .f32⟩
  | 58 => ⟨S50000x256, .f32⟩
  | 59 => ⟨S_, .f32⟩
  | 60 => ⟨S50000x256, .f32⟩
  | 61 => ⟨S50000x256, .f32⟩
  | 62 => ⟨S50000x256, .f32⟩
  | 63 => ⟨S1x256, .f32⟩
  | 64 => ⟨S50000x256, .f32⟩
  | 65 => ⟨S50000x256, .f32⟩
  | 66 => ⟨S_, .f32⟩
  | 67 => ⟨S50000x256, .f32⟩
  | 68 => ⟨S50000x256, .f32⟩
  | 69 => ⟨S50000x256, .f32⟩
  | 70 => ⟨S50000x256, .f32⟩
  | 71 => ⟨S1x256, .f32⟩
  | 72 => ⟨S50000x256, .f32⟩
  | 73 => ⟨S50000x256, .f32⟩
  | 74 => ⟨S_, .f32⟩
  | 75 => ⟨S50000x256, .f32⟩
  | 76 => ⟨S50000x256, .f32⟩
  | 77 => ⟨S50000x200, .f32⟩
  | 78 => ⟨S1x200, .f32⟩
  | 79 => ⟨S50000x200, .f32⟩
  | 80 => ⟨S50000x200, .f32⟩
  | 81 => ⟨S_, .f32⟩
  | 82 => ⟨S512x200, .f32⟩
  | 83 => ⟨S50000x1, .i32⟩
  | 84 => ⟨S512x200, .f32⟩
  | 85 => ⟨S50000x256, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S1, .i32⟩
  | 95 => ⟨S_, .i32⟩
  | 96 => ⟨S800000x1, .i32⟩
  | 97 => ⟨S800000x1, .i1⟩
  | 98 => ⟨S1x1, .i32⟩
  | 99 => ⟨S800000x1, .i32⟩
  | 100 => ⟨S800000x1, .i1⟩
  | 101 => ⟨S800000x1, .i1⟩
  | 102 => ⟨S_, .i1⟩
  | 103 => ⟨S800000, .i1⟩
  | 104 => ⟨S800000x256, .f32⟩
  | 105 => ⟨S800000x256, .i1⟩
  | 106 => ⟨S_, .f32⟩
  | 107 => ⟨S800000x256, .f32⟩
  | 108 => ⟨S800000x256, .f32⟩
  | 109 => ⟨S_, .f32⟩
  | 110 => ⟨S50000x256, .f32⟩
  | 111 => ⟨S800000x1, .i32⟩
  | 112 => ⟨S50000x256, .f32⟩
  | 113 => ⟨S1x256, .f32⟩
  | 114 => ⟨S50000x256, .f32⟩
  | 115 => ⟨S50000x256, .f32⟩
  | 116 => ⟨S_, .f32⟩
  | 117 => ⟨S50000x256, .f32⟩
  | 118 => ⟨S50000x256, .f32⟩
  | 119 => ⟨S50000x256, .f32⟩
  | 120 => ⟨S1x256, .f32⟩
  | 121 => ⟨S50000x256, .f32⟩
  | 122 => ⟨S50000x256, .f32⟩
  | 123 => ⟨S_, .f32⟩
  | 124 => ⟨S50000x256, .f32⟩
  | 125 => ⟨S50000x256, .f32⟩
  | 126 => ⟨S50000x256, .f32⟩
  | 127 => ⟨S50000x256, .f32⟩
  | _ => ⟨S50000x256, .f32⟩

abbrev hbmTy0_1 (i : Nat) : BufTy := match i % 128 with
  | 0 => ⟨S1x256, .f32⟩
  | 1 => ⟨S50000x256, .f32⟩
  | 2 => ⟨S50000x256, .f32⟩
  | 3 => ⟨S_, .f32⟩
  | 4 => ⟨S50000x256, .f32⟩
  | 5 => ⟨S50000x256, .f32⟩
  | 6 => ⟨S50000x200, .f32⟩
  | 7 => ⟨S1x200, .f32⟩
  | 8 => ⟨S50000x200, .f32⟩
  | 9 => ⟨S50000x200, .f32⟩
  | 10 => ⟨S_, .f32⟩
  | 11 => ⟨S512x200, .f32⟩
  | 12 => ⟨S50000x1, .i32⟩
  | 13 => ⟨S512x200, .f32⟩
  | 14 => ⟨S512x200, .f32⟩
  | 15 => ⟨S512x1, .f32⟩
  | 16 => ⟨S1x1, .f32⟩
  | 17 => ⟨S512x1, .f32⟩
  | 18 => ⟨S512x1, .f32⟩
  | 19 => ⟨S512, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst : Ref sig .tc := ⟨.hbm, 49, rfl⟩
abbrev main_call0_v15 : Ref sig .tc := ⟨.hbm, 50, rfl⟩
abbrev main_v1 : Ref sig .tc := ⟨.hbm, 51, rfl⟩
abbrev main_cst : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_call1_cst : Ref sig .tc := ⟨.hbm, 59, rfl⟩
abbrev main_call1_v0 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_call2_cst : Ref sig .tc := ⟨.hbm, 66, rfl⟩
abbrev main_call2_v0 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_call3_cst : Ref sig .tc := ⟨.hbm, 74, rfl⟩
abbrev main_call3_v0 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_cst_0 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_call4_c : Ref sig .tc := ⟨.hbm, 86, rfl⟩
abbrev main_call4_v0 : Ref sig .tc := ⟨.hbm, 87, rfl⟩
abbrev main_call4_v1 : Ref sig .tc := ⟨.hbm, 88, rfl⟩
abbrev main_call4_c_0 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_call4_v5 : Ref sig .tc := ⟨.hbm, 93, rfl⟩
abbrev main_call4_c_1 : Ref sig .tc := ⟨.hbm, 94, rfl⟩
abbrev main_call4_c_2 : Ref sig .tc := ⟨.hbm, 95, rfl⟩
abbrev main_call4_v6 : Ref sig .tc := ⟨.hbm, 96, rfl⟩
abbrev main_call4_v7 : Ref sig .tc := ⟨.hbm, 97, rfl⟩
abbrev main_call4_v8 : Ref sig .tc := ⟨.hbm, 98, rfl⟩
abbrev main_call4_v9 : Ref sig .tc := ⟨.hbm, 99, rfl⟩
abbrev main_call4_v10 : Ref sig .tc := ⟨.hbm, 100, rfl⟩
abbrev main_call4_v11 : Ref sig .tc := ⟨.hbm, 101, rfl⟩
abbrev main_call4_c_3 : Ref sig .tc := ⟨.hbm, 102, rfl⟩
abbrev main_call4_v12 : Ref sig .tc := ⟨.hbm, 103, rfl⟩
abbrev main_call4_v13 : Ref sig .tc := ⟨.hbm, 104, rfl⟩
abbrev main_call4_v14 : Ref sig .tc := ⟨.hbm, 105, rfl⟩
abbrev main_call4_cst : Ref sig .tc := ⟨.hbm, 106, rfl⟩
abbrev main_call4_v15 : Ref sig .tc := ⟨.hbm, 107, rfl⟩
abbrev main_v28 : Ref sig .tc := ⟨.hbm, 108, rfl⟩
abbrev main_cst_1 : Ref sig .tc := ⟨.hbm, 109, rfl⟩
abbrev main_v29 : Ref sig .tc := ⟨.hbm, 110, rfl⟩
abbrev main_v30 : Ref sig .tc := ⟨.hbm, 111, rfl⟩
abbrev main_v31 : Ref sig .tc := ⟨.hbm, 112, rfl⟩
abbrev main_v32 : Ref sig .tc := ⟨.hbm, 113, rfl⟩
abbrev main_v33 : Ref sig .tc := ⟨.hbm, 114, rfl⟩
abbrev main_v34 : Ref sig .tc := ⟨.hbm, 115, rfl⟩
abbrev main_call5_cst : Ref sig .tc := ⟨.hbm, 116, rfl⟩
abbrev main_call5_v0 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev main_v38 : Ref sig .tc := ⟨.hbm, 121, rfl⟩
abbrev main_v39 : Ref sig .tc := ⟨.hbm, 122, rfl⟩
abbrev main_call6_cst : Ref sig .tc := ⟨.hbm, 123, rfl⟩
abbrev main_call6_v0 : Ref sig .tc := ⟨.hbm, 124, rfl⟩
abbrev main_v40 : Ref sig .tc := ⟨.hbm, 125, rfl⟩
abbrev main_v41 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_call7_cst : Ref sig .tc := ⟨.hbm, 131, rfl⟩
abbrev main_call7_v0 : Ref sig .tc := ⟨.hbm, 132, rfl⟩
abbrev main_v46 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_v50 : Ref sig .tc := ⟨.hbm, 137, rfl⟩
abbrev main_cst_2 : Ref sig .tc := ⟨.hbm, 138, rfl⟩
abbrev main_v51 : Ref sig .tc := ⟨.hbm, 139, rfl⟩
abbrev main_v52 : Ref sig .tc := ⟨.hbm, 140, rfl⟩
abbrev main_v53 : Ref sig .tc := ⟨.hbm, 141, rfl⟩
abbrev main_v54 : Ref sig .tc := ⟨.hbm, 142, rfl⟩
abbrev main_v55 : Ref sig .tc := ⟨.hbm, 143, rfl⟩
abbrev main_v56 : Ref sig .tc := ⟨.hbm, 144, rfl⟩
abbrev main_v57 : Ref sig .tc := ⟨.hbm, 145, rfl⟩
abbrev main_v58 : Ref sig .tc := ⟨.hbm, 146, rfl⟩
abbrev main_v59 : Ref sig .tc := ⟨.hbm, 147, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x256_0 : S800000.BroadcastsInDim S800000x256 (![0] : Fin 1 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S200_S1x200_1 : S200.BroadcastsInDim S1x200 (![1] : Fin 1 → Fin S1x200.rank)
  bcast_S1x200_S50000x200_0_1 : S1x200.BroadcastsInDim S50000x200 (![0, 1] : Fin 2 → Fin S50000x200.rank)
  bcast_S_S512x200 : S_.BroadcastsInDim S512x200 (![] : Fin 0 → Fin S512x200.rank)
  bcast_S50000_S50000x1_0 : S50000.BroadcastsInDim S50000x1 (![0] : Fin 1 → Fin S50000x1.rank)
  bcast_S1x1_S512x1_0_1 : S1x1.BroadcastsInDim S512x1 (![0, 1] : Fin 2 → Fin S512x1.rank)
  shapeCasts_S512x1_S512 : S512x1.ShapeCasts S512
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x200_S50000x200_1_0_0_1_n_n_wf : DotDims.WF S50000x256 S256x200 S50000x200 [1] [0] [0] [1] [] []
  scatter_S512x200_S50000x1_S50000x200_1_0_0_1_wf : ScatterDims.WF S512x200 S50000x1 S50000x200 [1] [0] [0] 1
  dot_S512x200_S200x1_S512x1_1_0_0_1_n_n_wf : DotDims.WF S512x200 S200x1 S512x1 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x200_S50000x200_1_0_0_1_n_n : DotDims S50000x256 S256x200 S50000x200 where
  lhsContracting := [1]
  rhsContracting := [0]
  lhsNonContracting := [0]
  rhsNonContracting := [1]
  lhsBatch := []
  rhsBatch := []
  wf := dot_S50000x256_S256x200_S50000x200_1_0_0_1_n_n_wf
def scatter_S512x200_S50000x1_S50000x200_1_0_0_1 : ScatterDims S512x200 S50000x1 S50000x200 where
  updateWindowDims := [1]
  insertedWindowDims := [0]
  scatterDimsToOperandDims := [0]
  indexVectorDim := 1
  wf := scatter_S512x200_S50000x1_S50000x200_1_0_0_1_wf
def dot_S512x200_S200x1_S512x1_1_0_0_1_n_n : DotDims S512x200 S200x1 S512x1 where
  lhsContracting := [1]
  rhsContracting := [0]
  lhsNonContracting := [0]
  rhsNonContracting := [1]
  lhsBatch := []
  rhsBatch := []
  wf := dot_S512x200_S200x1_S512x1_1_0_0_1_n_n_wf

class Facts : Prop extends Facts₀ where

variable [Facts]
-- ==== Proof.KernelRun.lean ====
/-
  The kernel program's run with its result kept.

  Every weakly fair execution of the program — six grids of blocks among stretches of host operations — terminates
  without a fault; at the end each buffer holds the last of the boundary contents (the contents after the closing
  stretch of host operations), and the argument arrays hold what they were launched with. Read at the result buffer
  this names the program's result: the value at that buffer of the last boundary contents.
-/
import proofs.«143796_j45518063403266_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary contents, the arguments as launched. -/
theorem run_value : θ_run defs (onTc (τ := τ) (main (F := F))) ⟨m, fun _ => 0, ρ⟩ (fun r => ∀ c : Dev nD,
      r.2.mem ((c.tc : Thread nD τ).loc main_v33) = W14 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v33 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c),
       (h c _ (mem_uc main_arg18 (by decide))).trans (W14_main_arg18 m ρ c),
       (h c _ (mem_uc main_arg19 (by decide))).trans (W14_main_arg19 m ρ c),
       (h c _ (mem_uc main_arg20 (by decide))).trans (W14_main_arg20 m ρ c),
       (h c _ (mem_uc main_arg21 (by decide))).trans (W14_main_arg21 m ρ c),
       (h c _ (mem_uc main_arg22 (by decide))).trans (W14_main_arg22 m ρ c),
       (h c _ (mem_uc main_arg23 (by decide))).trans (W14_main_arg23 m ρ c),
       (h c _ (mem_uc main_arg24 (by decide))).trans (W14_main_arg24 m ρ c),
       (h c _ (mem_uc main_arg25 (by decide))).trans (W14_main_arg25 m ρ c),
       (h c _ (mem_uc main_arg26 (by decide))).trans (W14_main_arg26 m ρ c),
       (h c _ (mem_uc main_arg27 (by decide))).trans (W14_main_arg27 m ρ c)⟩)

end Cert.KernelIdeal.Run

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.LibDenseLayer.lean ====
/-
  A dense layer, written two ways, on the extended reals.

  * `matmul_zero_eq_dotGeneral`: a plain m×k by k×n matrix product accumulated into the zero matrix is the host's
    plain product of the same matrices: both read, at (a, b), the sum over the contracted coordinate c of
    A(a, c) · B(c, b).
  * `biasRow_eq`: a length-b vector cast to a [1, b] row and repeated down a rows is the same [a, b] array as the
    host's two broadcasts (first to [1, b] along axis 1, then to [a, b]): both read, at (p, q), the vector at q.
  * `dense_apply`: the host's plain product plus the bias row, read at an entry.
  * `splat_eq`: a scalar repeated over a shape is the host's broadcast of the rank-zero constant of the same bits.
-/
import Idealize.ShloMosaic.PureOps.Ideal.Laws
import Idealize.ShloMosaic.Lib.ValueIdx
import Idealize.ShloMosaic.Lib.ValueLayout
import Idealize.ShloMosaic.Lib.Pipeline.Value
import proofs.«143796_j45518063403266_1_alg».proof.Proof.LibPlainMatmul
import proofs.«143796_j45518063403266_1_alg».proof.Proof.LibPlainDot

noncomputable section

namespace Cert.LibDenseLayer

open Idealize.ShloMosaic Idealize.ShloMosaic.ValueIdx

/-- Accumulated into zero, the plain product of an m×k by a k×n matrix is the host's plain product. -/
theorem matmul_zero_eq_dotGeneral {m k n : Nat} {φ₁ φ₂ : FTy} (prec : Option ContractPrecision)
    (A : FVec Ideal ⟨2, ![m, k]⟩ φ₁) (B : FVec Ideal ⟨2, ![k, n]⟩ φ₂) :
    matmul (DotDims.plain m k n) prec A B (constant ⟨2, ![m, n]⟩ .f32 0x00000000#32)
      = Host.dotGeneral (DotDims.plain m k n) prec A B := by
  funext i
  obtain ⟨a, b, rfl⟩ : ∃ (a : Fin m) (b : Fin n), i = ix2 a b := ⟨i 0, i 1, eq_ix2 i⟩
  rw [matmul_plain_zero_apply, hostDotGeneral_plain_apply]

/-- A dense layer at an entry: the host's plain product plus the bias row reads, at (a, b), the sum over the contracted
    coordinate c of A(a, c) · B(c, b), plus the bias at b. -/
theorem dense_apply {m k n : Nat} {φ : FTy} (prec : Option ContractPrecision)
    (A : FVec Ideal ⟨2, ![m, k]⟩ φ) (B : FVec Ideal ⟨2, ![k, n]⟩ φ) (v : FVec Ideal ⟨1, ![n]⟩ φ)
    (g1 : (⟨1, ![n]⟩ : Shape).BroadcastsInDim ⟨2, ![1, n]⟩ ![1])
    (g2 : (⟨2, ![1, n]⟩ : Shape).BroadcastsInDim ⟨2, ![m, n]⟩ ![0, 1]) (a : Fin m) (b : Fin n) :
    addf (Host.dotGeneral (DotDims.plain m k n) prec A B)
        (broadcastInDim ⟨2, ![m, n]⟩ ![0, 1] g2 (broadcastInDim ⟨2, ![1, n]⟩ ![1] g1 v)) (ix2 a b)
      = (∑ c : Fin k, A (ix2 a c) * B (ix2 c b)) + v (ix1 b) := by
  show Host.dotGeneral (DotDims.plain m k n) prec A B (ix2 a b)
      + broadcastInDim ⟨2, ![m, n]⟩ ![0, 1] g2 (broadcastInDim ⟨2, ![1, n]⟩ ![1] g1 v) (ix2 a b) = _
  rw [hostDotGeneral_plain_apply]
  have hb : b.val = if n = 1 then 0 else b.val := by
    split
    · have := b.isLt; omega
    · rfl
  have hk2 : ∀ ax : Fin 2, ((ix2 (0 : Fin 1) b : (⟨2, ![1, n]⟩ : Shape).Idx) ax).val
      = if (⟨2, ![1, n]⟩ : Shape).size ax = 1 then 0 else ((ix2 a b : (⟨2, ![m, n]⟩ : Shape).Idx) ((![0, 1] : Fin 2 → Fin 2) ax)).val := fun ax =>
    match ax with
    | ⟨0, _⟩ => rfl
    | ⟨1, _⟩ => hb
  have hk1 : ∀ ax : Fin 1, ((ix1 b : (⟨1, ![n]⟩ : Shape).Idx) ax).val
      = if (⟨1, ![n]⟩ : Shape).size ax = 1 then 0 else ((ix2 (0 : Fin 1) b : (⟨2, ![1, n]⟩ : Shape).Idx) ((![1] : Fin 1 → Fin 2) ax)).val := fun ax =>
    match ax with
    | ⟨0, _⟩ => hb
  rw [broadcastInDim_apply _ g2 _ (ix2 a b) (ix2 (0 : Fin 1) b) hk2, broadcastInDim_apply _ g1 v (ix2 (0 : Fin 1) b) (ix1 b) hk1]

variable {α : Type}

/-- A vector as a row repeated down the rows, the vector way and the host way. -/
theorem biasRow_eq {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (g1 : (⟨1, ![b]⟩ : Shape).BroadcastsInDim ⟨2, ![1, b]⟩ ![1])
    (g2 : (⟨2, ![1, b]⟩ : Shape).BroadcastsInDim ⟨2, ![a, b]⟩ ![0, 1]) :
    broadcastTo ⟨2, ![a, b]⟩ (shapeCast ⟨2, ![1, b]⟩ v h1) h2
      = broadcastInDim ⟨2, ![a, b]⟩ ![0, 1] g2 (broadcastInDim ⟨2, ![1, b]⟩ ![1] g1 v) := by
  funext i
  obtain ⟨p, q, rfl⟩ : ∃ (p : Fin a) (q : Fin b), i = ix2 p q := ⟨i 0, i 1, eq_ix2 i⟩
  rw [broadcastTo_1b_ab_apply, shapeCast_a_1a_apply]
  have hq : q.val = if b = 1 then 0 else q.val := by
    split
    · have := q.isLt; omega
    · rfl
  have hk2 : ∀ ax : Fin 2, ((ix2 (0 : Fin 1) q : (⟨2, ![1, b]⟩ : Shape).Idx) ax).val
      = if (⟨2, ![1, b]⟩ : Shape).size ax = 1 then 0 else ((ix2 p q : (⟨2, ![a, b]⟩ : Shape).Idx) ((![0, 1] : Fin 2 → Fin 2) ax)).val := fun ax =>
    match ax with
    | ⟨0, _⟩ => rfl
    | ⟨1, _⟩ => hq
  have hk1 : ∀ ax : Fin 1, ((ix1 q : (⟨1, ![b]⟩ : Shape).Idx) ax).val
      = if (⟨1, ![b]⟩ : Shape).size ax = 1 then 0 else ((ix2 (0 : Fin 1) q : (⟨2, ![1, b]⟩ : Shape).Idx) ((![1] : Fin 1 → Fin 2) ax)).val := fun ax =>
    match ax with
    | ⟨0, _⟩ => hq
  rw [broadcastInDim_apply _ g2 _ (ix2 p q) (ix2 (0 : Fin 1) q) hk2, broadcastInDim_apply _ g1 v (ix2 (0 : Fin 1) q) (ix1 q) hk1]

/-- A scalar repeated over a shape is the host's broadcast of the rank-zero constant of the same bits. -/
theorem splat_eq {F : FTy → Type} [FloatOps F] {s : Shape} {φ : FTy} (bits : BitVec φ.bits)
    (g : (⟨0, ![]⟩ : Shape).BroadcastsInDim s ![]) :
    (broadcast s (Scalar.ofBits φ bits : F φ) : FVec F s φ)
      = broadcastInDim s ![] g (constant (F := F) ⟨0, ![]⟩ φ bits) := by
  funext i
  rfl

end Cert.LibDenseLayer

end
-- ==== Proof.LibDenseRows.lean ====
/-
  A dense layer on a block of rows, on the extended reals.

  For an m×k matrix X, a k×n matrix W and a one-row matrix r the function `denseRows X W r` reads, at (a, b),
  Σ_c X(a, c) · W(c, b) + r(0, b). It is computed three ways:
  * a block's product into the zero accumulator plus the row repeated down the block (`block_dense`);
  * the host's product plus its two broadcasts of a length-n vector v, r being that vector laid out as a row
    (`host_dense`);
  * with X first clamped below at zero, which is done entry by entry and so commutes with reading a block
    (`clamp0`, `host_clamp0`, `block_clamp0`).
  A narrowing or a widening change of float format is the identity on the extended reals, so neither shows.
-/
import Idealize.ShloMosaic.PureOps.Ideal.Laws
import Idealize.ShloMosaic.Lib.ValueIdx
import Idealize.ShloMosaic.Lib.ValueLayout
import Idealize.ShloMosaic.Lib.Pipeline.Value
import proofs.«143796_j45518063403266_1_alg».proof.Proof.LibDenseLayer

noncomputable section

open scoped BigOperators

namespace Cert.DenseRows

open Idealize.ShloMosaic Idealize.ShloMosaic.ValueIdx

/-- Row a of X against column b of W, plus the row matrix r at column b. -/
def denseRows {m k n : ℕ} (X : (⟨2, ![m, k]⟩ : Shape).Idx → EReal) (W : (⟨2, ![k, n]⟩ : Shape).Idx → EReal)
    (r : (⟨2, ![1, n]⟩ : Shape).Idx → EReal) : (⟨2, ![m, n]⟩ : Shape).Idx → EReal :=
  fun i => (∑ c : Fin k, X (ix2 (i 0) c) * W (ix2 c (i 1))) + r (ix2 (0 : Fin 1) (i 1))

theorem denseRows_apply {m k n : ℕ} (X : (⟨2, ![m, k]⟩ : Shape).Idx → EReal) (W : (⟨2, ![k, n]⟩ : Shape).Idx → EReal)
    (r : (⟨2, ![1, n]⟩ : Shape).Idx → EReal) (a : Fin m) (b : Fin n) :
    denseRows X W r (ix2 a b) = (∑ c : Fin k, X (ix2 a c) * W (ix2 c b)) + r (ix2 (0 : Fin 1) b) := rfl

/-- A block's plain product into the zero accumulator, plus the one-row matrix repeated down the block, then narrowed:
    the dense layer of the block's rows. -/
theorem block_dense {m k n : ℕ} {φ₁ φ₂ : FTy} (x0 : FVec Ideal ⟨2, ![m, k]⟩ φ₁) (x1 : FVec Ideal ⟨2, ![k, n]⟩ φ₂)
    (x2 : FVec Ideal ⟨2, ![1, n]⟩ .f32)
    (h1 : (⟨2, ![1, n]⟩ : Shape).ShapeCasts ⟨2, ![1, n]⟩) (h2 : (⟨2, ![1, n]⟩ : Shape).Broadcasts ⟨2, ![m, n]⟩)
    (ht : FTy.bf16.bits < FTy.f32.bits) :
    (truncf .bf16 (addf (matmul (DotDims.plain m k n) none x0 x1 (constant ⟨2, ![m, n]⟩ .f32 0x00000000#32))
        (broadcastTo ⟨2, ![m, n]⟩ (shapeCast ⟨2, ![1, n]⟩ x2 h1) h2)) ht : FVec Ideal ⟨2, ![m, n]⟩ .bf16)
      = denseRows x0 x1 x2 := by
  funext i
  obtain ⟨a, b, rfl⟩ : ∃ (a : Fin m) (b : Fin n), i = ix2 a b := ⟨i 0, i 1, eq_ix2 i⟩
  show matmul (DotDims.plain m k n) none x0 x1 (constant ⟨2, ![m, n]⟩ .f32 0x00000000#32) (ix2 a b)
      + broadcastTo ⟨2, ![m, n]⟩ (shapeCast ⟨2, ![1, n]⟩ x2 h1) h2 (ix2 a b) = _
  rw [matmul_plain_zero_apply, broadcastTo_1b_ab_apply, shapeCast_self, denseRows_apply]

/-- The host's plain product plus its two broadcasts of a length-n vector: the dense layer with that vector as the row. -/
theorem host_dense {m k n : ℕ} (A : FVec Ideal ⟨2, ![m, k]⟩ .f32) (B : FVec Ideal ⟨2, ![k, n]⟩ .f32)
    (v : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![m, n]⟩ ![0, 1])
    (h : (⟨1, ![n]⟩ : Shape).ShapeCasts ⟨2, ![1, n]⟩) :
    addf (Host.dotGeneral (DotDims.plain m k n) none A B)
        (broadcastInDim ⟨2, ![m, n]⟩ ![0, 1] g2 (broadcastInDim ⟨2, ![1, n]⟩ ![1] g1 v))
      = denseRows A B (shapeCast ⟨2, ![1, n]⟩ v h) := by
  funext i
  obtain ⟨a, b, rfl⟩ : ∃ (a : Fin m) (b : Fin n), i = ix2 a b := ⟨i 0, i 1, eq_ix2 i⟩
  rw [Cert.LibDenseLayer.dense_apply, denseRows_apply, shapeCast_a_1a_apply]

/-- An array clamped below at zero, entry by entry (zero kept as the all-zero f32 word). -/
def clamp0 {s : Shape} (X : s.Idx → EReal) : s.Idx → EReal :=
  fun i => max (X i) (Ideal.ofBits .f32 0x00000000#32)

/-- The host's maximum with the broadcast zero constant is that clamp. -/
theorem host_clamp0 {s : Shape} (X : FVec Ideal s .f32) (g : (⟨0, ![]⟩ : Shape).BroadcastsInDim s ![]) :
    maximumf X (broadcastInDim s ![] g (constant (F := Ideal) ⟨0, ![]⟩ .f32 0x00000000#32)) = clamp0 X := by
  funext i
  rfl

/-- A block's maximum with the splat of zero, after a cast to its own shape and before narrowing, is that clamp. -/
theorem block_clamp0 {s : Shape} (x : FVec Ideal s .f32) (h : s.ShapeCasts s) (ht : FTy.bf16.bits < FTy.f32.bits) :
    (truncf .bf16 (maximumf (shapeCast s x h) (broadcast s (Scalar.ofBits .f32 0x00000000#32 : Ideal .f32))) ht
        : FVec Ideal s .bf16) = clamp0 x := by
  rw [shapeCast_self]
  funext i
  rfl

/-- Clamping commutes with reading a sub-array: it is done entry by entry. -/
theorem clamp0_comp {s t : Shape} (X : s.Idx → EReal) (e : t.Idx → s.Idx) : (fun y => clamp0 X (e y)) = clamp0 (fun y => X (e y)) := rfl

end Cert.DenseRows

end
-- ==== Proof.LibLayers.lean ====
/-
  The three dense pieces of a two-layer graph network, as functions of whole arrays on the extended reals.

  For a matrix X of m rows, each piece reads row a of its result from row a of X alone:
  * `product X W` reads, at (a, b), Σ_c X(a, c) · W(c, b);
  * `combine h Wr br agg b` reads, at (a, q), max(agg(a, q) + b(0, q), 0) + max(Σ_c h(a, c) · Wr(c, q) + br(0, q), 0):
    the aggregated messages plus their bias, clamped below at zero, plus the residual dense layer clamped likewise;
  * `readout h Wi bi Wo bo` is a dense layer of the clamped dense layer of h.
  Because a row of the result depends on the same row of the row-indexed operands only, restricting the
  row-indexed operands to a set of rows (through any map e of row numbers) and then applying the piece is
  the piece applied first and then restricted (`product_rows`, `combine_rows`, `readout_rows`): this is what lets a
  grid of row blocks compute the whole-array function block by block.
-/
import proofs.«143796_j45518063403266_1_alg».proof.Proof.LibDenseRows

noncomputable section

open scoped BigOperators

namespace Cert.Layers

open Idealize.ShloMosaic Idealize.ShloMosaic.ValueIdx Cert.DenseRows

/-- Row a of X against column b of W. -/
def product {m k n : ℕ} (X : (⟨2, ![m, k]⟩ : Shape).Idx → EReal) (W : (⟨2, ![k, n]⟩ : Shape).Idx → EReal) :
    (⟨2, ![m, n]⟩ : Shape).Idx → EReal :=
  fun i => ∑ c : Fin k, X (ix2 (i 0) c) * W (ix2 c (i 1))

/-- Aggregated messages plus bias, clamped, plus the clamped residual dense layer. -/
def combine {m k n : ℕ} (h : (⟨2, ![m, k]⟩ : Shape).Idx → EReal) (Wr : (⟨2, ![k, n]⟩ : Shape).Idx → EReal)
    (br : (⟨2, ![1, n]⟩ : Shape).Idx → EReal) (agg : (⟨2, ![m, n]⟩ : Shape).Idx → EReal)
    (b : (⟨2, ![1, n]⟩ : Shape).Idx → EReal) : (⟨2, ![m, n]⟩ : Shape).Idx → EReal :=
  fun i => clamp0 (fun j : (⟨2, ![m, n]⟩ : Shape).Idx => agg j + b (ix2 (0 : Fin 1) (j 1))) i + clamp0 (denseRows h Wr br) i

/-- A dense layer of the clamped dense layer. -/
def readout {m k n p : ℕ} (h : (⟨2, ![m, k]⟩ : Shape).Idx → EReal) (Wi : (⟨2, ![k, n]⟩ : Shape).Idx → EReal)
    (bi : (⟨2, ![1, n]⟩ : Shape).Idx → EReal) (Wo : (⟨2, ![n, p]⟩ : Shape).Idx → EReal)
    (bo : (⟨2, ![1, p]⟩ : Shape).Idx → EReal) : (⟨2, ![m, p]⟩ : Shape).Idx → EReal :=
  denseRows (clamp0 (denseRows h Wi bi)) Wo bo

/-- The rows of X picked by the map e of row numbers. -/
def rowsOf {m m' k : ℕ} (e : Fin m' → Fin m) (X : (⟨2, ![m, k]⟩ : Shape).Idx → EReal) :
    (⟨2, ![m', k]⟩ : Shape).Idx → EReal :=
  fun y => X (ix2 (e (y 0)) (y 1))

theorem product_rows {m m' k n : ℕ} (e : Fin m' → Fin m) (X : (⟨2, ![m, k]⟩ : Shape).Idx → EReal)
    (W : (⟨2, ![k, n]⟩ : Shape).Idx → EReal) (a : Fin m') (b : Fin n) :
    product X W (ix2 (e a) b) = product (rowsOf e X) W (ix2 a b) := rfl

theorem combine_rows {m m' k n : ℕ} (e : Fin m' → Fin m) (h : (⟨2, ![m, k]⟩ : Shape).Idx → EReal)
    (Wr : (⟨2, ![k, n]⟩ : Shape).Idx → EReal) (br : (⟨2, ![1, n]⟩ : Shape).Idx → EReal)
    (agg : (⟨2, ![m, n]⟩ : Shape).Idx → EReal) (b : (⟨2, ![1, n]⟩ : Shape).Idx → EReal) (a : Fin m') (q : Fin n) :
    combine h Wr br agg b (ix2 (e a) q) = combine (rowsOf e h) Wr br (rowsOf e agg) b (ix2 a q) := rfl

theorem readout_rows {m m' k n p : ℕ} (e : Fin m' → Fin m) (h : (⟨2, ![m, k]⟩ : Shape).Idx → EReal)
    (Wi : (⟨2, ![k, n]⟩ : Shape).Idx → EReal) (bi : (⟨2, ![1, n]⟩ : Shape).Idx → EReal)
    (Wo : (⟨2, ![n, p]⟩ : Shape).Idx → EReal) (bo : (⟨2, ![1, p]⟩ : Shape).Idx → EReal) (a : Fin m') (q : Fin p) :
    readout h Wi bi Wo bo (ix2 (e a) q) = readout (rowsOf e h) Wi bi Wo bo (ix2 a q) := rfl

end Cert.Layers

end
-- ==== Proof.LibLayerForms.lean ====
/-
  The three dense pieces, as a block of rows computes them and as the host computes them.

  On the extended reals a change of float format is the identity, a matrix product accumulated into the zero
  matrix is the plain sum of products, a one-row matrix repeated down the rows adds its entry of the same column,
  and a maximum with zero is the clamp. So the vector operations a block applies to its rows, and the host's
  operations on whole arrays, are both the pieces of `Layers` of their operands.
-/
import proofs.«143796_j45518063403266_1_alg».proof.Proof.LibLayers

noncomputable section

open scoped BigOperators

namespace Cert.Layers

open Idealize.ShloMosaic Idealize.ShloMosaic.ValueIdx Cert.DenseRows

/-! ## A block of rows -/

/-- A block's product into the zero accumulator, its operands first narrowed. -/
theorem block_product {m k n : ℕ} (x0 : FVec Ideal ⟨2, ![m, k]⟩ .f32) (x1 : FVec Ideal ⟨2, ![k, n]⟩ .f32)
    (ht : FTy.bf16.bits < FTy.f32.bits) :
    matmul (DotDims.plain m k n) none (truncf .bf16 x0 ht) (truncf .bf16 x1 ht) (constant ⟨2, ![m, n]⟩ .f32 0x00000000#32)
      = product x0 x1 := by
  funext i
  obtain ⟨a, b, rfl⟩ : ∃ (a : Fin m) (b : Fin n), i = ix2 a b := ⟨i 0, i 1, eq_ix2 i⟩
  rw [matmul_plain_zero_apply]
  rfl

/-- A block's residual dense layer clamped, added to its clamped aggregated rows plus bias. -/
theorem block_combine {m k n : ℕ} (x0 : FVec Ideal ⟨2, ![m, k]⟩ .f32) (x1 : FVec Ideal ⟨2, ![k, n]⟩ .f32)
    (x2 : FVec Ideal ⟨2, ![1, n]⟩ .f32) (x3 : FVec Ideal ⟨2, ![m, n]⟩ .f32) (x4 : FVec Ideal ⟨2, ![1, n]⟩ .f32)
    (h1 : (⟨2, ![1, n]⟩ : Shape).ShapeCasts ⟨2, ![1, n]⟩) (h2 : (⟨2, ![1, n]⟩ : Shape).Broadcasts ⟨2, ![m, n]⟩)
    (h3 : (⟨2, ![m, n]⟩ : Shape).ShapeCasts ⟨2, ![m, n]⟩) (ht : FTy.bf16.bits < FTy.f32.bits) :
    addf
      (maximumf (addf (shapeCast ⟨2, ![m, n]⟩ x3 h3) (broadcastTo ⟨2, ![m, n]⟩ (shapeCast ⟨2, ![1, n]⟩ x4 h1) h2))
        (broadcast ⟨2, ![m, n]⟩ (Scalar.ofBits .f32 0x00000000#32 : Ideal .f32)))
      (maximumf
        (addf (matmul (DotDims.plain m k n) none (truncf .bf16 x0 ht) (truncf .bf16 x1 ht) (constant ⟨2, ![m, n]⟩ .f32 0x00000000#32))
          (broadcastTo ⟨2, ![m, n]⟩ (shapeCast ⟨2, ![1, n]⟩ x2 h1) h2))
        (broadcast ⟨2, ![m, n]⟩ (Scalar.ofBits .f32 0x00000000#32 : Ideal .f32)))
      = combine x0 x1 x2 x3 x4 := by
  rw [shapeCast_self, shapeCast_self, shapeCast_self]
  funext i
  obtain ⟨a, b, rfl⟩ : ∃ (a : Fin m) (b : Fin n), i = ix2 a b := ⟨i 0, i 1, eq_ix2 i⟩
  show max (x3 (ix2 a b) + broadcastTo ⟨2, ![m, n]⟩ x4 h2 (ix2 a b)) (Ideal.ofBits .f32 0x00000000#32)
      + max (matmul (DotDims.plain m k n) none x0 x1 (constant ⟨2, ![m, n]⟩ .f32 0x00000000#32) (ix2 a b)
          + broadcastTo ⟨2, ![m, n]⟩ x2 h2 (ix2 a b)) (Ideal.ofBits .f32 0x00000000#32) = _
  rw [matmul_plain_zero_apply, broadcastTo_1b_ab_apply, broadcastTo_1b_ab_apply]
  rfl

/-- A block's dense layer, clamped and narrowed, through a second dense layer. -/
theorem block_readout {m k n p : ℕ} (x0 : FVec Ideal ⟨2, ![m, k]⟩ .f32) (x1 : FVec Ideal ⟨2, ![k, n]⟩ .f32)
    (x2 : FVec Ideal ⟨2, ![1, n]⟩ .f32) (x3 : FVec Ideal ⟨2, ![n, p]⟩ .f32) (x4 : FVec Ideal ⟨2, ![1, p]⟩ .f32)
    (h0 : (⟨2, ![m, k]⟩ : Shape).ShapeCasts ⟨2, ![m, k]⟩)
    (h1 : (⟨2, ![1, n]⟩ : Shape).ShapeCasts ⟨2, ![1, n]⟩) (h2 : (⟨2, ![1, n]⟩ : Shape).Broadcasts ⟨2, ![m, n]⟩)
    (h3 : (⟨2, ![1, p]⟩ : Shape).ShapeCasts ⟨2, ![1, p]⟩) (h4 : (⟨2, ![1, p]⟩ : Shape).Broadcasts ⟨2, ![m, p]⟩)
    (ht : FTy.bf16.bits < FTy.f32.bits) :
    addf
      (matmul (DotDims.plain m n p) none
        (truncf .bf16
          (maximumf
            (addf (matmul (DotDims.plain m k n) none (truncf .bf16 (shapeCast ⟨2, ![m, k]⟩ x0 h0) ht) (truncf .bf16 x1 ht)
                (constant ⟨2, ![m, n]⟩ .f32 0x00000000#32))
              (broadcastTo ⟨2, ![m, n]⟩ (shapeCast ⟨2, ![1, n]⟩ x2 h1) h2))
            (broadcast ⟨2, ![m, n]⟩ (Scalar.ofBits .f32 0x00000000#32 : Ideal .f32))) ht)
        (truncf .bf16 x3 ht) (constant ⟨2, ![m, p]⟩ .f32 0x00000000#32))
      (broadcastTo ⟨2, ![m, p]⟩ (shapeCast ⟨2, ![1, p]⟩ x4 h3) h4)
      = readout x0 x1 x2 x3 x4 := by
  rw [shapeCast_self, shapeCast_self, shapeCast_self]
  have inner : (maximumf
      (addf (matmul (DotDims.plain m k n) none x0 x1 (constant ⟨2, ![m, n]⟩ .f32 0x00000000#32))
        (broadcastTo ⟨2, ![m, n]⟩ x2 h2))
      (broadcast ⟨2, ![m, n]⟩ (Scalar.ofBits .f32 0x00000000#32 : Ideal .f32)) : FVec Ideal ⟨2, ![m, n]⟩ .f32)
      = clamp0 (denseRows x0 x1 x2) := by
    funext i
    obtain ⟨a, b, rfl⟩ : ∃ (a : Fin m) (b : Fin n), i = ix2 a b := ⟨i 0, i 1, eq_ix2 i⟩
    show max (matmul (DotDims.plain m k n) none x0 x1 (constant ⟨2, ![m, n]⟩ .f32 0x00000000#32) (ix2 a b)
        + broadcastTo ⟨2, ![m, n]⟩ x2 h2 (ix2 a b)) (Ideal.ofBits .f32 0x00000000#32) = _
    rw [matmul_plain_zero_apply, broadcastTo_1b_ab_apply]
    rfl
  funext i
  obtain ⟨a, b, rfl⟩ : ∃ (a : Fin m) (b : Fin p), i = ix2 a b := ⟨i 0, i 1, eq_ix2 i⟩
  show matmul (DotDims.plain m n p) none
        (maximumf
          (addf (matmul (DotDims.plain m k n) none x0 x1 (constant ⟨2, ![m, n]⟩ .f32 0x00000000#32))
            (broadcastTo ⟨2, ![m, n]⟩ x2 h2))
          (broadcast ⟨2, ![m, n]⟩ (Scalar.ofBits .f32 0x00000000#32 : Ideal .f32)))
        x3 (constant ⟨2, ![m, p]⟩ .f32 0x00000000#32) (ix2 a b)
      + broadcastTo ⟨2, ![m, p]⟩ x4 h4 (ix2 a b) = _
  rw [inner, matmul_plain_zero_apply, broadcastTo_1b_ab_apply]
  rfl

/-! ## The host, on whole arrays -/

/-- A length-n vector laid out as one row. -/
def asRow {n : ℕ} (v : (⟨1, ![n]⟩ : Shape).Idx → EReal) : (⟨2, ![1, n]⟩ : Shape).Idx → EReal :=
  fun i => v (ix1 (i 1))

theorem shapeCast_asRow {n : ℕ} (v : (⟨1, ![n]⟩ : Shape).Idx → EReal) (h : (⟨1, ![n]⟩ : Shape).ShapeCasts ⟨2, ![1, n]⟩) :
    shapeCast ⟨2, ![1, n]⟩ v h = asRow v := by
  funext i
  obtain ⟨u, q, rfl⟩ : ∃ (u : Fin 1) (q : Fin n), i = ix2 u q := ⟨i 0, i 1, eq_ix2 i⟩
  rw [shapeCast_a_1a_apply]
  rfl

/-- The host's plain product. -/
theorem host_product {m k n : ℕ} (A : FVec Ideal ⟨2, ![m, k]⟩ .f32) (B : FVec Ideal ⟨2, ![k, n]⟩ .f32) :
    Host.dotGeneral (DotDims.plain m k n) none A B = product A B := by
  funext i
  obtain ⟨a, b, rfl⟩ : ∃ (a : Fin m) (b : Fin n), i = ix2 a b := ⟨i 0, i 1, eq_ix2 i⟩
  rw [hostDotGeneral_plain_apply]
  rfl

/-- The host's dense layer: plain product plus the two broadcasts of the bias vector. -/
theorem host_denseRows {m k n : ℕ} (A : FVec Ideal ⟨2, ![m, k]⟩ .f32) (B : FVec Ideal ⟨2, ![k, n]⟩ .f32)
    (v : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![m, n]⟩ ![0, 1]) :
    addf (Host.dotGeneral (DotDims.plain m k n) none A B)
        (broadcastInDim ⟨2, ![m, n]⟩ ![0, 1] g2 (broadcastInDim ⟨2, ![1, n]⟩ ![1] g1 v))
      = denseRows A B (asRow v) := by
  funext i
  obtain ⟨a, b, rfl⟩ : ∃ (a : Fin m) (b : Fin n), i = ix2 a b := ⟨i 0, i 1, eq_ix2 i⟩
  rw [Cert.LibDenseLayer.dense_apply, denseRows_apply]
  rfl

/-- The host's aggregated rows plus the two broadcasts of a bias vector, at an entry. -/
theorem host_addRow_apply {m n : ℕ} (X : FVec Ideal ⟨2, ![m, n]⟩ .f32) (v : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![m, n]⟩ ![0, 1]) :
    addf X (broadcastInDim ⟨2, ![m, n]⟩ ![0, 1] g2 (broadcastInDim ⟨2, ![1, n]⟩ ![1] g1 v))
      = fun j : (⟨2, ![m, n]⟩ : Shape).Idx => X j + asRow v (ix2 (0 : Fin 1) (j 1)) := by
  funext i
  obtain ⟨p, q, rfl⟩ : ∃ (p : Fin m) (q : Fin n), i = ix2 p q := ⟨i 0, i 1, eq_ix2 i⟩
  show X (ix2 p q) + broadcastInDim ⟨2, ![m, n]⟩ ![0, 1] g2 (broadcastInDim ⟨2, ![1, n]⟩ ![1] g1 v) (ix2 p q) = _
  have hq : q.val = if n = 1 then 0 else q.val := by
    split
    · have := q.isLt; omega
    · rfl
  have hk2 : ∀ ax : Fin 2, ((ix2 (0 : Fin 1) q : (⟨2, ![1, n]⟩ : Shape).Idx) ax).val
      = if (⟨2, ![1, n]⟩ : Shape).size ax = 1 then 0 else ((ix2 p q : (⟨2, ![m, n]⟩ : Shape).Idx) ((![0, 1] : Fin 2 → Fin 2) ax)).val := fun ax =>
    match ax with
    | ⟨0, _⟩ => rfl
    | ⟨1, _⟩ => hq
  have hk1 : ∀ ax : Fin 1, ((ix1 q : (⟨1, ![n]⟩ : Shape).Idx) ax).val
      = if (⟨1, ![n]⟩ : Shape).size ax = 1 then 0 else ((ix2 (0 : Fin 1) q : (⟨2, ![1, n]⟩ : Shape).Idx) ((![1] : Fin 1 → Fin 2) ax)).val := fun ax =>
    match ax with
    | ⟨0, _⟩ => hq
  rw [broadcastInDim_apply _ g2 _ (ix2 p q) (ix2 (0 : Fin 1) q) hk2, broadcastInDim_apply _ g1 v (ix2 (0 : Fin 1) q) (ix1 q) hk1]
  rfl

/-- The host's layer: clamped aggregated rows plus bias, plus the clamped residual dense layer. -/
theorem host_combine {m k n : ℕ} (h : FVec Ideal ⟨2, ![m, k]⟩ .f32) (Wr : FVec Ideal ⟨2, ![k, n]⟩ .f32)
    (br : FVec Ideal ⟨1, ![n]⟩ .f32) (agg : FVec Ideal ⟨2, ![m, n]⟩ .f32) (b : FVec Ideal ⟨1, ![n]⟩ .f32)
    (g0 : (⟨0, ![]⟩ : Shape).BroadcastsInDim ⟨2, ![m, n]⟩ ![])
    (g1 : (⟨1, ![n]⟩ : Shape).BroadcastsInDim ⟨2, ![1, n]⟩ ![1])
    (g2 : (⟨2, ![1, n]⟩ : Shape).BroadcastsInDim ⟨2, ![m, n]⟩ ![0, 1]) :
    addf
      (maximumf (addf agg (broadcastInDim ⟨2, ![m, n]⟩ ![0, 1] g2 (broadcastInDim ⟨2, ![1, n]⟩ ![1] g1 b)))
        (broadcastInDim ⟨2, ![m, n]⟩ ![] g0 (constant (F := Ideal) ⟨0, ![]⟩ .f32 0x00000000#32)))
      (maximumf
        (addf (Host.dotGeneral (DotDims.plain m k n) none h Wr)
          (broadcastInDim ⟨2, ![m, n]⟩ ![0, 1] g2 (broadcastInDim ⟨2, ![1, n]⟩ ![1] g1 br)))
        (broadcastInDim ⟨2, ![m, n]⟩ ![] g0 (constant (F := Ideal) ⟨0, ![]⟩ .f32 0x00000000#32)))
      = combine h Wr (asRow br) agg (asRow b) := by
  rw [host_denseRows, host_addRow_apply, host_clamp0, host_clamp0]
  rfl

/-- The host's readout: a dense layer of the clamped dense layer. -/
theorem host_readout {m k n p : ℕ} (h : FVec Ideal ⟨2, ![m, k]⟩ .f32) (Wi : FVec Ideal ⟨2, ![k, n]⟩ .f32)
    (bi : FVec Ideal ⟨1, ![n]⟩ .f32) (Wo : FVec Ideal ⟨2, ![n, p]⟩ .f32) (bo : FVec Ideal ⟨1, ![p]⟩ .f32)
    (g0 : (⟨0, ![]⟩ : Shape).BroadcastsInDim ⟨2, ![m, n]⟩ ![])
    (g1 : (⟨1, ![n]⟩ : Shape).BroadcastsInDim ⟨2, ![1, n]⟩ ![1])
    (g2 : (⟨2, ![1, n]⟩ : Shape).BroadcastsInDim ⟨2, ![m, n]⟩ ![0, 1])
    (g3 : (⟨1, ![p]⟩ : Shape).BroadcastsInDim ⟨2, ![1, p]⟩ ![1])
    (g4 : (⟨2, ![1, p]⟩ : Shape).BroadcastsInDim ⟨2, ![m, p]⟩ ![0, 1]) :
    addf
      (Host.dotGeneral (DotDims.plain m n p) none
        (maximumf
          (addf (Host.dotGeneral (DotDims.plain m k n) none h Wi)
            (broadcastInDim ⟨2, ![m, n]⟩ ![0, 1] g2 (broadcastInDim ⟨2, ![1, n]⟩ ![1] g1 bi)))
          (broadcastInDim ⟨2, ![m, n]⟩ ![] g0 (constant (F := Ideal) ⟨0, ![]⟩ .f32 0x00000000#32)))
        Wo)
      (broadcastInDim ⟨2, ![m, p]⟩ ![0, 1] g4 (broadcastInDim ⟨2, ![1, p]⟩ ![1] g3 bo))
      = readout h Wi (asRow bi) Wo (asRow bo) := by
  rw [host_denseRows, host_clamp0, host_denseRows]
  rfl

end Cert.Layers

end
-- ==== Proof.Region0.lean ====
/-
  Region 0: the product h · W over a grid of 25 blocks of 2000 rows.

  Point t stages rows 2000·t … 2000·t + 1999 of h and the whole of W, and writes back the same rows of the result.
  A block's product depends on its own rows of h only, so block t of the final array is block t of
  `product h W` of the whole arrays; the 25 blocks cover every row.
-/
import proofs.«143796_j45518063403266_1_alg».proof.Proof.Gen.KernelIdeal.Frame
import proofs.«143796_j45518063403266_1_alg».proof.Proof.LibLayerForms

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.Layers

variable (V : (c : Dev nD) → (b : Ref sig .tc) → Buf (Elt Ideal) ((c : Thread nD τ).loc b))

theorem zero2 : (![0, 0] : Fin 2 → Nat) = fun _ => 0 := funext fun a => by fin_cases a <;> rfl

/-- Row a of block t is row 2000·t + a of the array. -/
def rowAt (t : Fin 25) (a : Fin 2000) : Fin 50000 := ⟨t.val * 2000 + a.val, by have := t.isLt; have := a.isLt; omega⟩

/-- The body's one stored value, as a function of its loaded blocks. -/
theorem pay_eq (x0 : Vec Ideal S2000x256 .f32) (x1 : Vec Ideal S256x256 .f32) :
    k0_pay1 (F := Ideal) x0 x1 = product x0 x1 := by
  unfold k0_pay1
  exact block_product x0 x1 bitsLt_bf16_f32

/-- The printed index maps over the grid: a row-blocked window sits at block (t, 0), a whole operand at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem emb_0 (t : Fin cfg0.N) (y : S2000x256.Idx) : ((cfg0.win 0).blk t).view.emb y = ix2 (rowAt t (y 0)) (y 1) := by
  obtain ⟨e0_0, e0_1, e1_0, e1_1, e2_0, e2_1⟩ := idx_facts t
  funext a; apply Fin.ext
  match a with
  | ⟨0, _⟩ => show win0_0.index t (0 : Fin 2) * 2000 + 1 * (y 0).val = t.val * 2000 + (y 0).val; omega
  | ⟨1, _⟩ => show win0_0.index t (1 : Fin 2) * 256 + 1 * (y 1).val = (y 1).val; omega

theorem emb_1 (t : Fin cfg0.N) (y : S256x256.Idx) : ((cfg0.win 1).blk t).view.emb y = y := by
  obtain ⟨e0_0, e0_1, e1_0, e1_1, e2_0, e2_1⟩ := idx_facts t
  funext a; apply Fin.ext
  match a with
  | ⟨0, _⟩ => show win0_1.index t (0 : Fin 2) * 256 + 1 * (y 0).val = (y 0).val; omega
  | ⟨1, _⟩ => show win0_1.index t (1 : Fin 2) * 256 + 1 * (y 1).val = (y 1).val; omega

theorem emb_2 (t : Fin cfg0.N) (y : S2000x256.Idx) : ((cfg0.win 2).blk t).view.emb y = ix2 (rowAt t (y 0)) (y 1) := by
  obtain ⟨e0_0, e0_1, e1_0, e1_1, e2_0, e2_1⟩ := idx_facts t
  funext a; apply Fin.ext
  match a with
  | ⟨0, _⟩ => show win0_2.index t (0 : Fin 2) * 2000 + 1 * (y 0).val = t.val * 2000 + (y 0).val; omega
  | ⟨1, _⟩ => show win0_2.index t (1 : Fin 2) * 256 + 1 * (y 1).val = (y 1).val; omega

/-- A row-blocked operand's staged block is its rows 2000·t …; a whole operand's is the operand. -/
theorem blk_0 (c : Dev nD) (t : Fin cfg0.N) : iblk0 V c 0 t = rowsOf (rowAt t) (V c main_arg0) := by
  funext y
  show V c main_arg0 (((cfg0.win 0).blk t).view.emb y) = V c main_arg0 (ix2 (rowAt t (y 0)) (y 1))
  rw [emb_0]
  rfl

theorem blk_1 (c : Dev nD) (t : Fin cfg0.N) : iblk0 V c 1 t = V c main_arg10 := by
  funext y
  show V c main_arg10 (((cfg0.win 1).blk t).view.emb y) = V c main_arg10 y
  rw [emb_1]

/-- What point t writes back is block t of the piece applied to the whole arrays. -/
theorem flushed_eq (c : Dev nD) (t : Fin cfg0.N) :
    (dat0 V c).flushed 2 t = ((cfg0.win 2).blk t).view.read (Elt Ideal) (product (V c main_arg0) (V c main_arg10)) := by
  show (cfg0.win 2).cut (grid0.coords t) ((dat0 V c).after 2 t) = _
  rw [after0_2]
  unfold out0_2
  rw [View.canon_unit_zero zero2]
  simp only [View.ld_unit_zero (S := S2000x256) zero2, View.ld_unit_zero (S := S256x256) zero2]
  rw [pay_eq, blk_0, blk_1]
  funext j
  show product (rowsOf (rowAt t) (V c main_arg0)) (V c main_arg10) j = product (V c main_arg0) (V c main_arg10) (((cfg0.win 2).blk t).view.emb j)
  rw [emb_2, eq_ix2 j]
  exact (product_rows (rowAt t) (V c main_arg0) (V c main_arg10) (j 0) (j 1)).symm

theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v0).slice (win0_2.rect t)).set ↔ _
  rw [View.set_slice_whole, Rect.mem_set_unit]
  exact Iff.rfl

/-- Every row lies in the block of the point numbered by its quotient by 2000. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  let t : Fin cfg0.N := ⟨(i 0).val / 2000, by show (i 0).val / 2000 < 25; omega⟩
  obtain ⟨e0_0, e0_1, e1_0, e1_1, e2_0, e2_1⟩ := idx_facts t
  have ht : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- The result array after the region: the piece applied to the arrays the region found. -/
theorem final (c : Dev nD) : (dat0 V c).arrAt 2 cfg0.N = product (V c main_arg0) (V c main_arg10) :=
  (dat0 V c).arrAt_eq_of_cover 2 _ (fun t _ => flushed_eq V c t) cover

end Cert.KernelIdeal.Region0

end
-- ==== Proof.Region1.lean ====
/-
  Region 1: one graph-convolution layer's combine step over a grid of 25 blocks of 2000 rows.

  Point t stages rows 2000·t … of the node features h and of the aggregated messages, and the whole of the residual
  weight and of the two bias rows; it writes back the same rows of max(agg + b, 0) + max(h · Wr + br, 0). A row of
  that depends on the same row of h and of agg only, so block t of the final array is block t of `combine` of
  the whole arrays; the 25 blocks cover every row.
-/
import proofs.«143796_j45518063403266_1_alg».proof.Proof.Gen.KernelIdeal.Frame
import proofs.«143796_j45518063403266_1_alg».proof.Proof.LibLayerForms

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.Layers

variable (V : (c : Dev nD) → (b : Ref sig .tc) → Buf (Elt Ideal) ((c : Thread nD τ).loc b))

theorem zero2 : (![0, 0] : Fin 2 → Nat) = fun _ => 0 := funext fun a => by fin_cases a <;> rfl

/-- Row a of block t is row 2000·t + a of the array. -/
def rowAt (t : Fin 25) (a : Fin 2000) : Fin 50000 := ⟨t.val * 2000 + a.val, by have := t.isLt; have := a.isLt; omega⟩

/-- The body's one stored value, as a function of its loaded blocks. -/
theorem pay_eq (x0 : Vec Ideal S2000x256 .f32) (x1 : Vec Ideal S256x256 .f32) (x2 : Vec Ideal S1x256 .f32) (x3 : Vec Ideal S2000x256 .f32) (x4 : Vec Ideal S1x256 .f32) :
    k1_pay1 (F := Ideal) x0 x1 x2 x3 x4 = combine x0 x1 x2 x3 x4 := by
  unfold k1_pay1
  exact block_combine x0 x1 x2 x3 x4 shapeCasts_S1x256_S1x256 broadcasts_S1x256_S2000x256 shapeCasts_S2000x256_S2000x256 bitsLt_bf16_f32

/-- The printed index maps over the grid: a row-blocked window sits at block (t, 0), a whole operand at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem emb_0 (t : Fin cfg1.N) (y : S2000x256.Idx) : ((cfg1.win 0).blk t).view.emb y = ix2 (rowAt t (y 0)) (y 1) := by
  obtain ⟨e0_0, e0_1, e1_0, e1_1, e2_0, e2_1, e3_0, e3_1, e4_0, e4_1, e5_0, e5_1⟩ := idx_facts t
  funext a; apply Fin.ext
  match a with
  | ⟨0, _⟩ => show win1_0.index t (0 : Fin 2) * 2000 + 1 * (y 0).val = t.val * 2000 + (y 0).val; omega
  | ⟨1, _⟩ => show win1_0.index t (1 : Fin 2) * 256 + 1 * (y 1).val = (y 1).val; omega

theorem emb_1 (t : Fin cfg1.N) (y : S256x256.Idx) : ((cfg1.win 1).blk t).view.emb y = y := by
  obtain ⟨e0_0, e0_1, e1_0, e1_1, e2_0, e2_1, e3_0, e3_1, e4_0, e4_1, e5_0, e5_1⟩ := idx_facts t
  funext a; apply Fin.ext
  match a with
  | ⟨0, _⟩ => show win1_1.index t (0 : Fin 2) * 256 + 1 * (y 0).val = (y 0).val; omega
  | ⟨1, _⟩ => show win1_1.index t (1 : Fin 2) * 256 + 1 * (y 1).val = (y 1).val; omega

theorem emb_2 (t : Fin cfg1.N) (y : S1x256.Idx) : ((cfg1.win 2).blk t).view.emb y = y := by
  obtain ⟨e0_0, e0_1, e1_0, e1_1, e2_0, e2_1, e3_0, e3_1, e4_0, e4_1, e5_0, e5_1⟩ := idx_facts t
  funext a; apply Fin.ext
  match a with
  | ⟨0, _⟩ => show win1_2.index t (0 : Fin 2) * 1 + 1 * (y 0).val = (y 0).val; omega
  | ⟨1, _⟩ => show win1_2.index t (1 : Fin 2) * 256 + 1 * (y 1).val = (y 1).val; omega

theorem emb_3 (t : Fin cfg1.N) (y : S2000x256.Idx) : ((cfg1.win 3).blk t).view.emb y = ix2 (rowAt t (y 0)) (y 1) := by
  obtain ⟨e0_0, e0_1, e1_0, e1_1, e2_0, e2_1, e3_0, e3_1, e4_0, e4_1, e5_0, e5_1⟩ := idx_facts t
  funext a; apply Fin.ext
  match a with
  | ⟨0, _⟩ => show win1_3.index t (0 : Fin 2) * 2000 + 1 * (y 0).val = t.val * 2000 + (y 0).val; omega
  | ⟨1, _⟩ => show win1_3.index t (1 : Fin 2) * 256 + 1 * (y 1).val = (y 1).val; omega

theorem emb_4 (t : Fin cfg1.N) (y : S1x256.Idx) : ((cfg1.win 4).blk t).view.emb y = y := by
  obtain ⟨e0_0, e0_1, e1_0, e1_1, e2_0, e2_1, e3_0, e3_1, e4_0, e4_1, e5_0, e5_1⟩ := idx_facts t
  funext a; apply Fin.ext
  match a with
  | ⟨0, _⟩ => show win1_4.index t (0 : Fin 2) * 1 + 1 * (y 0).val = (y 0).val; omega
  | ⟨1, _⟩ => show win1_4.index t (1 : Fin 2) * 256 + 1 * (y 1).val = (y 1).val; omega

theorem emb_5 (t : Fin cfg1.N) (y : S2000x256.Idx) : ((cfg1.win 5).blk t).view.emb y = ix2 (rowAt t (y 0)) (y 1) := by
  obtain ⟨e0_0, e0_1, e1_0, e1_1, e2_0, e2_1, e3_0, e3_1, e4_0, e4_1, e5_0, e5_1⟩ := idx_facts t
  funext a; apply Fin.ext
  match a with
  | ⟨0, _⟩ => show win1_5.index t (0 : Fin 2) * 2000 + 1 * (y 0).val = t.val * 2000 + (y 0).val; omega
  | ⟨1, _⟩ => show win1_5.index t (1 : Fin 2) * 256 + 1 * (y 1).val = (y 1).val; omega

/-- A row-blocked operand's staged block is its rows 2000·t …; a whole operand's is the operand. -/
theorem blk_0 (c : Dev nD) (t : Fin cfg1.N) : iblk1 V c 0 t = rowsOf (rowAt t) (V c main_arg0) := by
  funext y
  show V c main_arg0 (((cfg1.win 0).blk t).view.emb y) = V c main_arg0 (ix2 (rowAt t (y 0)) (y 1))
  rw [emb_0]
  rfl

theorem blk_1 (c : Dev nD) (t : Fin cfg1.N) : iblk1 V c 1 t = V c main_arg12 := by
  funext y
  show V c main_arg12 (((cfg1.win 1).blk t).view.emb y) = V c main_arg12 y
  rw [emb_1]

theorem blk_2 (c : Dev nD) (t : Fin cfg1.N) : iblk1 V c 2 t = V c main_v5 := by
  funext y
  show V c main_v5 (((cfg1.win 2).blk t).view.emb y) = V c main_v5 y
  rw [emb_2]

theorem blk_3 (c : Dev nD) (t : Fin cfg1.N) : iblk1 V c 3 t = rowsOf (rowAt t) (V c main_v4) := by
  funext y
  show V c main_v4 (((cfg1.win 3).blk t).view.emb y) = V c main_v4 (ix2 (rowAt t (y 0)) (y 1))
  rw [emb_3]
  rfl

theorem blk_4 (c : Dev nD) (t : Fin cfg1.N) : iblk1 V c 4 t = V c main_v6 := by
  funext y
  show V c main_v6 (((cfg1.win 4).blk t).view.emb y) = V c main_v6 y
  rw [emb_4]

/-- What point t writes back is block t of the piece applied to the whole arrays. -/
theorem flushed_eq (c : Dev nD) (t : Fin cfg1.N) :
    (dat1 V c).flushed 5 t = ((cfg1.win 5).blk t).view.read (Elt Ideal) (combine (V c main_arg0) (V c main_arg12) (V c main_v5) (V c main_v4) (V c main_v6)) := by
  show (cfg1.win 5).cut (grid1.coords t) ((dat1 V c).after 5 t) = _
  rw [after1_5]
  unfold out1_5
  rw [View.canon_unit_zero zero2]
  simp only [View.ld_unit_zero (S := S2000x256) zero2, View.ld_unit_zero (S := S256x256) zero2, View.ld_unit_zero (S := S1x256) zero2]
  rw [pay_eq, blk_0, blk_1, blk_2, blk_3, blk_4]
  funext j
  show combine (rowsOf (rowAt t) (V c main_arg0)) (V c main_arg12) (V c main_v5) (rowsOf (rowAt t) (V c main_v4)) (V c main_v6) j = combine (V c main_arg0) (V c main_arg12) (V c main_v5) (V c main_v4) (V c main_v6) (((cfg1.win 5).blk t).view.emb j)
  rw [emb_5, eq_ix2 j]
  exact (combine_rows (rowAt t) (V c main_arg0) (V c main_arg12) (V c main_v5) (V c main_v4) (V c main_v6) (j 0) (j 1)).symm

theorem mem_blk (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v7).slice (win1_5.rect t)).set ↔ _
  rw [View.set_slice_whole, Rect.mem_set_unit]
  exact Iff.rfl

/-- Every row lies in the block of the point numbered by its quotient by 2000. -/
theorem cover (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  let t : Fin cfg1.N := ⟨(i 0).val / 2000, by show (i 0).val / 2000 < 25; omega⟩
  obtain ⟨e0_0, e0_1, e1_0, e1_1, e2_0, e2_1, e3_0, e3_1, e4_0, e4_1, e5_0, e5_1⟩ := idx_facts t
  have ht : t.val = (i 0).val / 2000 := rfl
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- The result array after the region: the piece applied to the arrays the region found. -/
theorem final (c : Dev nD) : (dat1 V c).arrAt 5 cfg1.N = combine (V c main_arg0) (V c main_arg12) (V c main_v5) (V c main_v4) (V c main_v6) :=
  (dat1 V c).arrAt_eq_of_cover 5 _ (fun t _ => flushed_eq V c t) cover

end Cert.KernelIdeal.Region1

end
-- ==== Proof.Region2.lean ====
/-
  Region 2: the two-layer readout over a grid of 25 blocks of 2000 rows.

  Point t stages rows 2000·t … of the node features h and the whole of both weights and both bias rows; it writes back
  the same rows of max(h · Wi + bi, 0) · Wo + bo. A row of that depends on the same row of h only, so block t of the
  final array is block t of `readout` of the whole arrays; the 25 blocks cover every row.
-/
import proofs.«143796_j45518063403266_1_alg».proof.Proof.Gen.KernelIdeal.Frame
import proofs.«143796_j45518063403266_1_alg».proof.Proof.LibLayerForms

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen Cert.Layers

variable (V : (c : Dev nD) → (b : Ref sig .tc) → Buf (Elt Ideal) ((c : Thread nD τ).loc b))

theorem zero2 : (![0, 0] : Fin 2 → Nat) = fun _ => 0 := funext fun a => by fin_cases a <;> rfl

/-- Row a of block t is row 2000·t + a of the array. -/
def rowAt (t : Fin 25) (a : Fin 2000) : Fin 50000 := ⟨t.val * 2000 + a.val, by have := t.isLt; have := a.isLt; omega⟩

/-- The body's one stored value, as a function of its loaded blocks. -/
theorem pay_eq (x0 : Vec Ideal S2000x256 .f32) (x1 : Vec Ideal S256x256 .f32) (x2 : Vec Ideal S1x256 .f32) (x3 : Vec Ideal S256x200 .f32) (x4 : Vec Ideal S1x200 .f32) :
    k2_pay1 (F := Ideal) x0 x1 x2 x3 x4 = readout x0 x1 x2 x3 x4 := by
  unfold k2_pay1
  exact block_readout x0 x1 x2 x3 x4 shapeCasts_S2000x256_S2000x256 shapeCasts_S1x256_S1x256 broadcasts_S1x256_S2000x256 shapeCasts_S1x200_S1x200 broadcasts_S1x200_S2000x200 bitsLt_bf16_f32

/-- The printed index maps over the grid: a row-blocked window sits at block (t, 0), a whole operand at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem emb_0 (t : Fin cfg2.N) (y : S2000x256.Idx) : ((cfg2.win 0).blk t).view.emb y = ix2 (rowAt t (y 0)) (y 1) := by
  obtain ⟨e0_0, e0_1, e1_0, e1_1, e2_0, e2_1, e3_0, e3_1, e4_0, e4_1, e5_0, e5_1⟩ := idx_facts t
  funext a; apply Fin.ext
  match a with
  | ⟨0, _⟩ => show win2_0.index t (0 : Fin 2) * 2000 + 1 * (y 0).val = t.val * 2000 + (y 0).val; omega
  | ⟨1, _⟩ => show win2_0.index t (1 : Fin 2) * 256 + 1 * (y 1).val = (y 1).val; omega

theorem emb_1 (t : Fin cfg2.N) (y : S256x256.Idx) : ((cfg2.win 1).blk t).view.emb y = y := by
  obtain ⟨e0_0, e0_1, e1_0, e1_1, e2_0, e2_1, e3_0, e3_1, e4_0, e4_1, e5_0, e5_1⟩ := idx_facts t
  funext a; apply Fin.ext
  match a with
  | ⟨0, _⟩ => show win2_1.index t (0 : Fin 2) * 256 + 1 * (y 0).val = (y 0).val; omega
  | ⟨1, _⟩ => show win2_1.index t (1 : Fin 2) * 256 + 1 * (y 1).val = (y 1).val; omega

theorem emb_2 (t : Fin cfg2.N) (y : S1x256.Idx) : ((cfg2.win 2).blk t).view.emb y = y := by
  obtain ⟨e0_0, e0_1, e1_0, e1_1, e2_0, e2_1, e3_0, e3_1, e4_0, e4_1, e5_0, e5_1⟩ := idx_facts t
  funext a; apply Fin.ext
  match a with
  | ⟨0, _⟩ => show win2_2.index t (0 : Fin 2) * 1 + 1 * (y 0).val = (y 0).val; omega
  | ⟨1, _⟩ => show win2_2.index t (1 : Fin 2) * 256 + 1 * (y 1).val = (y 1).val; omega

theorem emb_3 (t : Fin cfg2.N) (y : S256x200.Idx) : ((cfg2.win 3).blk t).view.emb y = y := by
  obtain ⟨e0_0, e0_1, e1_0, e1_1, e2_0, e2_1, e3_0, e3_1, e4_0, e4_1, e5_0, e5_1⟩ := idx_facts t
  funext a; apply Fin.ext
  match a with
  | ⟨0, _⟩ => show win2_3.index t (0 : Fin 2) * 256 + 1 * (y 0).val = (y 0).val; omega
  | ⟨1, _⟩ => show win2_3.index t (1 : Fin 2) * 200 + 1 * (y 1).val = (y 1).val; omega

theorem emb_4 (t : Fin cfg2.N) (y : S1x200.Idx) : ((cfg2.win 4).blk t).view.emb y = y := by
  obtain ⟨e0_0, e0_1, e1_0, e1_1, e2_0, e2_1, e3_0, e3_1, e4_0, e4_1, e5_0, e5_1⟩ := idx_facts t
  funext a; apply Fin.ext
  match a with
  | ⟨0, _⟩ => show win2_4.index t (0 : Fin 2) * 1 + 1 * (y 0).val = (y 0).val; omega
  | ⟨1, _⟩ => show win2_4.index t (1 : Fin 2) * 200 + 1 * (y 1).val = (y 1).val; omega

theorem emb_5 (t : Fin cfg2.N) (y : S2000x200.Idx) : ((cfg2.win 5).blk t).view.emb y = ix2 (rowAt t (y 0)) (y 1) := by
  obtain ⟨e0_0, e0_1, e1_0, e1_1, e2_0, e2_1, e3_0, e3_1, e4_0, e4_1, e5_0, e5_1⟩ := idx_facts t
  funext a; apply Fin.ext
  match a with
  | ⟨0, _⟩ => show win2_5.index t (0 : Fin 2) * 2000 + 1 * (y 0).val = t.val * 2000 + (y 0).val; omega
  | ⟨1, _⟩ => show win2_5.index t (1 : Fin 2) * 200 + 1 * (y 1).val = (y 1).val; omega

/-- A row-blocked operand's staged block is its rows 2000·t …; a whole operand's is the operand. -/
theorem blk_0 (c : Dev nD) (t : Fin cfg2.N) : iblk2 V c 0 t = rowsOf (rowAt t) (V c main_v7) := by
  funext y
  show V c main_v7 (((cfg2.win 0).blk t).view.emb y) = V c main_v7 (ix2 (rowAt t (y 0)) (y 1))
  rw [emb_0]
  rfl

theorem blk_1 (c : Dev nD) (t : Fin cfg2.N) : iblk2 V c 1 t = V c main_arg18 := by
  funext y
  show V c main_arg18 (((cfg2.win 1).blk t).view.emb y) = V c main_arg18 y
  rw [emb_1]

theorem blk_2 (c : Dev nD) (t : Fin cfg2.N) : iblk2 V c 2 t = V c main_v8 := by
  funext y
  show V c main_v8 (((cfg2.win 2).blk t).view.emb y) = V c main_v8 y
  rw [emb_2]

theorem blk_3 (c : Dev nD) (t : Fin cfg2.N) : iblk2 V c 3 t = V c main_arg20 := by
  funext y
  show V c main_arg20 (((cfg2.win 3).blk t).view.emb y) = V c main_arg20 y
  rw [emb_3]

theorem blk_4 (c : Dev nD) (t : Fin cfg2.N) : iblk2 V c 4 t = V c main_v9 := by
  funext y
  show V c main_v9 (((cfg2.win 4).blk t).view.emb y) = V c main_v9 y
  rw [emb_4]

/-- What point t writes back is block t of the piece applied to the whole arrays. -/
theorem flushed_eq (c : Dev nD) (t : Fin cfg2.N) :
    (dat2 V c).flushed 5 t = ((cfg2.win 5).blk t).view.read (Elt Ideal) (readout (V c main_v7) (V c main_arg18) (V c main_v8) (V c main_arg20) (V c main_v9)) := by
  show (cfg2.win 5).cut (grid2.coords t) ((dat2 V c).after 5 t) = _
  rw [after2_5]
  unfold out2_5
  rw [View.canon_unit_zero zero2]
  simp only [View.ld_unit_zero (S := S2000x256) zero2, View.ld_unit_zero (S := S256x256) zero2, View.ld_unit_zero (S := S1x256) zero2, View.ld_unit_zero (S := S256x200) zero2, View.ld_unit_zero (S := S1x200) zero2, View.ld_unit_zero (S := S2000x200) zero2]
  rw [pay_eq, blk_0, blk_1, blk_2, blk_3, blk_4]
  funext j
  show readout (rowsOf (rowAt t) (V c main_v7)) (V c main_arg18) (V c main_v8) (V c main_arg20) (V c main_v9) j = readout (V c main_v7) (V c main_arg18) (V c main_v8) (V c main_arg20) (V c main_v9) (((cfg2.win 5).blk t).view.emb j)
  rw [emb_5, eq_ix2 j]
  exact (readout_rows (rowAt t) (V c main_v7) (V c main_arg18) (V c main_v8) (V c main_arg20) (V c main_v9) (j 0) (j 1)).symm

theorem mem_blk (t : Fin cfg2.N) (i : S50000x200.Idx) :
    i ∈ ((cfg2.win 5).blk t).view.set ↔ ∀ a : Fin 2, win2_5.index t a * S2000x200.size a ≤ (i a).val ∧ (i a).val < win2_5.index t a * S2000x200.size a + S2000x200.size a := by
  show i ∈ ((View.whole main_v10).slice (win2_5.rect t)).set ↔ _
  rw [View.set_slice_whole, Rect.mem_set_unit]
  exact Iff.rfl

/-- Every row lies in the block of the point numbered by its quotient by 2000. -/
theorem cover (i : S50000x200.Idx) : ∃ t : Fin cfg2.N, (cfg2.win 5).flush t = true ∧ i ∈ ((cfg2.win 5).blk t).view.set := by
  have hi0 : (i 0).val < 50000 := (i 0).isLt
  have hi1 : (i 1).val < 200 := (i 1).isLt
  let t : Fin cfg2.N := ⟨(i 0).val / 2000, by show (i 0).val / 2000 < 25; omega⟩
  obtain ⟨e0_0, e0_1, e1_0, e1_1, e2_0, e2_1, e3_0, e3_1, e4_0, e4_1, e5_0, e5_1⟩ := idx_facts t
  have ht : t.val = (i 0).val / 2000 := rfl
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 200 ≤ (i 1).val ∧ (i 1).val < win2_5.index t (1 : Fin 2) * 200 + 200; omega

/-- The result array after the region: the piece applied to the arrays the region found. -/
theorem final (c : Dev nD) : (dat2 V c).arrAt 5 cfg2.N = readout (V c main_v7) (V c main_arg18) (V c main_v8) (V c main_arg20) (V c main_v9) :=
  (dat2 V c).arrAt_eq_of_cover 5 _ (fun t _ => flushed_eq V c t) cover

end Cert.KernelIdeal.Region2

end
-- ==== Proof.Region3.lean ====
/-
  Region 3: the product h · W over a grid of 25 blocks of 2000 rows.

  Point t stages rows 2000·t … 2000·t + 1999 of h and the whole of W, and writes back the same rows of the result.
  A block's product depends on its own rows of h only, so block t of the final array is block t of
  `product h W` of the whole arrays; the 25 blocks cover every row.
-/
import proofs.«143796_j45518063403266_1_alg».proof.Proof.Gen.KernelIdeal.Frame
import proofs.«143796_j45518063403266_1_alg».proof.Proof.LibLayerForms

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat)
open Cert.KernelIdeal Cert.KernelIdeal.Gen Cert.Layers

variable (V : (c : Dev nD) → (b : Ref sig .tc) → Buf (Elt Ideal) ((c : Thread nD τ).loc b))

theorem zero2 : (![0, 0] : Fin 2 → Nat) = fun _ => 0 := funext fun a => by fin_cases a <;> rfl

/-- Row a of block t is row 2000·t + a of the array. -/
def rowAt (t : Fin 25) (a : Fin 2000) : Fin 50000 := ⟨t.val * 2000 + a.val, by have := t.isLt; have := a.isLt; omega⟩

/-- The body's one stored value, as a function of its loaded blocks. -/
theorem pay_eq (x0 : Vec Ideal S2000x256 .f32) (x1 : Vec Ideal S256x256 .f32) :
    k3_pay1 (F := Ideal) x0 x1 = product x0 x1 := by
  unfold k3_pay1
  exact block_product x0 x1 bitsLt_bf16_f32

/-- The printed index maps over the grid: a row-blocked window sits at block (t, 0), a whole operand at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem emb_0 (t : Fin cfg3.N) (y : S2000x256.Idx) : ((cfg3.win 0).blk t).view.emb y = ix2 (rowAt t (y 0)) (y 1) := by
  obtain ⟨e0_0, e0_1, e1_0, e1_1, e2_0, e2_1⟩ := idx_facts t
  funext a; apply Fin.ext
  match a with
  | ⟨0, _⟩ => show win3_0.index t (0 : Fin 2) * 2000 + 1 * (y 0).val = t.val * 2000 + (y 0).val; omega
  | ⟨1, _⟩ => show win3_0.index t (1 : Fin 2) * 256 + 1 * (y 1).val = (y 1).val; omega

theorem emb_1 (t : Fin cfg3.N) (y : S256x256.Idx) : ((cfg3.win 1).blk t).view.emb y = y := by
  obtain ⟨e0_0, e0_1, e1_0, e1_1, e2_0, e2_1⟩ := idx_facts t
  funext a; apply Fin.ext
  match a with
  | ⟨0, _⟩ => show win3_1.index t (0 : Fin 2) * 256 + 1 * (y 0).val = (y 0).val; omega
  | ⟨1, _⟩ => show win3_1.index t (1 : Fin 2) * 256 + 1 * (y 1).val = (y 1).val; omega

theorem emb_2 (t : Fin cfg3.N) (y : S2000x256.Idx) : ((cfg3.win 2).blk t).view.emb y = ix2 (rowAt t (y 0)) (y 1) := by
  obtain ⟨e0_0, e0_1, e1_0, e1_1, e2_0, e2_1⟩ := idx_facts t
  funext a; apply Fin.ext
  match a with
  | ⟨0, _⟩ => show win3_2.index t (0 : Fin 2) * 2000 + 1 * (y 0).val = t.val * 2000 + (y 0).val; omega
  | ⟨1, _⟩ => show win3_2.index t (1 : Fin 2) * 256 + 1 * (y 1).val = (y 1).val; omega

/-- A row-blocked operand's staged block is its rows 2000·t …; a whole operand's is the operand. -/
theorem blk_0 (c : Dev nD) (t : Fin cfg3.N) : iblk3 V c 0 t = rowsOf (rowAt t) (V c main_arg2) := by
  funext y
  show V c main_arg2 (((cfg3.win 0).blk t).view.emb y) = V c main_arg2 (ix2 (rowAt t (y 0)) (y 1))
  rw [emb_0]
  rfl

theorem blk_1 (c : Dev nD) (t : Fin cfg3.N) : iblk3 V c 1 t = V c main_arg14 := by
  funext y
  show V c main_arg14 (((cfg3.win 1).blk t).view.emb y) = V c main_arg14 y
  rw [emb_1]

/-- What point t writes back is block t of the piece applied to the whole arrays. -/
theorem flushed_eq (c : Dev nD) (t : Fin cfg3.N) :
    (dat3 V c).flushed 2 t = ((cfg3.win 2).blk t).view.read (Elt Ideal) (product (V c main_arg2) (V c main_arg14)) := by
  show (cfg3.win 2).cut (grid3.coords t) ((dat3 V c).after 2 t) = _
  rw [after3_2]
  unfold out3_2
  rw [View.canon_unit_zero zero2]
  simp only [View.ld_unit_zero (S := S2000x256) zero2, View.ld_unit_zero (S := S256x256) zero2]
  rw [pay_eq, blk_0, blk_1]
  funext j
  show product (rowsOf (rowAt t) (V c main_arg2)) (V c main_arg14) j = product (V c main_arg2) (V c main_arg14) (((cfg3.win 2).blk t).view.emb j)
  rw [emb_2, eq_ix2 j]
  exact (product_rows (rowAt t) (V c main_arg2) (V c main_arg14) (j 0) (j 1)).symm

theorem mem_blk (t : Fin cfg3.N) (i : S50000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v14).slice (win3_2.rect t)).set ↔ _
  rw [View.set_slice_whole, Rect.mem_set_unit]
  exact Iff.rfl

/-- Every row lies in the block of the point numbered by its quotient by 2000. -/
theorem cover (i : S50000x256.Idx) : ∃ t : Fin cfg3.N, (cfg3.win 2).flush t = true ∧ i ∈ ((cfg3.win 2).blk t).view.set := by
  have hi0 : (i 0).val < 50000 := (i 0).isLt
  have hi1 : (i 1).val < 256 := (i 1).isLt
  let t : Fin cfg3.N := ⟨(i 0).val / 2000, by show (i 0).val / 2000 < 25; omega⟩
  obtain ⟨e0_0, e0_1, e1_0, e1_1, e2_0, e2_1⟩ := idx_facts t
  have ht : t.val = (i 0).val / 2000 := rfl
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 256 ≤ (i 1).val ∧ (i 1).val < win3_2.index t (1 : Fin 2) * 256 + 256; omega

/-- The result array after the region: the piece applied to the arrays the region found. -/
theorem final (c : Dev nD) : (dat3 V c).arrAt 2 cfg3.N = product (V c main_arg2) (V c main_arg14) :=
  (dat3 V c).arrAt_eq_of_cover 2 _ (fun t _ => flushed_eq V c t) cover

end Cert.KernelIdeal.Region3

end
-- ==== Proof.Region4.lean ====
/-
  Region 4: one graph-convolution layer's combine step over a grid of 25 blocks of 2000 rows.

  Point t stages rows 2000·t … of the node features h and of the aggregated messages, and the whole of the residual
  weight and of the two bias rows; it writes back the same rows of max(agg + b, 0) + max(h · Wr + br, 0). A row of
  that depends on the same row of h and of agg only, so block t of the final array is block t of `combine` of
  the whole arrays; the 25 blocks cover every row.
-/
import proofs.«143796_j45518063403266_1_alg».proof.Proof.Gen.KernelIdeal.Frame
import proofs.«143796_j45518063403266_1_alg».proof.Proof.LibLayerForms

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat)
open Cert.KernelIdeal Cert.KernelIdeal.Gen Cert.Layers

variable (V : (c : Dev nD) → (b : Ref sig .tc) → Buf (Elt Ideal) ((c : Thread nD τ).loc b))

theorem zero2 : (![0, 0] : Fin 2 → Nat) = fun _ => 0 := funext fun a => by fin_cases a <;> rfl

/-- Row a of block t is row 2000·t + a of the array. -/
def rowAt (t : Fin 25) (a : Fin 2000) : Fin 50000 := ⟨t.val * 2000 + a.val, by have := t.isLt; have := a.isLt; omega⟩

/-- The body's one stored value, as a function of its loaded blocks. -/
theorem pay_eq (x0 : Vec Ideal S2000x256 .f32) (x1 : Vec Ideal S256x256 .f32) (x2 : Vec Ideal S1x256 .f32) (x3 : Vec Ideal S2000x256 .f32) (x4 : Vec Ideal S1x256 .f32) :
    k4_pay1 (F := Ideal) x0 x1 x2 x3 x4 = combine x0 x1 x2 x3 x4 := by
  unfold k4_pay1
  exact block_combine x0 x1 x2 x3 x4 shapeCasts_S1x256_S1x256 broadcasts_S1x256_S2000x256 shapeCasts_S2000x256_S2000x256 bitsLt_bf16_f32

/-- The printed index maps over the grid: a row-blocked window sits at block (t, 0), a whole operand at block (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

theorem emb_0 (t : Fin cfg4.N) (y : S2000x256.Idx) : ((cfg4.win 0).blk t).view.emb y = ix2 (rowAt t (y 0)) (y 1) := by
  obtain ⟨e0_0, e0_1, e1_0, e1_1, e2_0, e2_1, e3_0, e3_1, e4_0, e4_1, e5_0, e5_1⟩ := idx_facts t
  funext a; apply Fin.ext
  match a with
  | ⟨0, _⟩ => show win4_0.index t (0 : Fin 2) * 2000 + 1 * (y 0).val = t.val * 2000 + (y 0).val; omega
  | ⟨1, _⟩ => show win4_0.index t (1 : Fin 2) * 256 + 1 * (y 1).val = (y 1).val; omega

theorem emb_1 (t : Fin cfg4.N) (y : S256x256.Idx) : ((cfg4.win 1).blk t).view.emb y = y := by
  obtain ⟨e0_0, e0_1, e1_0, e1_1, e2_0, e2_1, e3_0, e3_1, e4_0, e4_1, e5_0, e5_1⟩ := idx_facts t
  funext a; apply Fin.ext
  match a with
  | ⟨0, _⟩ => show win4_1.index t (0 : Fin 2) * 256 + 1 * (y 0).val = (y 0).val; omega
  | ⟨1, _⟩ => show win4_1.index t (1 : Fin 2) * 256 + 1 * (y 1).val = (y 1).val; omega

theorem emb_2 (t : Fin cfg4.N) (y : S1x256.Idx) : ((cfg4.win 2).blk t).view.emb y = y := by
  obtain ⟨e0_0, e0_1, e1_0, e1_1, e2_0, e2_1, e3_0, e3_1, e4_0, e4_1, e5_0, e5_1⟩ := idx_facts t
  funext a; apply Fin.ext
  match a with
  | ⟨0, _⟩ => show win4_2.index t (0 : Fin 2) * 1 + 1 * (y 0).val = (y 0).val; omega
  | ⟨1, _⟩ => show win4_2.index t (1 : Fin 2) * 256 + 1 * (y 1).val = (y 1).val; omega

theorem emb_3 (t : Fin cfg4.N) (y : S2000x256.Idx) : ((cfg4.win 3).blk t).view.emb y = ix2 (rowAt t (y 0)) (y 1) := by
  obtain ⟨e0_0, e0_1, e1_0, e1_1, e2_0, e2_1, e3_0, e3_1, e4_0, e4_1, e5_0, e5_1⟩ := idx_facts t
  funext a; apply Fin.ext
  match a with
  | ⟨0, _⟩ => show win4_3.index t (0 : Fin 2) * 2000 + 1 * (y 0).val = t.val * 2000 + (y 0).val; omega
  | ⟨1, _⟩ => show win4_3.index t (1 : Fin 2) * 256 + 1 * (y 1).val = (y 1).val; omega

theorem emb_4 (t : Fin cfg4.N) (y : S1x256.Idx) : ((cfg4.win 4).blk t).view.emb y = y := by
  obtain ⟨e0_0, e0_1, e1_0, e1_1, e2_0, e2_1, e3_0, e3_1, e4_0, e4_1, e5_0, e5_1⟩ := idx_facts t
  funext a; apply Fin.ext
  match a with
  | ⟨0, _⟩ => show win4_4.index t (0 : Fin 2) * 1 + 1 * (y 0).val = (y 0).val; omega
  | ⟨1, _⟩ => show win4_4.index t (1 : Fin 2) * 256 + 1 * (y 1).val = (y 1).val; omega

theorem emb_5 (t : Fin cfg4.N) (y : S2000x256.Idx) : ((cfg4.win 5).blk t).view.emb y = ix2 (rowAt t (y 0)) (y 1) := by
  obtain ⟨e0_0, e0_1, e1_0, e1_1, e2_0, e2_1, e3_0, e3_1, e4_0, e4_1, e5_0, e5_1⟩ := idx_facts t
  funext a; apply Fin.ext
  match a with
  | ⟨0, _⟩ => show win4_5.index t (0 : Fin 2) * 2000 + 1 * (y 0).val = t.val * 2000 + (y 0).val; omega
  | ⟨1, _⟩ => show win4_5.index t (1 : Fin 2) * 256 + 1 * (y 1).val = (y 1).val; omega

/-- A row-blocked operand's staged block is its rows 2000·t …; a whole operand's is the operand. -/
theorem blk_0 (c : Dev nD) (t : Fin cfg4.N) : iblk4 V c 0 t = rowsOf (rowAt t) (V c main_arg2) := by
  funext y
  show V c main_arg2 (((cfg4.win 0).blk t).view.emb y) = V c main_arg2 (ix2 (rowAt t (y 0)) (y 1))
  rw [emb_0]
  rfl

theorem blk_1 (c : Dev nD) (t : Fin cfg4.N) : iblk4 V c 1 t = V c main_arg16 := by
  funext y
  show V c main_arg16 (((cfg4.win 1).blk t).view.emb y) = V c main_arg16 y
  rw [emb_1]

theorem blk_2 (c : Dev nD) (t : Fin cfg4.N) : iblk4 V c 2 t = V c main_v19 := by
  funext y
  show V c main_v19 (((cfg4.win 2).blk t).view.emb y) = V c main_v19 y
  rw [emb_2]

theorem blk_3 (c : Dev nD) (t : Fin cfg4.N) : iblk4 V c 3 t = rowsOf (rowAt t) (V c main_v18) := by
  funext y
  show V c main_v18 (((cfg4.win 3).blk t).view.emb y) = V c main_v18 (ix2 (rowAt t (y 0)) (y 1))
  rw [emb_3]
  rfl

theorem blk_4 (c : Dev nD) (t : Fin cfg4.N) : iblk4 V c 4 t = V c main_v20 := by
  funext y
  show V c main_v20 (((cfg4.win 4).blk t).view.emb y) = V c main_v20 y
  rw [emb_4]

/-- What point t writes back is block t of the piece applied to the whole arrays. -/
theorem flushed_eq (c : Dev nD) (t : Fin cfg4.N) :
    (dat4 V c).flushed 5 t = ((cfg4.win 5).blk t).view.read (Elt Ideal) (combine (V c main_arg2) (V c main_arg16) (V c main_v19) (V c main_v18) (V c main_v20)) := by
  show (cfg4.win 5).cut (grid4.coords t) ((dat4 V c).after 5 t) = _
  rw [after4_5]
  unfold out4_5
  rw [View.canon_unit_zero zero2]
  simp only [View.ld_unit_zero (S := S2000x256) zero2, View.ld_unit_zero (S := S256x256) zero2, View.ld_unit_zero (S := S1x256) zero2]
  rw [pay_eq, blk_0, blk_1, blk_2, blk_3, blk_4]
  funext j
  show combine (rowsOf (rowAt t) (V c main_arg2)) (V c main_arg16) (V c main_v19) (rowsOf (rowAt t) (V c main_v18)) (V c main_v20) j = combine (V c main_arg2) (V c main_arg16) (V c main_v19) (V c main_v18) (V c main_v20) (((cfg4.win 5).blk t).view.emb j)
  rw [emb_5, eq_ix2 j]
  exact (combine_rows (rowAt t) (V c main_arg2) (V c main_arg16) (V c main_v19) (V c main_v18) (V c main_v20) (j 0) (j 1)).symm

theorem mem_blk (t : Fin cfg4.N) (i : S50000x256.Idx) :
    i ∈ ((cfg4.win 5).blk t).view.set ↔ ∀ a : Fin 2, win4_5.index t a * S2000x256.size a ≤ (i a).val ∧ (i a).val < win4_5.index t a * S2000x256.size a + S2000x256.size a := by
  show i ∈ ((View.whole main_v21).slice (win4_5.rect t)).set ↔ _
  rw [View.set_slice_whole, Rect.mem_set_unit]
  exact Iff.rfl

/-- Every row lies in the block of the point numbered by its quotient by 2000. -/
theorem cover (i : S50000x256.Idx) : ∃ t : Fin cfg4.N, (cfg4.win 5).flush t = true ∧ i ∈ ((cfg4.win 5).blk t).view.set := by
  have hi0 : (i 0).val < 50000 := (i 0).isLt
  have hi1 : (i 1).val < 256 := (i 1).isLt
  let t : Fin cfg4.N := ⟨(i 0).val / 2000, by show (i 0).val / 2000 < 25; omega⟩
  obtain ⟨e0_0, e0_1, e1_0, e1_1, e2_0, e2_1, e3_0, e3_1, e4_0, e4_1, e5_0, e5_1⟩ := idx_facts t
  have ht : t.val = (i 0).val / 2000 := rfl
  refine ⟨t, flush4_5 t, ?_⟩
  rw [mem_blk]
  intro a
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 256 ≤ (i 1).val ∧ (i 1).val < win4_5.index t (1 : Fin 2) * 256 + 256; omega

/-- The result array after the region: the piece applied to the arrays the region found. -/
theorem final (c : Dev nD) : (dat4 V c).arrAt 5 cfg4.N = combine (V c main_arg2) (V c main_arg16) (V c main_v19) (V c main_v18) (V c main_v20) :=
  (dat4 V c).arrAt_eq_of_cover 5 _ (fun t _ => flushed_eq V c t) cover

end Cert.KernelIdeal.Region4

end
-- ==== Proof.Region5.lean ====
/-
  Region 5: the two-layer readout over a grid of 25 blocks of 2000 rows.

  Point t stages rows 2000·t … of the node features h and the whole of both weights and both bias rows; it writes back
  the same rows of max(h · Wi + bi, 0) · Wo + bo. A row of that depends on the same row of h only, so block t of the
  final array is block t of `readout` of the whole arrays; the 25 blocks cover every row.
-/
import proofs.«143796_j45518063403266_1_alg».proof.Proof.Gen.KernelIdeal.Frame
import proofs.«143796_j45518063403266_1_alg».proof.Proof.LibLayerForms

set_option maxRecDepth 16384

noncomputable section

namespace Cert.KernelIdeal.Region5

open Idealize.ShloMosaic Idealize.ShloMosaic.TcCoe Idealize.ShloMosaic.ValueIdx Idealize.SL.Sem
open Idealize.ShloMosaic.Pipeline (Dat)
open Cert.KernelIdeal Cert.KernelIdeal.Gen Cert.Layers

variable (V : (c : Dev nD) → (b : Ref sig .tc) → Buf (Elt Ideal) ((c : Thread nD τ).loc b))

theorem zero2 : (![0, 0] : Fin 2 → Nat) = fun _ => 0 := funext fun a => by fin_cases a <;> rfl

/-- Row a of block t is row 2000·t + a of the array. -/
def rowAt (t : Fin 25) (a : Fin 2000) : Fin 50000 := ⟨t.val * 2000 + a.val, by have := t.isLt; have := a.isLt; omega⟩

/-- The body's one stored value, as a function of its loaded blocks. -/
theorem pay_eq (x0 : Vec Ideal S2000x256 .f32) (x1 : Vec Ideal S256x256 .f32) (x2 : Vec Ideal S1x256 .f32) (x3 : Vec Ideal S256x200 .f32) (x4 : Vec Ideal S1x200 .f32) :
    k5_pay1 (F := Ideal) x0 x1 x2 x3 x4 = readout x0 x1 x2 x3 x4 := by
  unfold k5_pay1
  exact block_readout x0 x1 x2 x3 x4 shapeCasts_S2000x256_S2000x256 shapeCasts_S1x256_S1x256 broadcasts_S1x256_S2000x256 shapeCasts_S1x200_S1x200 broadcasts_S1x200_S2000x200 bitsLt_bf16_f32

/-- The printed index maps over the grid: a row-blocked window sits at block (t, 0), a whole operand at block (0, 0). -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

theorem emb_0 (t : Fin cfg5.N) (y : S2000x256.Idx) : ((cfg5.win 0).blk t).view.emb y = ix2 (rowAt t (y 0)) (y 1) := by
  obtain ⟨e0_0, e0_1, e1_0, e1_1, e2_0, e2_1, e3_0, e3_1, e4_0, e4_1, e5_0, e5_1⟩ := idx_facts t
  funext a; apply Fin.ext
  match a with
  | ⟨0, _⟩ => show win5_0.index t (0 : Fin 2) * 2000 + 1 * (y 0).val = t.val * 2000 + (y 0).val; omega
  | ⟨1, _⟩ => show win5_0.index t (1 : Fin 2) * 256 + 1 * (y 1).val = (y 1).val; omega

theorem emb_1 (t : Fin cfg5.N) (y : S256x256.Idx) : ((cfg5.win 1).blk t).view.emb y = y := by
  obtain ⟨e0_0, e0_1, e1_0, e1_1, e2_0, e2_1, e3_0, e3_1, e4_0, e4_1, e5_0, e5_1⟩ := idx_facts t
  funext a; apply Fin.ext
  match a with
  | ⟨0, _⟩ => show win5_1.index t (0 : Fin 2) * 256 + 1 * (y 0).val = (y 0).val; omega
  | ⟨1, _⟩ => show win5_1.index t (1 : Fin 2) * 256 + 1 * (y 1).val = (y 1).val; omega

theorem emb_2 (t : Fin cfg5.N) (y : S1x256.Idx) : ((cfg5.win 2).blk t).view.emb y = y := by
  obtain ⟨e0_0, e0_1, e1_0, e1_1, e2_0, e2_1, e3_0, e3_1, e4_0, e4_1, e5_0, e5_1⟩ := idx_facts t
  funext a; apply Fin.ext
  match a with
  | ⟨0, _⟩ => show win5_2.index t (0 : Fin 2) * 1 + 1 * (y 0).val = (y 0).val; omega
  | ⟨1, _⟩ => show win5_2.index t (1 : Fin 2) * 256 + 1 * (y 1).val = (y 1).val; omega

theorem emb_3 (t : Fin cfg5.N) (y : S256x200.Idx) : ((cfg5.win 3).blk t).view.emb y = y := by
  obtain ⟨e0_0, e0_1, e1_0, e1_1, e2_0, e2_1, e3_0, e3_1, e4_0, e4_1, e5_0, e5_1⟩ := idx_facts t
  funext a; apply Fin.ext
  match a with
  | ⟨0, _⟩ => show win5_3.index t (0 : Fin 2) * 256 + 1 * (y 0).val = (y 0).val; omega
  | ⟨1, _⟩ => show win5_3.index t (1 : Fin 2) * 200 + 1 * (y 1).val = (y 1).val; omega

theorem emb_4 (t : Fin cfg5.N) (y : S1x200.Idx) : ((cfg5.win 4).blk t).view.emb y = y := by
  obtain ⟨e0_0, e0_1, e1_0, e1_1, e2_0, e2_1, e3_0, e3_1, e4_0, e4_1, e5_0, e5_1⟩ := idx_facts t
  funext a; apply Fin.ext
  match a with
  | ⟨0, _⟩ => show win5_4.index t (0 : Fin 2) * 1 + 1 * (y 0).val = (y 0).val; omega
  | ⟨1, _⟩ => show win5_4.index t (1 : Fin 2) * 200 + 1 * (y 1).val = (y 1).val; omega

theorem emb_5 (t : Fin cfg5.N) (y : S2000x200.Idx) : ((cfg5.win 5).blk t).view.emb y = ix2 (rowAt t (y 0)) (y 1) := by
  obtain ⟨e0_0, e0_1, e1_0, e1_1, e2_0, e2_1, e3_0, e3_1, e4_0, e4_1, e5_0, e5_1⟩ := idx_facts t
  funext a; apply Fin.ext
  match a with
  | ⟨0, _⟩ => show win5_5.index t (0 : Fin 2) * 2000 + 1 * (y 0).val = t.val * 2000 + (y 0).val; omega
  | ⟨1, _⟩ => show win5_5.index t (1 : Fin 2) * 200 + 1 * (y 1).val = (y 1).val; omega

/-- A row-blocked operand's staged block is its rows 2000·t …; a whole operand's is the operand. -/
theorem blk_0 (c : Dev nD) (t : Fin cfg5.N) : iblk5 V c 0 t = rowsOf (rowAt t) (V c main_v21) := by
  funext y
  show V c main_v21 (((cfg5.win 0).blk t).view.emb y) = V c main_v21 (ix2 (rowAt t (y 0)) (y 1))
  rw [emb_0]
  rfl

theorem blk_1 (c : Dev nD) (t : Fin cfg5.N) : iblk5 V c 1 t = V c main_arg22 := by
  funext y
  show V c main_arg22 (((cfg5.win 1).blk t).view.emb y) = V c main_arg22 y
  rw [emb_1]

theorem blk_2 (c : Dev nD) (t : Fin cfg5.N) : iblk5 V c 2 t = V c main_v22 := by
  funext y
  show V c main_v22 (((cfg5.win 2).blk t).view.emb y) = V c main_v22 y
  rw [emb_2]

theorem blk_3 (c : Dev nD) (t : Fin cfg5.N) : iblk5 V c 3 t = V c main_arg24 := by
  funext y
  show V c main_arg24 (((cfg5.win 3).blk t).view.emb y) = V c main_arg24 y
  rw [emb_3]

theorem blk_4 (c : Dev nD) (t : Fin cfg5.N) : iblk5 V c 4 t = V c main_v23 := by
  funext y
  show V c main_v23 (((cfg5.win 4).blk t).view.emb y) = V c main_v23 y
  rw [emb_4]

/-- What point t writes back is block t of the piece applied to the whole arrays. -/
theorem flushed_eq (c : Dev nD) (t : Fin cfg5.N) :
    (dat5 V c).flushed 5 t = ((cfg5.win 5).blk t).view.read (Elt Ideal) (readout (V c main_v21) (V c main_arg22) (V c main_v22) (V c main_arg24) (V c main_v23)) := by
  show (cfg5.win 5).cut (grid5.coords t) ((dat5 V c).after 5 t) = _
  rw [after5_5]
  unfold out5_5
  rw [View.canon_unit_zero zero2]
  simp only [View.ld_unit_zero (S := S2000x256) zero2, View.ld_unit_zero (S := S256x256) zero2, View.ld_unit_zero (S := S1x256) zero2, View.ld_unit_zero (S := S256x200) zero2, View.ld_unit_zero (S := S1x200) zero2, View.ld_unit_zero (S := S2000x200) zero2]
  rw [pay_eq, blk_0, blk_1, blk_2, blk_3, blk_4]
  funext j
  show readout (rowsOf (rowAt t) (V c main_v21)) (V c main_arg22) (V c main_v22) (V c main_arg24) (V c main_v23) j = readout (V c main_v21) (V c main_arg22) (V c main_v22) (V c main_arg24) (V c main_v23) (((cfg5.win 5).blk t).view.emb j)
  rw [emb_5, eq_ix2 j]
  exact (readout_rows (rowAt t) (V c main_v21) (V c main_arg22) (V c main_v22) (V c main_arg24) (V c main_v23) (j 0) (j 1)).symm

theorem mem_blk (t : Fin cfg5.N) (i : S50000x200.Idx) :
    i ∈ ((cfg5.win 5).blk t).view.set ↔ ∀ a : Fin 2, win5_5.index t a * S2000x200.size a ≤ (i a).val ∧ (i a).val < win5_5.index t a * S2000x200.size a + S2000x200.size a := by
  show i ∈ ((View.whole main_v24).slice (win5_5.rect t)).set ↔ _
  rw [View.set_slice_whole, Rect.mem_set_unit]
  exact Iff.rfl

/-- Every row lies in the block of the point numbered by its quotient by 2000. -/
theorem cover (i : S50000x200.Idx) : ∃ t : Fin cfg5.N, (cfg5.win 5).flush t = true ∧ i ∈ ((cfg5.win 5).blk t).view.set := by
  have hi0 : (i 0).val < 50000 := (i 0).isLt
  have hi1 : (i 1).val < 200 := (i 1).isLt
  let t : Fin cfg5.N := ⟨(i 0).val / 2000, by show (i 0).val / 2000 < 25; omega⟩
  obtain ⟨e0_0, e0_1, e1_0, e1_1, e2_0, e2_1, e3_0, e3_1, e4_0, e4_1, e5_0, e5_1⟩ := idx_facts t
  have ht : t.val = (i 0).val / 2000 := rfl
  refine ⟨t, flush5_5 t, ?_⟩
  rw [mem_blk]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 200 ≤ (i 1).val ∧ (i 1).val < win5_5.index t (1 : Fin 2) * 200 + 200; omega

/-- The result array after the region: the piece applied to the arrays the region found. -/
theorem final (c : Dev nD) : (dat5 V c).arrAt 5 cfg5.N = readout (V c main_v21) (V c main_arg22) (V c main_v22) (V c main_arg24) (V c main_v23) :=
  (dat5 V c).arrAt_eq_of_cover 5 _ (fun t _ => flushed_eq V c t) cover

end Cert.KernelIdeal.Region5

end
-- ==== Proof.Net.lean ====
/-
  The whole network as one function of its argument arrays.

  Two graphs go through the same steps: the node features times a weight; each edge takes the row of that product at its
  source node; the rows are summed into their destination nodes; the combine step adds the residual branch; the readout
  maps every node to 200 features; the nodes are summed into their graphs. The two graph-level results are added and
  sent through the last linear map. The edge gather, the two segment sums and the closing steps are the host's
  operations in both programs and enter here as parameters; the three dense pieces are those of `Layers`.
-/
import proofs.«143796_j45518063403266_1_alg».proof.Proof.LibLayerForms

noncomputable section

namespace Cert.Net

open Idealize.ShloMosaic Cert.Layers

abbrev NodeFeats := (⟨2, ![50000, 256]⟩ : Shape).Idx → EReal
abbrev EdgeRows := (⟨2, ![800000, 256]⟩ : Shape).Idx → EReal
abbrev NodeOut := (⟨2, ![50000, 200]⟩ : Shape).Idx → EReal
abbrev GraphOut := (⟨2, ![512, 200]⟩ : Shape).Idx → EReal
abbrev Weight := (⟨2, ![256, 256]⟩ : Shape).Idx → EReal
abbrev WeightOut := (⟨2, ![256, 200]⟩ : Shape).Idx → EReal
abbrev Bias := (⟨1, ![256]⟩ : Shape).Idx → EReal
abbrev BiasOut := (⟨1, ![200]⟩ : Shape).Idx → EReal
abbrev EdgeIds := (⟨⟨1, ![800000]⟩, .i32⟩ : BufTy).Contents (Elt Ideal)
abbrev NodeIds := (⟨⟨1, ![50000]⟩, .i32⟩ : BufTy).Contents (Elt Ideal)

variable {Out : Type}

/-- One graph: layer, then readout, then the sum over each graph's nodes. -/
def graph (take : NodeFeats → EdgeIds → EdgeRows) (segE : EdgeRows → EdgeIds → NodeFeats) (segN : NodeOut → NodeIds → GraphOut)
    (h : NodeFeats) (src dst : EdgeIds) (gid : NodeIds) (W : Weight) (b : Bias) (Wr : Weight) (br : Bias)
    (Ri : Weight) (rbi : Bias) (Ro : WeightOut) (rbo : BiasOut) : GraphOut :=
  segN (readout (combine h Wr (asRow br) (segE (take (product h W) src) dst) (asRow b)) Ri (asRow rbi) Ro (asRow rbo)) gid

/-- Both graphs, added and closed by the last linear map (inside `tail`). -/
def net (take : NodeFeats → EdgeIds → EdgeRows) (segE : EdgeRows → EdgeIds → NodeFeats) (segN : NodeOut → NodeIds → GraphOut)
    (tail : GraphOut → GraphOut → Out)
    (h1 h2 : NodeFeats) (src1 dst1 : EdgeIds) (gid1 : NodeIds) (src2 dst2 : EdgeIds) (gid2 : NodeIds)
    (W1 : Weight) (b1 : Bias) (Wr1 : Weight) (br1 : Bias) (W2 : Weight) (b2 : Bias) (Wr2 : Weight) (br2 : Bias)
    (Ri1 : Weight) (rbi1 : Bias) (Ro1 : WeightOut) (rbo1 : BiasOut) (Ri2 : Weight) (rbi2 : Bias) (Ro2 : WeightOut) (rbo2 : BiasOut) : Out :=
  tail (graph take segE segN h1 src1 dst1 gid1 W1 b1 Wr1 br1 Ri1 rbi1 Ro1 rbo1)
    (graph take segE segN h2 src2 dst2 gid2 W2 b2 Wr2 br2 Ri2 rbi2 Ro2 rbo2)

end Cert.Net

end
-- ==== Proof.LibTypedRefCasts.lean ====
/-
  A tensor value stored into a buffer and read back is the value.

  A typed reference names a buffer together with the equation "the buffer's type is the value's type". Storing a value
  transports it along that equation and reading transports back, so reading what was stored is the identity — for any
  buffer, any type and any element interpretation, by taking the equation to be reflexivity. Rewriting with this
  removes the transports from the composed result of a line of operations on typed references before anything is
  compared definitionally.
-/
import Idealize.ShloMosaic.Lib.StableHlo

namespace Cert.LibTypedRefCasts

open Idealize.ShloMosaic Idealize.ShloMosaic.StableHlo

variable {sig : RefSig} {Val : EltTy → Type} {T : BufTy}

/-- Reading a value back through the buffer type it was stored at gives the value. -/
theorem ofBuf_toBuf (x : TRef sig T) (v : T.Contents Val) : x.ofBuf (x.toBuf v) = v := by
  obtain ⟨r, h1, h2, h3⟩ := x
  subst h1
  rfl

/-- Storing what was read through the buffer type gives it back. -/
theorem toBuf_ofBuf (x : TRef sig T) (w : x.ref.ty.Contents Val) : x.toBuf (x.ofBuf w) = w := by
  obtain ⟨r, h1, h2, h3⟩ := x
  subst h1
  rfl

end Cert.LibTypedRefCasts
-- ==== Proof.KernelValue.lean ====
/-
  The kernel program's result as the network function of its arguments.

  The boundary contents are followed through the program: a grid of blocks leaves in its result array the dense piece
  of the arrays it found (the six region modules), leaves every other buffer as it was, and a stretch of host
  operations leaves each buffer it writes at its operation's value of earlier buffers. No step writes an argument array.
  Read at the result buffer, the last boundary contents are the network function of the argument arrays.
-/
import proofs.«143796_j45518063403266_1_alg».proof.Proof.KernelRun
import proofs.«143796_j45518063403266_1_alg».proof.Proof.Region0
import proofs.«143796_j45518063403266_1_alg».proof.Proof.Region1
import proofs.«143796_j45518063403266_1_alg».proof.Proof.Region2
import proofs.«143796_j45518063403266_1_alg».proof.Proof.Region3
import proofs.«143796_j45518063403266_1_alg».proof.Proof.Region4
import proofs.«143796_j45518063403266_1_alg».proof.Proof.Region5
import proofs.«143796_j45518063403266_1_alg».proof.Proof.Net
import proofs.«143796_j45518063403266_1_alg».proof.Proof.LibTypedRefCasts
import Idealize.ShloMosaic.Lib.StableHlo.Run

set_option maxRecDepth 16384

noncomputable section

namespace Cert.KernelIdeal.Result

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.Layers Cert.Net

/-- The edge's source index brought into range: a negative index counted from the end, laid out as a column. -/
def wrapIdx (i : Cert.Net.EdgeIds) : (⟨S800000x1, .i32⟩ : BufTy).Contents (Elt Ideal) :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

/-- Whether each wrapped index lies in 0 … 49999. -/
def inRange (j : (⟨S800000x1, .i32⟩ : BufTy).Contents (Elt Ideal)) : (⟨S800000, .i1⟩ : BufTy).Contents (Elt Ideal) :=
  Host.reduce IntOp.andi
    (andi (cmpi .sge j (broadcastInDim S800000x1 ![] bcast_S_S800000x1 (constantI S_ 32 0#32)))
      (cmpi .sle j (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- Each edge's row of x at its source node; a row whose index is out of range is filled with the fill word. -/
def takeRows (x : Cert.Net.NodeFeats) (i : Cert.Net.EdgeIds) : Cert.Net.EdgeRows :=
  select (broadcastInDim S800000x256 ![0] bcast_S800000_S800000x256_0 (inRange (wrapIdx i)))
    (Host.gather gather_S50000x256_S800000x1_S800000x256_1_0_n_n_0_1_1256 x (wrapIdx i))
    (broadcastInDim S800000x256 ![] bcast_S_S800000x256 (constant (F := Ideal) S_ .f32 0x7FC00000#32))

/-- The edge rows summed into their destination nodes, from zero. -/
def sumToNodes (u : Cert.Net.EdgeRows) (i : Cert.Net.EdgeIds) : Cert.Net.NodeFeats :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 i) u

/-- The node rows summed into their graphs, from zero. -/
def sumToGraphs (u : Cert.Net.NodeOut) (i : Cert.Net.NodeIds) : Cert.Net.GraphOut :=
  Host.scatterAdd scatter_S512x200_S50000x1_S50000x200_1_0_0_1
    (broadcastInDim S512x200 ![] bcast_S_S512x200 (constant (F := Ideal) S_ .f32 0x00000000#32))
    (broadcastInDim S50000x1 ![0] bcast_S50000_S50000x1_0 i) u

/-- The two graph-level results added, through the last linear map, as a vector of 512. -/
def closing (Wp : FVec Ideal S200x1 .f32) (bp : FVec Ideal S1 .f32)
    (g1 g2 : Cert.Net.GraphOut) : (⟨S512, .f32⟩ : BufTy).Contents (Elt Ideal) :=
  shapeCast S512
    ((addf (Host.dotGeneral dot_S512x200_S200x1_S512x1_1_0_0_1_n_n none (addf g1 g2 : FVec Ideal S512x200 .f32) Wp)
      (broadcastInDim S512x1 ![0, 1] bcast_S1x1_S512x1_0_1 (broadcastInDim S1x1 ![1] bcast_S1_S1x1_1 bp))) : FVec Ideal S512x1 .f32)
    shapeCasts_S512x1_S512

variable (m : (ℓ : Loc nD τ sig) → Buf (Elt Ideal) ℓ) (ρ : Dev nD → PrngReg) (c : Dev nD)

/-! ## No step writes an argument array -/

theorem keep_hostOps1 (X : Valuation τ sig (Elt Ideal)) (b : Ref sig .tc) (hb : b.idx.val < 28) :
    StableHlo.after hostOps1 X (Proc.devRef .tc b) = X (Proc.devRef .tc b) := by
  refine StableHlo.after_of_forall_not_mem _ _ (List.forall_iff_forall_mem.mp ?_)
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; revert hb; decide)

theorem keep_hostOps1_1 (X : Valuation τ sig (Elt Ideal)) (b : Ref sig .tc) (hb : b.idx.val < 28) :
    StableHlo.after hostOps1_1 X (Proc.devRef .tc b) = X (Proc.devRef .tc b) := by
  refine StableHlo.after_of_forall_not_mem _ _ (List.forall_iff_forall_mem.mp ?_)
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; revert hb; decide)

theorem keep_hostOps2 (X : Valuation τ sig (Elt Ideal)) (b : Ref sig .tc) (hb : b.idx.val < 28) :
    StableHlo.after hostOps2 X (Proc.devRef .tc b) = X (Proc.devRef .tc b) := by
  refine StableHlo.after_of_forall_not_mem _ _ (List.forall_iff_forall_mem.mp ?_)
  simp only [hostOps2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; revert hb; decide)

theorem keep_hostOps3 (X : Valuation τ sig (Elt Ideal)) (b : Ref sig .tc) (hb : b.idx.val < 28) :
    StableHlo.after hostOps3 X (Proc.devRef .tc b) = X (Proc.devRef .tc b) := by
  refine StableHlo.after_of_forall_not_mem _ _ (List.forall_iff_forall_mem.mp ?_)
  simp only [hostOps3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; revert hb; decide)

theorem keep_hostOps4 (X : Valuation τ sig (Elt Ideal)) (b : Ref sig .tc) (hb : b.idx.val < 28) :
    StableHlo.after hostOps4 X (Proc.devRef .tc b) = X (Proc.devRef .tc b) := by
  refine StableHlo.after_of_forall_not_mem _ _ (List.forall_iff_forall_mem.mp ?_)
  simp only [hostOps4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; revert hb; decide)

theorem keep_hostOps4_1 (X : Valuation τ sig (Elt Ideal)) (b : Ref sig .tc) (hb : b.idx.val < 28) :
    StableHlo.after hostOps4_1 X (Proc.devRef .tc b) = X (Proc.devRef .tc b) := by
  refine StableHlo.after_of_forall_not_mem _ _ (List.forall_iff_forall_mem.mp ?_)
  simp only [hostOps4_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; revert hb; decide)

theorem keep_hostOps5 (X : Valuation τ sig (Elt Ideal)) (b : Ref sig .tc) (hb : b.idx.val < 28) :
    StableHlo.after hostOps5 X (Proc.devRef .tc b) = X (Proc.devRef .tc b) := by
  refine StableHlo.after_of_forall_not_mem _ _ (List.forall_iff_forall_mem.mp ?_)
  simp only [hostOps5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; revert hb; decide)

theorem keep_hostOps6 (X : Valuation τ sig (Elt Ideal)) (b : Ref sig .tc) (hb : b.idx.val < 28) :
    StableHlo.after hostOps6 X (Proc.devRef .tc b) = X (Proc.devRef .tc b) := by
  refine StableHlo.after_of_forall_not_mem _ _ (List.forall_iff_forall_mem.mp ?_)
  simp only [hostOps6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (fun e => by subst e; revert hb; decide)

theorem keep_region0 (b : Ref sig .tc) (hb : b.idx.val < 28) :
    W1 m ρ c (Proc.devRef .tc b) = W0 m ρ c (Proc.devRef .tc b) := by
  by_cases h0 : b = main_arg0
  · subst h0
    exact (W1_arr m ρ c 0).trans (((dat0 (V0 m ρ) c).arrAt_in 0 rfl _).trans (A_eq0 (V0 m ρ) c 0))
  by_cases h1 : b = main_arg10
  · subst h1
    exact (W1_arr m ρ c 1).trans (((dat0 (V0 m ρ) c).arrAt_in 1 rfl _).trans (A_eq0 (V0 m ρ) c 1))
  refine W1_of_ne m ρ c b fun w => ?_
  fin_cases w <;> first
    | exact Ne.symm h0
    | exact Ne.symm h1
    | exact fun e => by subst e; revert hb; decide

theorem keep_region1 (b : Ref sig .tc) (hb : b.idx.val < 28) :
    W4 m ρ c (Proc.devRef .tc b) = W3 m ρ c (Proc.devRef .tc b) := by
  by_cases h0 : b = main_arg0
  · subst h0
    exact (W4_arr m ρ c 0).trans (((dat1 (V3 m ρ) c).arrAt_in 0 rfl _).trans (A_eq1 (V3 m ρ) c 0))
  by_cases h1 : b = main_arg12
  · subst h1
    exact (W4_arr m ρ c 1).trans (((dat1 (V3 m ρ) c).arrAt_in 1 rfl _).trans (A_eq1 (V3 m ρ) c 1))
  refine W4_of_ne m ρ c b fun w => ?_
  fin_cases w <;> first
    | exact Ne.symm h0
    | exact Ne.symm h1
    | exact fun e => by subst e; revert hb; decide

theorem keep_region2 (b : Ref sig .tc) (hb : b.idx.val < 28) :
    W6 m ρ c (Proc.devRef .tc b) = W5 m ρ c (Proc.devRef .tc b) := by
  by_cases h0 : b = main_arg18
  · subst h0
    exact (W6_arr m ρ c 1).trans (((dat2 (V5 m ρ) c).arrAt_in 1 rfl _).trans (A_eq2 (V5 m ρ) c 1))
  by_cases h1 : b = main_arg20
  · subst h1
    exact (W6_arr m ρ c 3).trans (((dat2 (V5 m ρ) c).arrAt_in 3 rfl _).trans (A_eq2 (V5 m ρ) c 3))
  refine W6_of_ne m ρ c b fun w => ?_
  fin_cases w <;> first
    | exact Ne.symm h0
    | exact Ne.symm h1
    | exact fun e => by subst e; revert hb; decide

theorem keep_region3 (b : Ref sig .tc) (hb : b.idx.val < 28) :
    W8 m ρ c (Proc.devRef .tc b) = W7 m ρ c (Proc.devRef .tc b) := by
  by_cases h0 : b = main_arg2
  · subst h0
    exact (W8_arr m ρ c 0).trans (((dat3 (V7 m ρ) c).arrAt_in 0 rfl _).trans (A_eq3 (V7 m ρ) c 0))
  by_cases h1 : b = main_arg14
  · subst h1
    exact (W8_arr m ρ c 1).trans (((dat3 (V7 m ρ) c).arrAt_in 1 rfl _).trans (A_eq3 (V7 m ρ) c 1))
  refine W8_of_ne m ρ c b fun w => ?_
  fin_cases w <;> first
    | exact Ne.symm h0
    | exact Ne.symm h1
    | exact fun e => by subst e; revert hb; decide

theorem keep_region4 (b : Ref sig .tc) (hb : b.idx.val < 28) :
    W11 m ρ c (Proc.devRef .tc b) = W10 m ρ c (Proc.devRef .tc b) := by
  by_cases h0 : b = main_arg2
  · subst h0
    exact (W11_arr m ρ c 0).trans (((dat4 (V10 m ρ) c).arrAt_in 0 rfl _).trans (A_eq4 (V10 m ρ) c 0))
  by_cases h1 : b = main_arg16
  · subst h1
    exact (W11_arr m ρ c 1).trans (((dat4 (V10 m ρ) c).arrAt_in 1 rfl _).trans (A_eq4 (V10 m ρ) c 1))
  refine W11_of_ne m ρ c b fun w => ?_
  fin_cases w <;> first
    | exact Ne.symm h0
    | exact Ne.symm h1
    | exact fun e => by subst e; revert hb; decide

theorem keep_region5 (b : Ref sig .tc) (hb : b.idx.val < 28) :
    W13 m ρ c (Proc.devRef .tc b) = W12 m ρ c (Proc.devRef .tc b) := by
  by_cases h0 : b = main_arg22
  · subst h0
    exact (W13_arr m ρ c 1).trans (((dat5 (V12 m ρ) c).arrAt_in 1 rfl _).trans (A_eq5 (V12 m ρ) c 1))
  by_cases h1 : b = main_arg24
  · subst h1
    exact (W13_arr m ρ c 3).trans (((dat5 (V12 m ρ) c).arrAt_in 3 rfl _).trans (A_eq5 (V12 m ρ) c 3))
  refine W13_of_ne m ρ c b fun w => ?_
  fin_cases w <;> first
    | exact Ne.symm h0
    | exact Ne.symm h1
    | exact fun e => by subst e; revert hb; decide

theorem arg_at1 (b : Ref sig .tc) (hb : b.idx.val < 28) : W1 m ρ c (Proc.devRef .tc b) = m ((c : Thread nD τ).loc b) :=
  (keep_region0 m ρ c b hb).trans rfl
theorem arg_at2 (b : Ref sig .tc) (hb : b.idx.val < 28) : W2 m ρ c (Proc.devRef .tc b) = m ((c : Thread nD τ).loc b) :=
  (keep_hostOps1 (W1 m ρ c) b hb).trans (arg_at1 m ρ c b hb)
theorem arg_at3 (b : Ref sig .tc) (hb : b.idx.val < 28) : W3 m ρ c (Proc.devRef .tc b) = m ((c : Thread nD τ).loc b) :=
  (keep_hostOps1_1 (W2 m ρ c) b hb).trans (arg_at2 m ρ c b hb)
theorem arg_at4 (b : Ref sig .tc) (hb : b.idx.val < 28) : W4 m ρ c (Proc.devRef .tc b) = m ((c : Thread nD τ).loc b) :=
  (keep_region1 m ρ c b hb).trans (arg_at3 m ρ c b hb)
theorem arg_at5 (b : Ref sig .tc) (hb : b.idx.val < 28) : W5 m ρ c (Proc.devRef .tc b) = m ((c : Thread nD τ).loc b) :=
  (keep_hostOps2 (W4 m ρ c) b hb).trans (arg_at4 m ρ c b hb)
theorem arg_at6 (b : Ref sig .tc) (hb : b.idx.val < 28) : W6 m ρ c (Proc.devRef .tc b) = m ((c : Thread nD τ).loc b) :=
  (keep_region2 m ρ c b hb).trans (arg_at5 m ρ c b hb)
theorem arg_at7 (b : Ref sig .tc) (hb : b.idx.val < 28) : W7 m ρ c (Proc.devRef .tc b) = m ((c : Thread nD τ).loc b) :=
  (keep_hostOps3 (W6 m ρ c) b hb).trans (arg_at6 m ρ c b hb)
theorem arg_at8 (b : Ref sig .tc) (hb : b.idx.val < 28) : W8 m ρ c (Proc.devRef .tc b) = m ((c : Thread nD τ).loc b) :=
  (keep_region3 m ρ c b hb).trans (arg_at7 m ρ c b hb)
theorem arg_at9 (b : Ref sig .tc) (hb : b.idx.val < 28) : W9 m ρ c (Proc.devRef .tc b) = m ((c : Thread nD τ).loc b) :=
  (keep_hostOps4 (W8 m ρ c) b hb).trans (arg_at8 m ρ c b hb)
theorem arg_at10 (b : Ref sig .tc) (hb : b.idx.val < 28) : W10 m ρ c (Proc.devRef .tc b) = m ((c : Thread nD τ).loc b) :=
  (keep_hostOps4_1 (W9 m ρ c) b hb).trans (arg_at9 m ρ c b hb)
theorem arg_at11 (b : Ref sig .tc) (hb : b.idx.val < 28) : W11 m ρ c (Proc.devRef .tc b) = m ((c : Thread nD τ).loc b) :=
  (keep_region4 m ρ c b hb).trans (arg_at10 m ρ c b hb)
theorem arg_at12 (b : Ref sig .tc) (hb : b.idx.val < 28) : W12 m ρ c (Proc.devRef .tc b) = m ((c : Thread nD τ).loc b) :=
  (keep_hostOps5 (W11 m ρ c) b hb).trans (arg_at11 m ρ c b hb)
theorem arg_at13 (b : Ref sig .tc) (hb : b.idx.val < 28) : W13 m ρ c (Proc.devRef .tc b) = m ((c : Thread nD τ).loc b) :=
  (keep_region5 m ρ c b hb).trans (arg_at12 m ρ c b hb)

/-! ## The buffers the steps write, boundary by boundary -/

theorem w1_v0 : W1 m ρ c (Proc.devRef .tc main_v0) = product (m ((c : Thread nD τ).loc main_arg0)) (m ((c : Thread nD τ).loc main_arg10)) :=
  (W1_arr m ρ c 2).trans (Cert.KernelIdeal.Region0.final (V0 m ρ) c)

attribute [local irreducible] Host.reduce Host.gather Host.scatterAdd in
set_option maxHeartbeats 2000000 in
theorem w2_v1 : W2 m ρ c (Proc.devRef .tc main_v1) = takeRows (product (m ((c : Thread nD τ).loc main_arg0)) (m ((c : Thread nD τ).loc main_arg10))) (m ((c : Thread nD τ).loc main_arg4)) := by
  have h : W2 m ρ c (Proc.devRef .tc main_v1) = takeRows (W1 m ρ c (Proc.devRef .tc main_v0)) (W1 m ρ c (Proc.devRef .tc main_arg4)) := by
    show StableHlo.after hostOps1 (W1 m ρ c) (Proc.devRef .tc main_v1) = _
    after_results_simp
    simp only [Cert.LibTypedRefCasts.ofBuf_toBuf]
    rfl
  rw [h, w1_v0, arg_at1 m ρ c main_arg4 (by decide)]

attribute [local irreducible] Host.reduce Host.gather Host.scatterAdd in
set_option maxHeartbeats 2000000 in
theorem w3_v4 : W3 m ρ c (Proc.devRef .tc main_v4) = sumToNodes (takeRows (product (m ((c : Thread nD τ).loc main_arg0)) (m ((c : Thread nD τ).loc main_arg10))) (m ((c : Thread nD τ).loc main_arg4))) (m ((c : Thread nD τ).loc main_arg5)) := by
  have h : W3 m ρ c (Proc.devRef .tc main_v4) = sumToNodes (W2 m ρ c (Proc.devRef .tc main_v1)) (W2 m ρ c (Proc.devRef .tc main_arg5)) := by
    show StableHlo.after hostOps1_1 (W2 m ρ c) (Proc.devRef .tc main_v4) = _
    after_results_simp
    rfl
  rw [h, w2_v1, arg_at2 m ρ c main_arg5 (by decide)]

theorem w3_v5 : W3 m ρ c (Proc.devRef .tc main_v5) = asRow (m ((c : Thread nD τ).loc main_arg13)) := by
  have h : W3 m ρ c (Proc.devRef .tc main_v5) = asRow (W2 m ρ c (Proc.devRef .tc main_arg13)) := by
    show StableHlo.after hostOps1_1 (W2 m ρ c) (Proc.devRef .tc main_v5) = _
    after_results_simp
    exact shapeCast_asRow _ _
  rw [h, arg_at2 m ρ c main_arg13 (by decide)]

theorem w3_v6 : W3 m ρ c (Proc.devRef .tc main_v6) = asRow (m ((c : Thread nD τ).loc main_arg11)) := by
  have h : W3 m ρ c (Proc.devRef .tc main_v6) = asRow (W2 m ρ c (Proc.devRef .tc main_arg11)) := by
    show StableHlo.after hostOps1_1 (W2 m ρ c) (Proc.devRef .tc main_v6) = _
    after_results_simp
    exact shapeCast_asRow _ _
  rw [h, arg_at2 m ρ c main_arg11 (by decide)]

theorem w4_v7 : W4 m ρ c (Proc.devRef .tc main_v7) = combine (m ((c : Thread nD τ).loc main_arg0)) (m ((c : Thread nD τ).loc main_arg12)) (asRow (m ((c : Thread nD τ).loc main_arg13))) (sumToNodes (takeRows (product (m ((c : Thread nD τ).loc main_arg0)) (m ((c : Thread nD τ).loc main_arg10))) (m ((c : Thread nD τ).loc main_arg4))) (m ((c : Thread nD τ).loc main_arg5))) (asRow (m ((c : Thread nD τ).loc main_arg11))) := by
  refine (W4_arr m ρ c 5).trans ((Cert.KernelIdeal.Region1.final (V3 m ρ) c).trans ?_)
  show combine (W3 m ρ c (Proc.devRef .tc main_arg0)) (W3 m ρ c (Proc.devRef .tc main_arg12)) (W3 m ρ c (Proc.devRef .tc main_v5)) (W3 m ρ c (Proc.devRef .tc main_v4)) (W3 m ρ c (Proc.devRef .tc main_v6)) = _
  rw [arg_at3 m ρ c main_arg0 (by decide), arg_at3 m ρ c main_arg12 (by decide), w3_v5, w3_v4, w3_v6]

theorem w5_v8 : W5 m ρ c (Proc.devRef .tc main_v8) = asRow (m ((c : Thread nD τ).loc main_arg19)) := by
  have h : W5 m ρ c (Proc.devRef .tc main_v8) = asRow (W4 m ρ c (Proc.devRef .tc main_arg19)) := by
    show StableHlo.after hostOps2 (W4 m ρ c) (Proc.devRef .tc main_v8) = _
    after_results_simp
    exact shapeCast_asRow _ _
  rw [h, arg_at4 m ρ c main_arg19 (by decide)]

theorem w5_v9 : W5 m ρ c (Proc.devRef .tc main_v9) = asRow (m ((c : Thread nD τ).loc main_arg21)) := by
  have h : W5 m ρ c (Proc.devRef .tc main_v9) = asRow (W4 m ρ c (Proc.devRef .tc main_arg21)) := by
    show StableHlo.after hostOps2 (W4 m ρ c) (Proc.devRef .tc main_v9) = _
    after_results_simp
    exact shapeCast_asRow _ _
  rw [h, arg_at4 m ρ c main_arg21 (by decide)]

theorem w5_v7 : W5 m ρ c (Proc.devRef .tc main_v7) = combine (m ((c : Thread nD τ).loc main_arg0)) (m ((c : Thread nD τ).loc main_arg12)) (asRow (m ((c : Thread nD τ).loc main_arg13))) (sumToNodes (takeRows (product (m ((c : Thread nD τ).loc main_arg0)) (m ((c : Thread nD τ).loc main_arg10))) (m ((c : Thread nD τ).loc main_arg4))) (m ((c : Thread nD τ).loc main_arg5))) (asRow (m ((c : Thread nD τ).loc main_arg11))) := by
  have h : StableHlo.after hostOps2 (W4 m ρ c) (Proc.devRef .tc main_v7) = W4 m ρ c (Proc.devRef .tc main_v7) :=
    StableHlo.after_of_forall_not_mem _ _ (List.forall_iff_forall_mem.mp (by
      simp only [hostOps2, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact h.trans (w4_v7 m ρ c)

theorem w6_v10 : W6 m ρ c (Proc.devRef .tc main_v10) = readout (combine (m ((c : Thread nD τ).loc main_arg0)) (m ((c : Thread nD τ).loc main_arg12)) (asRow (m ((c : Thread nD τ).loc main_arg13))) (sumToNodes (takeRows (product (m ((c : Thread nD τ).loc main_arg0)) (m ((c : Thread nD τ).loc main_arg10))) (m ((c : Thread nD τ).loc main_arg4))) (m ((c : Thread nD τ).loc main_arg5))) (asRow (m ((c : Thread nD τ).loc main_arg11)))) (m ((c : Thread nD τ).loc main_arg18)) (asRow (m ((c : Thread nD τ).loc main_arg19))) (m ((c : Thread nD τ).loc main_arg20)) (asRow (m ((c : Thread nD τ).loc main_arg21))) := by
  refine (W6_arr m ρ c 5).trans ((Cert.KernelIdeal.Region2.final (V5 m ρ) c).trans ?_)
  show readout (W5 m ρ c (Proc.devRef .tc main_v7)) (W5 m ρ c (Proc.devRef .tc main_arg18)) (W5 m ρ c (Proc.devRef .tc main_v8)) (W5 m ρ c (Proc.devRef .tc main_arg20)) (W5 m ρ c (Proc.devRef .tc main_v9)) = _
  rw [w5_v7, arg_at5 m ρ c main_arg18 (by decide), w5_v8, arg_at5 m ρ c main_arg20 (by decide), w5_v9]

attribute [local irreducible] Host.reduce Host.gather Host.scatterAdd in
set_option maxHeartbeats 2000000 in
theorem w7_v13 : W7 m ρ c (Proc.devRef .tc main_v13) = sumToGraphs (readout (combine (m ((c : Thread nD τ).loc main_arg0)) (m ((c : Thread nD τ).loc main_arg12)) (asRow (m ((c : Thread nD τ).loc main_arg13))) (sumToNodes (takeRows (product (m ((c : Thread nD τ).loc main_arg0)) (m ((c : Thread nD τ).loc main_arg10))) (m ((c : Thread nD τ).loc main_arg4))) (m ((c : Thread nD τ).loc main_arg5))) (asRow (m ((c : Thread nD τ).loc main_arg11)))) (m ((c : Thread nD τ).loc main_arg18)) (asRow (m ((c : Thread nD τ).loc main_arg19))) (m ((c : Thread nD τ).loc main_arg20)) (asRow (m ((c : Thread nD τ).loc main_arg21)))) (m ((c : Thread nD τ).loc main_arg6)) := by
  have h : W7 m ρ c (Proc.devRef .tc main_v13) = sumToGraphs (W6 m ρ c (Proc.devRef .tc main_v10)) (W6 m ρ c (Proc.devRef .tc main_arg6)) := by
    show StableHlo.after hostOps3 (W6 m ρ c) (Proc.devRef .tc main_v13) = _
    after_results_simp
    rfl
  rw [h, w6_v10, arg_at6 m ρ c main_arg6 (by decide)]

theorem w8_v14 : W8 m ρ c (Proc.devRef .tc main_v14) = product (m ((c : Thread nD τ).loc main_arg2)) (m ((c : Thread nD τ).loc main_arg14)) := by
  refine (W8_arr m ρ c 2).trans ((Cert.KernelIdeal.Region3.final (V7 m ρ) c).trans ?_)
  show product (W7 m ρ c (Proc.devRef .tc main_arg2)) (W7 m ρ c (Proc.devRef .tc main_arg14)) = _
  rw [arg_at7 m ρ c main_arg2 (by decide), arg_at7 m ρ c main_arg14 (by decide)]

attribute [local irreducible] Host.reduce Host.gather Host.scatterAdd in
set_option maxHeartbeats 2000000 in
theorem w9_v15 : W9 m ρ c (Proc.devRef .tc main_v15) = takeRows (product (m ((c : Thread nD τ).loc main_arg2)) (m ((c : Thread nD τ).loc main_arg14))) (m ((c : Thread nD τ).loc main_arg7)) := by
  have h : W9 m ρ c (Proc.devRef .tc main_v15) = takeRows (W8 m ρ c (Proc.devRef .tc main_v14)) (W8 m ρ c (Proc.devRef .tc main_arg7)) := by
    show StableHlo.after hostOps4 (W8 m ρ c) (Proc.devRef .tc main_v15) = _
    after_results_simp
    simp only [Cert.LibTypedRefCasts.ofBuf_toBuf]
    rfl
  rw [h, w8_v14, arg_at8 m ρ c main_arg7 (by decide)]

attribute [local irreducible] Host.reduce Host.gather Host.scatterAdd in
set_option maxHeartbeats 2000000 in
theorem w10_v18 : W10 m ρ c (Proc.devRef .tc main_v18) = sumToNodes (takeRows (product (m ((c : Thread nD τ).loc main_arg2)) (m ((c : Thread nD τ).loc main_arg14))) (m ((c : Thread nD τ).loc main_arg7))) (m ((c : Thread nD τ).loc main_arg8)) := by
  have h : W10 m ρ c (Proc.devRef .tc main_v18) = sumToNodes (W9 m ρ c (Proc.devRef .tc main_v15)) (W9 m ρ c (Proc.devRef .tc main_arg8)) := by
    show StableHlo.after hostOps4_1 (W9 m ρ c) (Proc.devRef .tc main_v18) = _
    after_results_simp
    rfl
  rw [h, w9_v15, arg_at9 m ρ c main_arg8 (by decide)]

theorem w10_v19 : W10 m ρ c (Proc.devRef .tc main_v19) = asRow (m ((c : Thread nD τ).loc main_arg17)) := by
  have h : W10 m ρ c (Proc.devRef .tc main_v19) = asRow (W9 m ρ c (Proc.devRef .tc main_arg17)) := by
    show StableHlo.after hostOps4_1 (W9 m ρ c) (Proc.devRef .tc main_v19) = _
    after_results_simp
    exact shapeCast_asRow _ _
  rw [h, arg_at9 m ρ c main_arg17 (by decide)]

theorem w10_v20 : W10 m ρ c (Proc.devRef .tc main_v20) = asRow (m ((c : Thread nD τ).loc main_arg15)) := by
  have h : W10 m ρ c (Proc.devRef .tc main_v20) = asRow (W9 m ρ c (Proc.devRef .tc main_arg15)) := by
    show StableHlo.after hostOps4_1 (W9 m ρ c) (Proc.devRef .tc main_v20) = _
    after_results_simp
    exact shapeCast_asRow _ _
  rw [h, arg_at9 m ρ c main_arg15 (by decide)]

theorem w11_v21 : W11 m ρ c (Proc.devRef .tc main_v21) = combine (m ((c : Thread nD τ).loc main_arg2)) (m ((c : Thread nD τ).loc main_arg16)) (asRow (m ((c : Thread nD τ).loc main_arg17))) (sumToNodes (takeRows (product (m ((c : Thread nD τ).loc main_arg2)) (m ((c : Thread nD τ).loc main_arg14))) (m ((c : Thread nD τ).loc main_arg7))) (m ((c : Thread nD τ).loc main_arg8))) (asRow (m ((c : Thread nD τ).loc main_arg15))) := by
  refine (W11_arr m ρ c 5).trans ((Cert.KernelIdeal.Region4.final (V10 m ρ) c).trans ?_)
  show combine (W10 m ρ c (Proc.devRef .tc main_arg2)) (W10 m ρ c (Proc.devRef .tc main_arg16)) (W10 m ρ c (Proc.devRef .tc main_v19)) (W10 m ρ c (Proc.devRef .tc main_v18)) (W10 m ρ c (Proc.devRef .tc main_v20)) = _
  rw [arg_at10 m ρ c main_arg2 (by decide), arg_at10 m ρ c main_arg16 (by decide), w10_v19, w10_v18, w10_v20]

theorem w12_v22 : W12 m ρ c (Proc.devRef .tc main_v22) = asRow (m ((c : Thread nD τ).loc main_arg23)) := by
  have h : W12 m ρ c (Proc.devRef .tc main_v22) = asRow (W11 m ρ c (Proc.devRef .tc main_arg23)) := by
    show StableHlo.after hostOps5 (W11 m ρ c) (Proc.devRef .tc main_v22) = _
    after_results_simp
    exact shapeCast_asRow _ _
  rw [h, arg_at11 m ρ c main_arg23 (by decide)]

theorem w12_v23 : W12 m ρ c (Proc.devRef .tc main_v23) = asRow (m ((c : Thread nD τ).loc main_arg25)) := by
  have h : W12 m ρ c (Proc.devRef .tc main_v23) = asRow (W11 m ρ c (Proc.devRef .tc main_arg25)) := by
    show StableHlo.after hostOps5 (W11 m ρ c) (Proc.devRef .tc main_v23) = _
    after_results_simp
    exact shapeCast_asRow _ _
  rw [h, arg_at11 m ρ c main_arg25 (by decide)]

theorem w12_v21 : W12 m ρ c (Proc.devRef .tc main_v21) = combine (m ((c : Thread nD τ).loc main_arg2)) (m ((c : Thread nD τ).loc main_arg16)) (asRow (m ((c : Thread nD τ).loc main_arg17))) (sumToNodes (takeRows (product (m ((c : Thread nD τ).loc main_arg2)) (m ((c : Thread nD τ).loc main_arg14))) (m ((c : Thread nD τ).loc main_arg7))) (m ((c : Thread nD τ).loc main_arg8))) (asRow (m ((c : Thread nD τ).loc main_arg15))) := by
  have h : StableHlo.after hostOps5 (W11 m ρ c) (Proc.devRef .tc main_v21) = W11 m ρ c (Proc.devRef .tc main_v21) :=
    StableHlo.after_of_forall_not_mem _ _ (List.forall_iff_forall_mem.mp (by
      simp only [hostOps5, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact h.trans (w11_v21 m ρ c)

theorem w13_v24 : W13 m ρ c (Proc.devRef .tc main_v24) = readout (combine (m ((c : Thread nD τ).loc main_arg2)) (m ((c : Thread nD τ).loc main_arg16)) (asRow (m ((c : Thread nD τ).loc main_arg17))) (sumToNodes (takeRows (product (m ((c : Thread nD τ).loc main_arg2)) (m ((c : Thread nD τ).loc main_arg14))) (m ((c : Thread nD τ).loc main_arg7))) (m ((c : Thread nD τ).loc main_arg8))) (asRow (m ((c : Thread nD τ).loc main_arg15)))) (m ((c : Thread nD τ).loc main_arg22)) (asRow (m ((c : Thread nD τ).loc main_arg23))) (m ((c : Thread nD τ).loc main_arg24)) (asRow (m ((c : Thread nD τ).loc main_arg25))) := by
  refine (W13_arr m ρ c 5).trans ((Cert.KernelIdeal.Region5.final (V12 m ρ) c).trans ?_)
  show readout (W12 m ρ c (Proc.devRef .tc main_v21)) (W12 m ρ c (Proc.devRef .tc main_arg22)) (W12 m ρ c (Proc.devRef .tc main_v22)) (W12 m ρ c (Proc.devRef .tc main_arg24)) (W12 m ρ c (Proc.devRef .tc main_v23)) = _
  rw [w12_v21, arg_at12 m ρ c main_arg22 (by decide), w12_v22, arg_at12 m ρ c main_arg24 (by decide), w12_v23]

/-- The first graph's result waits, untouched, while the second graph is computed. -/
theorem w8_v13 : W8 m ρ c (Proc.devRef .tc main_v13) = sumToGraphs (readout (combine (m ((c : Thread nD τ).loc main_arg0)) (m ((c : Thread nD τ).loc main_arg12)) (asRow (m ((c : Thread nD τ).loc main_arg13))) (sumToNodes (takeRows (product (m ((c : Thread nD τ).loc main_arg0)) (m ((c : Thread nD τ).loc main_arg10))) (m ((c : Thread nD τ).loc main_arg4))) (m ((c : Thread nD τ).loc main_arg5))) (asRow (m ((c : Thread nD τ).loc main_arg11)))) (m ((c : Thread nD τ).loc main_arg18)) (asRow (m ((c : Thread nD τ).loc main_arg19))) (m ((c : Thread nD τ).loc main_arg20)) (asRow (m ((c : Thread nD τ).loc main_arg21)))) (m ((c : Thread nD τ).loc main_arg6)) :=
  (W8_of_ne m ρ c main_v13 (by decide)).trans (w7_v13 m ρ c)
theorem w9_v13 : W9 m ρ c (Proc.devRef .tc main_v13) = sumToGraphs (readout (combine (m ((c : Thread nD τ).loc main_arg0)) (m ((c : Thread nD τ).loc main_arg12)) (asRow (m ((c : Thread nD τ).loc main_arg13))) (sumToNodes (takeRows (product (m ((c : Thread nD τ).loc main_arg0)) (m ((c : Thread nD τ).loc main_arg10))) (m ((c : Thread nD τ).loc main_arg4))) (m ((c : Thread nD τ).loc main_arg5))) (asRow (m ((c : Thread nD τ).loc main_arg11)))) (m ((c : Thread nD τ).loc main_arg18)) (asRow (m ((c : Thread nD τ).loc main_arg19))) (m ((c : Thread nD τ).loc main_arg20)) (asRow (m ((c : Thread nD τ).loc main_arg21)))) (m ((c : Thread nD τ).loc main_arg6)) := by
  have h : StableHlo.after hostOps4 (W8 m ρ c) (Proc.devRef .tc main_v13) = W8 m ρ c (Proc.devRef .tc main_v13) :=
    StableHlo.after_of_forall_not_mem _ _ (List.forall_iff_forall_mem.mp (by
      simp only [hostOps4, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact h.trans (w8_v13 m ρ c)
theorem w10_v13 : W10 m ρ c (Proc.devRef .tc main_v13) = sumToGraphs (readout (combine (m ((c : Thread nD τ).loc main_arg0)) (m ((c : Thread nD τ).loc main_arg12)) (asRow (m ((c : Thread nD τ).loc main_arg13))) (sumToNodes (takeRows (product (m ((c : Thread nD τ).loc main_arg0)) (m ((c : Thread nD τ).loc main_arg10))) (m ((c : Thread nD τ).loc main_arg4))) (m ((c : Thread nD τ).loc main_arg5))) (asRow (m ((c : Thread nD τ).loc main_arg11)))) (m ((c : Thread nD τ).loc main_arg18)) (asRow (m ((c : Thread nD τ).loc main_arg19))) (m ((c : Thread nD τ).loc main_arg20)) (asRow (m ((c : Thread nD τ).loc main_arg21)))) (m ((c : Thread nD τ).loc main_arg6)) := by
  have h : StableHlo.after hostOps4_1 (W9 m ρ c) (Proc.devRef .tc main_v13) = W9 m ρ c (Proc.devRef .tc main_v13) :=
    StableHlo.after_of_forall_not_mem _ _ (List.forall_iff_forall_mem.mp (by
      simp only [hostOps4_1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact h.trans (w9_v13 m ρ c)
theorem w11_v13 : W11 m ρ c (Proc.devRef .tc main_v13) = sumToGraphs (readout (combine (m ((c : Thread nD τ).loc main_arg0)) (m ((c : Thread nD τ).loc main_arg12)) (asRow (m ((c : Thread nD τ).loc main_arg13))) (sumToNodes (takeRows (product (m ((c : Thread nD τ).loc main_arg0)) (m ((c : Thread nD τ).loc main_arg10))) (m ((c : Thread nD τ).loc main_arg4))) (m ((c : Thread nD τ).loc main_arg5))) (asRow (m ((c : Thread nD τ).loc main_arg11)))) (m ((c : Thread nD τ).loc main_arg18)) (asRow (m ((c : Thread nD τ).loc main_arg19))) (m ((c : Thread nD τ).loc main_arg20)) (asRow (m ((c : Thread nD τ).loc main_arg21)))) (m ((c : Thread nD τ).loc main_arg6)) :=
  (W11_of_ne m ρ c main_v13 (by decide)).trans (w10_v13 m ρ c)
theorem w12_v13 : W12 m ρ c (Proc.devRef .tc main_v13) = sumToGraphs (readout (combine (m ((c : Thread nD τ).loc main_arg0)) (m ((c : Thread nD τ).loc main_arg12)) (asRow (m ((c : Thread nD τ).loc main_arg13))) (sumToNodes (takeRows (product (m ((c : Thread nD τ).loc main_arg0)) (m ((c : Thread nD τ).loc main_arg10))) (m ((c : Thread nD τ).loc main_arg4))) (m ((c : Thread nD τ).loc main_arg5))) (asRow (m ((c : Thread nD τ).loc main_arg11)))) (m ((c : Thread nD τ).loc main_arg18)) (asRow (m ((c : Thread nD τ).loc main_arg19))) (m ((c : Thread nD τ).loc main_arg20)) (asRow (m ((c : Thread nD τ).loc main_arg21)))) (m ((c : Thread nD τ).loc main_arg6)) := by
  have h : StableHlo.after hostOps5 (W11 m ρ c) (Proc.devRef .tc main_v13) = W11 m ρ c (Proc.devRef .tc main_v13) :=
    StableHlo.after_of_forall_not_mem _ _ (List.forall_iff_forall_mem.mp (by
      simp only [hostOps5, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  exact h.trans (w11_v13 m ρ c)
theorem w13_v13 : W13 m ρ c (Proc.devRef .tc main_v13) = sumToGraphs (readout (combine (m ((c : Thread nD τ).loc main_arg0)) (m ((c : Thread nD τ).loc main_arg12)) (asRow (m ((c : Thread nD τ).loc main_arg13))) (sumToNodes (takeRows (product (m ((c : Thread nD τ).loc main_arg0)) (m ((c : Thread nD τ).loc main_arg10))) (m ((c : Thread nD τ).loc main_arg4))) (m ((c : Thread nD τ).loc main_arg5))) (asRow (m ((c : Thread nD τ).loc main_arg11)))) (m ((c : Thread nD τ).loc main_arg18)) (asRow (m ((c : Thread nD τ).loc main_arg19))) (m ((c : Thread nD τ).loc main_arg20)) (asRow (m ((c : Thread nD τ).loc main_arg21)))) (m ((c : Thread nD τ).loc main_arg6)) :=
  (W13_of_ne m ρ c main_v13 (by decide)).trans (w12_v13 m ρ c)

attribute [local irreducible] Host.reduce Host.gather Host.scatterAdd in
set_option maxHeartbeats 2000000 in
theorem w14_v33 : W14 m ρ c (Proc.devRef .tc main_v33) = closing (m ((c : Thread nD τ).loc main_arg26)) (m ((c : Thread nD τ).loc main_arg27)) (sumToGraphs (readout (combine (m ((c : Thread nD τ).loc main_arg0)) (m ((c : Thread nD τ).loc main_arg12)) (asRow (m ((c : Thread nD τ).loc main_arg13))) (sumToNodes (takeRows (product (m ((c : Thread nD τ).loc main_arg0)) (m ((c : Thread nD τ).loc main_arg10))) (m ((c : Thread nD τ).loc main_arg4))) (m ((c : Thread nD τ).loc main_arg5))) (asRow (m ((c : Thread nD τ).loc main_arg11)))) (m ((c : Thread nD τ).loc main_arg18)) (asRow (m ((c : Thread nD τ).loc main_arg19))) (m ((c : Thread nD τ).loc main_arg20)) (asRow (m ((c : Thread nD τ).loc main_arg21)))) (m ((c : Thread nD τ).loc main_arg6))) (sumToGraphs (readout (combine (m ((c : Thread nD τ).loc main_arg2)) (m ((c : Thread nD τ).loc main_arg16)) (asRow (m ((c : Thread nD τ).loc main_arg17))) (sumToNodes (takeRows (product (m ((c : Thread nD τ).loc main_arg2)) (m ((c : Thread nD τ).loc main_arg14))) (m ((c : Thread nD τ).loc main_arg7))) (m ((c : Thread nD τ).loc main_arg8))) (asRow (m ((c : Thread nD τ).loc main_arg15)))) (m ((c : Thread nD τ).loc main_arg22)) (asRow (m ((c : Thread nD τ).loc main_arg23))) (m ((c : Thread nD τ).loc main_arg24)) (asRow (m ((c : Thread nD τ).loc main_arg25)))) (m ((c : Thread nD τ).loc main_arg9))) := by
  have h : W14 m ρ c (Proc.devRef .tc main_v33) = closing (W13 m ρ c (Proc.devRef .tc main_arg26)) (W13 m ρ c (Proc.devRef .tc main_arg27)) (W13 m ρ c (Proc.devRef .tc main_v13)) (sumToGraphs (W13 m ρ c (Proc.devRef .tc main_v24)) (W13 m ρ c (Proc.devRef .tc main_arg9))) := by
    show StableHlo.after hostOps6 (W13 m ρ c) (Proc.devRef .tc main_v33) = _
    after_results_simp
    rfl
  rw [h, arg_at13 m ρ c main_arg26 (by decide), arg_at13 m ρ c main_arg27 (by decide), w13_v13, w13_v24, arg_at13 m ρ c main_arg9 (by decide)]

/-- The program's result: the network function of the argument arrays. -/
theorem result : W14 m ρ c (Proc.devRef .tc main_v33)
    = net takeRows sumToNodes sumToGraphs (closing (m ((c : Thread nD τ).loc main_arg26)) (m ((c : Thread nD τ).loc main_arg27))) (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) :=
  w14_v33 m ρ c

end Cert.KernelIdeal.Result

end
-- ==== Proof.RefRun.lean ====
/-
  The reference program as a straight line of host operations, and its run.

  The program calls three small functions (the index clamp and gather behind `take`, its inner select, and the clamp at
  zero); written out at their calls over each call's own buffers the program is a list of 120 operations, each
  writing one buffer as a function of buffers written before it. Every weakly fair execution runs the list to its
  end without a fault, and each buffer then holds what folding the operations over the launch contents gives.
-/
import proofs.«143796_j45518063403266_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The program's operations in order, the called functions' bodies written out at their calls. -/
abbrev ops : List (HloOp τ sig (Elt F)) :=
  [
    binary main_arg0 main_arg10 main_v0 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    TRef.nullary main_call0.c (constantI S_ 32 0#32),
    TRef.unary main_call0.c main_call0.v0 (broadcastInDim S800000 ![] bcast_S_S800000),
    TRef.binary (.of main_arg4 : StableHlo.TRef sig ⟨S800000, .i32⟩) main_call0.v0 main_call0.v1 (cmpi .slt),
    TRef.nullary main_call0.c_0 (constantI S_ 32 50000#32),
    TRef.unary main_call0.c_0 main_call0.v2 (broadcastInDim S800000 ![] bcast_S_S800000),
    TRef.binary (.of main_arg4 : StableHlo.TRef sig ⟨S800000, .i32⟩) main_call0.v2 main_call0.v3 addi,
    TRef.ternary main_call0.v1 main_call0.v3 (.of main_arg4 : StableHlo.TRef sig ⟨S800000, .i32⟩) main_call0.call0.v0 select,
    TRef.unary main_call0.call0.v0 main_call0.v5 (broadcastInDim S800000x1 ![0] bcast_S800000_S800000x1_0),
    TRef.nullary main_call0.c_1 (constantI S1 32 49999#32),
    TRef.nullary main_call0.c_2 (constantI S_ 32 0#32),
    TRef.unary main_call0.c_2 main_call0.v6 (broadcastInDim S800000x1 ![] bcast_S_S800000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S800000x1 ![0, 1] bcast_S1x1_S800000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S800000x1_S800000_d1 h_S_),
    TRef.binary (.of main_v0 : StableHlo.TRef sig ⟨S50000x256, .f32⟩) main_call0.v5 main_call0.v13 (fun x i => Host.gather gather_S50000x256_S800000x1_S800000x256_1_0_n_n_0_1_1256 x i),
    TRef.unary main_call0.v12 main_call0.v14 (broadcastInDim S800000x256 ![0] bcast_S800000_S800000x256_0),
    TRef.nullary main_call0.cst (constant S_ .f32 0x7FC00000#32),
    TRef.unary main_call0.cst main_call0.v15 (broadcastInDim S800000x256 ![] bcast_S_S800000x256),
    TRef.ternary main_call0.v14 main_call0.v13 main_call0.v15 main_call0.v16 select,
    nullary main_cst (constant S_ .f32 0x00000000#32),
    unary main_cst main_v2 (broadcastInDim S50000x256 ![] bcast_S_S50000x256 : (⟨S_, .f32⟩ : BufTy).Contents (Elt F) → (⟨S50000x256, .f32⟩ : BufTy).Contents (Elt F)),
    unary main_arg5 main_v3 (broadcastInDim S800000x1 ![0] bcast_S800000_S800000x1_0 : (⟨S800000, .i32⟩ : BufTy).Contents (Elt F) → (⟨S800000x1, .i32⟩ : BufTy).Contents (Elt F)),
    ternary main_v2 main_v3 main_v1 main_v4 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_arg11 main_v5 (broadcastInDim S1x256 ![1] bcast_S256_S1x256_1 : (⟨S256, .f32⟩ : BufTy).Contents (Elt F) → (⟨S1x256, .f32⟩ : BufTy).Contents (Elt F)),
    unary main_v5 main_v6 (broadcastInDim S50000x256 ![0, 1] bcast_S1x256_S50000x256_0_1 : (⟨S1x256, .f32⟩ : BufTy).Contents (Elt F) → (⟨S50000x256, .f32⟩ : BufTy).Contents (Elt F)),
    binary main_v4 main_v6 main_v7 (addf : (⟨S50000x256, .f32⟩ : BufTy).Contents (Elt F) → (⟨S50000x256, .f32⟩ : BufTy).Contents (Elt F) → (⟨S50000x256, .f32⟩ : BufTy).Contents (Elt F)),
    TRef.nullary main_call1.cst (constant S_ .f32 0x00000000#32),
    TRef.unary main_call1.cst main_call1.v0 (broadcastInDim S50000x256 ![] bcast_S_S50000x256),
    TRef.binary (.of main_v7 : StableHlo.TRef sig ⟨S50000x256, .f32⟩) main_call1.v0 main_call1.v1 maximumf,
    binary main_arg0 main_arg12 main_v9 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg13 main_v10 (broadcastInDim S1x256 ![1] bcast_S256_S1x256_1 : (⟨S256, .f32⟩ : BufTy).Contents (Elt F) → (⟨S1x256, .f32⟩ : BufTy).Contents (Elt F)),
    unary main_v10 main_v11 (broadcastInDim S50000x256 ![0, 1] bcast_S1x256_S50000x256_0_1 : (⟨S1x256, .f32⟩ : BufTy).Contents (Elt F) → (⟨S50000x256, .f32⟩ : BufTy).Contents (Elt F)),
    binary main_v9 main_v11 main_v12 (addf : (⟨S50000x256, .f32⟩ : BufTy).Contents (Elt F) → (⟨S50000x256, .f32⟩ : BufTy).Contents (Elt F) → (⟨S50000x256, .f32⟩ : BufTy).Contents (Elt F)),
    TRef.nullary main_call2.cst (constant S_ .f32 0x00000000#32),
    TRef.unary main_call2.cst main_call2.v0 (broadcastInDim S50000x256 ![] bcast_S_S50000x256),
    TRef.binary (.of main_v12 : StableHlo.TRef sig ⟨S50000x256, .f32⟩) main_call2.v0 main_call2.v1 maximumf,
    binary main_v8 main_v13 main_v14 (addf : (⟨S50000x256, .f32⟩ : BufTy).Contents (Elt F) → (⟨S50000x256, .f32⟩ : BufTy).Contents (Elt F) → (⟨S50000x256, .f32⟩ : BufTy).Contents (Elt F)),
    binary main_v14 main_arg18 main_v15 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg19 main_v16 (broadcastInDim S1x256 ![1] bcast_S256_S1x256_1 : (⟨S256, .f32⟩ : BufTy).Contents (Elt F) → (⟨S1x256, .f32⟩ : BufTy).Contents (Elt F)),
    unary main_v16 main_v17 (broadcastInDim S50000x256 ![0, 1] bcast_S1x256_S50000x256_0_1 : (⟨S1x256, .f32⟩ : BufTy).Contents (Elt F) → (⟨S50000x256, .f32⟩ : BufTy).Contents (Elt F)),
    binary main_v15 main_v17 main_v18 (addf : (⟨S50000x256, .f32⟩ : BufTy).Contents (Elt F) → (⟨S50000x256, .f32⟩ : BufTy).Contents (Elt F) → (⟨S50000x256, .f32⟩ : BufTy).Contents (Elt F)),
    TRef.nullary main_call3.cst (constant S_ .f32 0x00000000#32),
    TRef.unary main_call3.cst main_call3.v0 (broadcastInDim S50000x256 ![] bcast_S_S50000x256),
    TRef.binary (.of main_v18 : StableHlo.TRef sig ⟨S50000x256, .f32⟩) main_call3.v0 main_call3.v1 maximumf,
    binary main_v19 main_arg20 main_v20 ((fun l r => Host.dotGeneral dot_S50000x256_S256x200_S50000x200_1_0_0_1_n_n none l r) : (⟨S50000x256, .f32⟩ : BufTy).Contents (Elt F) → (⟨S256x200, .f32⟩ : BufTy).Contents (Elt F) → (⟨S50000x200, .f32⟩ : BufTy).Contents (Elt F)),
    unary main_arg21 main_v21 (broadcastInDim S1x200 ![1] bcast_S200_S1x200_1 : (⟨S200, .f32⟩ : BufTy).Contents (Elt F) → (⟨S1x200, .f32⟩ : BufTy).Contents (Elt F)),
    unary main_v21 main_v22 (broadcastInDim S50000x200 ![0, 1] bcast_S1x200_S50000x200_0_1 : (⟨S1x200, .f32⟩ : BufTy).Contents (Elt F) → (⟨S50000x200, .f32⟩ : BufTy).Contents (Elt F)),
    binary main_v20 main_v22 main_v23 (addf : (⟨S50000x200, .f32⟩ : BufTy).Contents (Elt F) → (⟨S50000x200, .f32⟩ : BufTy).Contents (Elt F) → (⟨S50000x200, .f32⟩ : BufTy).Contents (Elt F)),
    nullary main_cst_0 (constant S_ .f32 0x00000000#32),
    unary main_cst_0 main_v24 (broadcastInDim S512x200 ![] bcast_S_S512x200 : (⟨S_, .f32⟩ : BufTy).Contents (Elt F) → (⟨S512x200, .f32⟩ : BufTy).Contents (Elt F)),
    unary main_arg6 main_v25 (broadcastInDim S50000x1 ![0] bcast_S50000_S50000x1_0 : (⟨S50000, .i32⟩ : BufTy).Contents (Elt F) → (⟨S50000x1, .i32⟩ : BufTy).Contents (Elt F)),
    ternary main_v24 main_v25 main_v23 main_v26 ((fun x i u => Host.scatterAdd scatter_S512x200_S50000x1_S50000x200_1_0_0_1 x i u) : (⟨S512x200, .f32⟩ : BufTy).Contents (Elt F) → (⟨S50000x1, .i32⟩ : BufTy).Contents (Elt F) → (⟨S50000x200, .f32⟩ : BufTy).Contents (Elt F) → (⟨S512x200, .f32⟩ : BufTy).Contents (Elt F)),
    binary main_arg2 main_arg14 main_v27 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    TRef.nullary main_call4.c (constantI S_ 32 0#32),
    TRef.unary main_call4.c main_call4.v0 (broadcastInDim S800000 ![] bcast_S_S800000),
    TRef.binary (.of main_arg7 : StableHlo.TRef sig ⟨S800000, .i32⟩) main_call4.v0 main_call4.v1 (cmpi .slt),
    TRef.nullary main_call4.c_0 (constantI S_ 32 50000#32),
    TRef.unary main_call4.c_0 main_call4.v2 (broadcastInDim S800000 ![] bcast_S_S800000),
    TRef.binary (.of main_arg7 : StableHlo.TRef sig ⟨S800000, .i32⟩) main_call4.v2 main_call4.v3 addi,
    TRef.ternary main_call4.v1 main_call4.v3 (.of main_arg7 : StableHlo.TRef sig ⟨S800000, .i32⟩) main_call4.call0.v0 select,
    TRef.unary main_call4.call0.v0 main_call4.v5 (broadcastInDim S800000x1 ![0] bcast_S800000_S800000x1_0),
    TRef.nullary main_call4.c_1 (constantI S1 32 49999#32),
    TRef.nullary main_call4.c_2 (constantI S_ 32 0#32),
    TRef.unary main_call4.c_2 main_call4.v6 (broadcastInDim S800000x1 ![] bcast_S_S800000x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S800000x1 ![0, 1] bcast_S1x1_S800000x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S800000x1_S800000_d1 h_S_),
    TRef.binary (.of main_v27 : StableHlo.TRef sig ⟨S50000x256, .f32⟩) main_call4.v5 main_call4.v13 (fun x i => Host.gather gather_S50000x256_S800000x1_S800000x256_1_0_n_n_0_1_1256 x i),
    TRef.unary main_call4.v12 main_call4.v14 (broadcastInDim S800000x256 ![0] bcast_S800000_S800000x256_0),
    TRef.nullary main_call4.cst (constant S_ .f32 0x7FC00000#32),
    TRef.unary main_call4.cst main_call4.v15 (broadcastInDim S800000x256 ![] bcast_S_S800000x256),
    TRef.ternary main_call4.v14 main_call4.v13 main_call4.v15 main_call4.v16 select,
    nullary main_cst_1 (constant S_ .f32 0x00000000#32),
    unary main_cst_1 main_v29 (broadcastInDim S50000x256 ![] bcast_S_S50000x256 : (⟨S_, .f32⟩ : BufTy).Contents (Elt F) → (⟨S50000x256, .f32⟩ : BufTy).Contents (Elt F)),
    unary main_arg8 main_v30 (broadcastInDim S800000x1 ![0] bcast_S800000_S800000x1_0 : (⟨S800000, .i32⟩ : BufTy).Contents (Elt F) → (⟨S800000x1, .i32⟩ : BufTy).Contents (Elt F)),
    ternary main_v29 main_v30 main_v28 main_v31 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_arg15 main_v32 (broadcastInDim S1x256 ![1] bcast_S256_S1x256_1 : (⟨S256, .f32⟩ : BufTy).Contents (Elt F) → (⟨S1x256, .f32⟩ : BufTy).Contents (Elt F)),
    unary main_v32 main_v33 (broadcastInDim S50000x256 ![0, 1] bcast_S1x256_S50000x256_0_1 : (⟨S1x256, .f32⟩ : BufTy).Contents (Elt F) → (⟨S50000x256, .f32⟩ : BufTy).Contents (Elt F)),
    binary main_v31 main_v33 main_v34 (addf : (⟨S50000x256, .f32⟩ : BufTy).Contents (Elt F) → (⟨S50000x256, .f32⟩ : BufTy).Contents (Elt F) → (⟨S50000x256, .f32⟩ : BufTy).Contents (Elt F)),
    TRef.nullary main_call5.cst (constant S_ .f32 0x00000000#32),
    TRef.unary main_call5.cst main_call5.v0 (broadcastInDim S50000x256 ![] bcast_S_S50000x256),
    TRef.binary (.of main_v34 : StableHlo.TRef sig ⟨S50000x256, .f32⟩) main_call5.v0 main_call5.v1 maximumf,
    binary main_arg2 main_arg16 main_v36 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg17 main_v37 (broadcastInDim S1x256 ![1] bcast_S256_S1x256_1 : (⟨S256, .f32⟩ : BufTy).Contents (Elt F) → (⟨S1x256, .f32⟩ : BufTy).Contents (Elt F)),
    unary main_v37 main_v38 (broadcastInDim S50000x256 ![0, 1] bcast_S1x256_S50000x256_0_1 : (⟨S1x256, .f32⟩ : BufTy).Contents (Elt F) → (⟨S50000x256, .f32⟩ : BufTy).Contents (Elt F)),
    binary main_v36 main_v38 main_v39 (addf : (⟨S50000x256, .f32⟩ : BufTy).Contents (Elt F) → (⟨S50000x256, .f32⟩ : BufTy).Contents (Elt F) → (⟨S50000x256, .f32⟩ : BufTy).Contents (Elt F)),
    TRef.nullary main_call6.cst (constant S_ .f32 0x00000000#32),
    TRef.unary main_call6.cst main_call6.v0 (broadcastInDim S50000x256 ![] bcast_S_S50000x256),
    TRef.binary (.of main_v39 : StableHlo.TRef sig ⟨S50000x256, .f32⟩) main_call6.v0 main_call6.v1 maximumf,
    binary main_v35 main_v40 main_v41 (addf : (⟨S50000x256, .f32⟩ : BufTy).Contents (Elt F) → (⟨S50000x256, .f32⟩ : BufTy).Contents (Elt F) → (⟨S50000x256, .f32⟩ : BufTy).Contents (Elt F)),
    binary main_v41 main_arg22 main_v42 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg23 main_v43 (broadcastInDim S1x256 ![1] bcast_S256_S1x256_1 : (⟨S256, .f32⟩ : BufTy).Contents (Elt F) → (⟨S1x256, .f32⟩ : BufTy).Contents (Elt F)),
    unary main_v43 main_v44 (broadcastInDim S50000x256 ![0, 1] bcast_S1x256_S50000x256_0_1 : (⟨S1x256, .f32⟩ : BufTy).Contents (Elt F) → (⟨S50000x256, .f32⟩ : BufTy).Contents (Elt F)),
    binary main_v42 main_v44 main_v45 (addf : (⟨S50000x256, .f32⟩ : BufTy).Contents (Elt F) → (⟨S50000x256, .f32⟩ : BufTy).Contents (Elt F) → (⟨S50000x256, .f32⟩ : BufTy).Contents (Elt F)),
    TRef.nullary main_call7.cst (constant S_ .f32 0x00000000#32),
    TRef.unary main_call7.cst main_call7.v0 (broadcastInDim S50000x256 ![] bcast_S_S50000x256),
    TRef.binary (.of main_v45 : StableHlo.TRef sig ⟨S50000x256, .f32⟩) main_call7.v0 main_call7.v1 maximumf,
    binary main_v46 main_arg24 main_v47 ((fun l r => Host.dotGeneral dot_S50000x256_S256x200_S50000x200_1_0_0_1_n_n none l r) : (⟨S50000x256, .f32⟩ : BufTy).Contents (Elt F) → (⟨S256x200, .f32⟩ : BufTy).Contents (Elt F) → (⟨S50000x200, .f32⟩ : BufTy).Contents (Elt F)),
    unary main_arg25 main_v48 (broadcastInDim S1x200 ![1] bcast_S200_S1x200_1 : (⟨S200, .f32⟩ : BufTy).Contents (Elt F) → (⟨S1x200, .f32⟩ : BufTy).Contents (Elt F)),
    unary main_v48 main_v49 (broadcastInDim S50000x200 ![0, 1] bcast_S1x200_S50000x200_0_1 : (⟨S1x200, .f32⟩ : BufTy).Contents (Elt F) → (⟨S50000x200, .f32⟩ : BufTy).Contents (Elt F)),
    binary main_v47 main_v49 main_v50 (addf : (⟨S50000x200, .f32⟩ : BufTy).Contents (Elt F) → (⟨S50000x200, .f32⟩ : BufTy).Contents (Elt F) → (⟨S50000x200, .f32⟩ : BufTy).Contents (Elt F)),
    nullary main_cst_2 (constant S_ .f32 0x00000000#32),
    unary main_cst_2 main_v51 (broadcastInDim S512x200 ![] bcast_S_S512x200 : (⟨S_, .f32⟩ : BufTy).Contents (Elt F) → (⟨S512x200, .f32⟩ : BufTy).Contents (Elt F)),
    unary main_arg9 main_v52 (broadcastInDim S50000x1 ![0] bcast_S50000_S50000x1_0 : (⟨S50000, .i32⟩ : BufTy).Contents (Elt F) → (⟨S50000x1, .i32⟩ : BufTy).Contents (Elt F)),
    ternary main_v51 main_v52 main_v50 main_v53 ((fun x i u => Host.scatterAdd scatter_S512x200_S50000x1_S50000x200_1_0_0_1 x i u) : (⟨S512x200, .f32⟩ : BufTy).Contents (Elt F) → (⟨S50000x1, .i32⟩ : BufTy).Contents (Elt F) → (⟨S50000x200, .f32⟩ : BufTy).Contents (Elt F) → (⟨S512x200, .f32⟩ : BufTy).Contents (Elt F)),
    binary main_v26 main_v53 main_v54 (addf : (⟨S512x200, .f32⟩ : BufTy).Contents (Elt F) → (⟨S512x200, .f32⟩ : BufTy).Contents (Elt F) → (⟨S512x200, .f32⟩ : BufTy).Contents (Elt F)),
    binary main_v54 main_arg26 main_v55 ((fun l r => Host.dotGeneral dot_S512x200_S200x1_S512x1_1_0_0_1_n_n none l r) : (⟨S512x200, .f32⟩ : BufTy).Contents (Elt F) → (⟨S200x1, .f32⟩ : BufTy).Contents (Elt F) → (⟨S512x1, .f32⟩ : BufTy).Contents (Elt F)),
    unary main_arg27 main_v56 (broadcastInDim S1x1 ![1] bcast_S1_S1x1_1 : (⟨S1, .f32⟩ : BufTy).Contents (Elt F) → (⟨S1x1, .f32⟩ : BufTy).Contents (Elt F)),
    unary main_v56 main_v57 (broadcastInDim S512x1 ![0, 1] bcast_S1x1_S512x1_0_1 : (⟨S1x1, .f32⟩ : BufTy).Contents (Elt F) → (⟨S512x1, .f32⟩ : BufTy).Contents (Elt F)),
    binary main_v55 main_v57 main_v58 (addf : (⟨S512x1, .f32⟩ : BufTy).Contents (Elt F) → (⟨S512x1, .f32⟩ : BufTy).Contents (Elt F) → (⟨S512x1, .f32⟩ : BufTy).Contents (Elt F)),
    reshape main_v58 main_v59 rfl shapeCasts_S512x1_S512 ]

set_option maxRecDepth 8192 in
set_option maxHeartbeats 4000000 in
/-- The program is that line: the functions unfolded at their calls, the sequencing reassociated. -/
theorem main_eq (c : Dev nD) : main (F := F) c = seq ops := by
  simp only [main, main_part0, main_part1, fn_take.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., reshape_bufs_sub ..⟩

/-- Every weakly fair execution terminates with each buffer at the fold of the operations over the launch contents. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The line in stretches

For each graph: the product and the edge gather; the sum into destination nodes; the aggregated branch; the residual
branch; their sum; the readout's hidden layer; its output layer; the sum into graphs. Last the closing steps. -/

/-- Operations 1 … 24 of the line. -/
abbrev segA1 : List (HloOp τ sig (Elt F)) :=
  [
    binary main_arg0 main_arg10 main_v0 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    TRef.nullary main_call0.c (constantI S_ 32 0#32),
    TRef.unary main_call0.c main_call0.v0 (broadcastInDim S800000 ![] bcast_S_S800000),
    TRef.binary (.of main_arg4 : StableHlo.TRef sig ⟨S800000, .i32⟩) main_call0.v0 main_call0.v1 (cmpi .slt),
    TRef.nullary main_call0.c_0 (constantI S_ 32 50000#32),
    TRef.unary main_call0.c_0 main_call0.v2 (broadcastInDim S800000 ![] bcast_S_S800000),
    TRef.binary (.of main_arg4 : StableHlo.TRef sig ⟨S800000, .i32⟩) main_call0.v2 main_call0.v3 addi,
    TRef.ternary main_call0.v1 main_call0.v3 (.of main_arg4 : StableHlo.TRef sig ⟨S800000, .i32⟩) main_call0.call0.v0 select,
    TRef.unary main_call0.call0.v0 main_call0.v5 (broadcastInDim S800000x1 ![0] bcast_S800000_S800000x1_0),
    TRef.nullary main_call0.c_1 (constantI S1 32 49999#32),
    TRef.nullary main_call0.c_2 (constantI S_ 32 0#32),
    TRef.unary main_call0.c_2 main_call0.v6 (broadcastInDim S800000x1 ![] bcast_S_S800000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S800000x1 ![0, 1] bcast_S1x1_S800000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S800000x1_S800000_d1 h_S_),
    TRef.binary (.of main_v0 : StableHlo.TRef sig ⟨S50000x256, .f32⟩) main_call0.v5 main_call0.v13 (fun x i => Host.gather gather_S50000x256_S800000x1_S800000x256_1_0_n_n_0_1_1256 x i),
    TRef.unary main_call0.v12 main_call0.v14 (broadcastInDim S800000x256 ![0] bcast_S800000_S800000x256_0),
    TRef.nullary main_call0.cst (constant S_ .f32 0x7FC00000#32),
    TRef.unary main_call0.cst main_call0.v15 (broadcastInDim S800000x256 ![] bcast_S_S800000x256),
    TRef.ternary main_call0.v14 main_call0.v13 main_call0.v15 main_call0.v16 select ]

/-- Operations 25 … 28 of the line. -/
abbrev segA2a : List (HloOp τ sig (Elt F)) :=
  [
    nullary main_cst (constant S_ .f32 0x00000000#32),
    unary main_cst main_v2 (broadcastInDim S50000x256 ![] bcast_S_S50000x256 : (⟨S_, .f32⟩ : BufTy).Contents (Elt F) → (⟨S50000x256, .f32⟩ : BufTy).Contents (Elt F)),
    unary main_arg5 main_v3 (broadcastInDim S800000x1 ![0] bcast_S800000_S800000x1_0 : (⟨S800000, .i32⟩ : BufTy).Contents (Elt F) → (⟨S800000x1, .i32⟩ : BufTy).Contents (Elt F)),
    ternary main_v2 main_v3 main_v1 main_v4 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) ]

/-- Operations 29 … 34 of the line. -/
abbrev segA2b : List (HloOp τ sig (Elt F)) :=
  [
    unary main_arg11 main_v5 (broadcastInDim S1x256 ![1] bcast_S256_S1x256_1 : (⟨S256, .f32⟩ : BufTy).Contents (Elt F) → (⟨S1x256, .f32⟩ : BufTy).Contents (Elt F)),
    unary main_v5 main_v6 (broadcastInDim S50000x256 ![0, 1] bcast_S1x256_S50000x256_0_1 : (⟨S1x256, .f32⟩ : BufTy).Contents (Elt F) → (⟨S50000x256, .f32⟩ : BufTy).Contents (Elt F)),
    binary main_v4 main_v6 main_v7 (addf : (⟨S50000x256, .f32⟩ : BufTy).Contents (Elt F) → (⟨S50000x256, .f32⟩ : BufTy).Contents (Elt F) → (⟨S50000x256, .f32⟩ : BufTy).Contents (Elt F)),
    TRef.nullary main_call1.cst (constant S_ .f32 0x00000000#32),
    TRef.unary main_call1.cst main_call1.v0 (broadcastInDim S50000x256 ![] bcast_S_S50000x256),
    TRef.binary (.of main_v7 : StableHlo.TRef sig ⟨S50000x256, .f32⟩) main_call1.v0 main_call1.v1 maximumf ]

/-- Operations 35 … 41 of the line. -/
abbrev segA2c : List (HloOp τ sig (Elt F)) :=
  [
    binary main_arg0 main_arg12 main_v9 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg13 main_v10 (broadcastInDim S1x256 ![1] bcast_S256_S1x256_1 : (⟨S256, .f32⟩ : BufTy).Contents (Elt F) → (⟨S1x256, .f32⟩ : BufTy).Contents (Elt F)),
    unary main_v10 main_v11 (broadcastInDim S50000x256 ![0, 1] bcast_S1x256_S50000x256_0_1 : (⟨S1x256, .f32⟩ : BufTy).Contents (Elt F) → (⟨S50000x256, .f32⟩ : BufTy).Contents (Elt F)),
    binary main_v9 main_v11 main_v12 (addf : (⟨S50000x256, .f32⟩ : BufTy).Contents (Elt F) → (⟨S50000x256, .f32⟩ : BufTy).Contents (Elt F) → (⟨S50000x256, .f32⟩ : BufTy).Contents (Elt F)),
    TRef.nullary main_call2.cst (constant S_ .f32 0x00000000#32),
    TRef.unary main_call2.cst main_call2.v0 (broadcastInDim S50000x256 ![] bcast_S_S50000x256),
    TRef.binary (.of main_v12 : StableHlo.TRef sig ⟨S50000x256, .f32⟩) main_call2.v0 main_call2.v1 maximumf ]

/-- Operations 42 … 42 of the line. -/
abbrev segA2d : List (HloOp τ sig (Elt F)) :=
  [
    binary main_v8 main_v13 main_v14 (addf : (⟨S50000x256, .f32⟩ : BufTy).Contents (Elt F) → (⟨S50000x256, .f32⟩ : BufTy).Contents (Elt F) → (⟨S50000x256, .f32⟩ : BufTy).Contents (Elt F)) ]

/-- Operations 43 … 49 of the line. -/
abbrev segA2e1 : List (HloOp τ sig (Elt F)) :=
  [
    binary main_v14 main_arg18 main_v15 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg19 main_v16 (broadcastInDim S1x256 ![1] bcast_S256_S1x256_1 : (⟨S256, .f32⟩ : BufTy).Contents (Elt F) → (⟨S1x256, .f32⟩ : BufTy).Contents (Elt F)),
    unary main_v16 main_v17 (broadcastInDim S50000x256 ![0, 1] bcast_S1x256_S50000x256_0_1 : (⟨S1x256, .f32⟩ : BufTy).Contents (Elt F) → (⟨S50000x256, .f32⟩ : BufTy).Contents (Elt F)),
    binary main_v15 main_v17 main_v18 (addf : (⟨S50000x256, .f32⟩ : BufTy).Contents (Elt F) → (⟨S50000x256, .f32⟩ : BufTy).Contents (Elt F) → (⟨S50000x256, .f32⟩ : BufTy).Contents (Elt F)),
    TRef.nullary main_call3.cst (constant S_ .f32 0x00000000#32),
    TRef.unary main_call3.cst main_call3.v0 (broadcastInDim S50000x256 ![] bcast_S_S50000x256),
    TRef.binary (.of main_v18 : StableHlo.TRef sig ⟨S50000x256, .f32⟩) main_call3.v0 main_call3.v1 maximumf ]

/-- Operations 50 … 53 of the line. -/
abbrev segA2e2 : List (HloOp τ sig (Elt F)) :=
  [
    binary main_v19 main_arg20 main_v20 ((fun l r => Host.dotGeneral dot_S50000x256_S256x200_S50000x200_1_0_0_1_n_n none l r) : (⟨S50000x256, .f32⟩ : BufTy).Contents (Elt F) → (⟨S256x200, .f32⟩ : BufTy).Contents (Elt F) → (⟨S50000x200, .f32⟩ : BufTy).Contents (Elt F)),
    unary main_arg21 main_v21 (broadcastInDim S1x200 ![1] bcast_S200_S1x200_1 : (⟨S200, .f32⟩ : BufTy).Contents (Elt F) → (⟨S1x200, .f32⟩ : BufTy).Contents (Elt F)),
    unary main_v21 main_v22 (broadcastInDim S50000x200 ![0, 1] bcast_S1x200_S50000x200_0_1 : (⟨S1x200, .f32⟩ : BufTy).Contents (Elt F) → (⟨S50000x200, .f32⟩ : BufTy).Contents (Elt F)),
    binary main_v20 main_v22 main_v23 (addf : (⟨S50000x200, .f32⟩ : BufTy).Contents (Elt F) → (⟨S50000x200, .f32⟩ : BufTy).Contents (Elt F) → (⟨S50000x200, .f32⟩ : BufTy).Contents (Elt F)) ]

/-- Operations 54 … 57 of the line. -/
abbrev segA2f : List (HloOp τ sig (Elt F)) :=
  [
    nullary main_cst_0 (constant S_ .f32 0x00000000#32),
    unary main_cst_0 main_v24 (broadcastInDim S512x200 ![] bcast_S_S512x200 : (⟨S_, .f32⟩ : BufTy).Contents (Elt F) → (⟨S512x200, .f32⟩ : BufTy).Contents (Elt F)),
    unary main_arg6 main_v25 (broadcastInDim S50000x1 ![0] bcast_S50000_S50000x1_0 : (⟨S50000, .i32⟩ : BufTy).Contents (Elt F) → (⟨S50000x1, .i32⟩ : BufTy).Contents (Elt F)),
    ternary main_v24 main_v25 main_v23 main_v26 ((fun x i u => Host.scatterAdd scatter_S512x200_S50000x1_S50000x200_1_0_0_1 x i u) : (⟨S512x200, .f32⟩ : BufTy).Contents (Elt F) → (⟨S50000x1, .i32⟩ : BufTy).Contents (Elt F) → (⟨S50000x200, .f32⟩ : BufTy).Contents (Elt F) → (⟨S512x200, .f32⟩ : BufTy).Contents (Elt F)) ]

/-- Operations 58 … 81 of the line. -/
abbrev segB1 : List (HloOp τ sig (Elt F)) :=
  [
    binary main_arg2 main_arg14 main_v27 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    TRef.nullary main_call4.c (constantI S_ 32 0#32),
    TRef.unary main_call4.c main_call4.v0 (broadcastInDim S800000 ![] bcast_S_S800000),
    TRef.binary (.of main_arg7 : StableHlo.TRef sig ⟨S800000, .i32⟩) main_call4.v0 main_call4.v1 (cmpi .slt),
    TRef.nullary main_call4.c_0 (constantI S_ 32 50000#32),
    TRef.unary main_call4.c_0 main_call4.v2 (broadcastInDim S800000 ![] bcast_S_S800000),
    TRef.binary (.of main_arg7 : StableHlo.TRef sig ⟨S800000, .i32⟩) main_call4.v2 main_call4.v3 addi,
    TRef.ternary main_call4.v1 main_call4.v3 (.of main_arg7 : StableHlo.TRef sig ⟨S800000, .i32⟩) main_call4.call0.v0 select,
    TRef.unary main_call4.call0.v0 main_call4.v5 (broadcastInDim S800000x1 ![0] bcast_S800000_S800000x1_0),
    TRef.nullary main_call4.c_1 (constantI S1 32 49999#32),
    TRef.nullary main_call4.c_2 (constantI S_ 32 0#32),
    TRef.unary main_call4.c_2 main_call4.v6 (broadcastInDim S800000x1 ![] bcast_S_S800000x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S800000x1 ![0, 1] bcast_S1x1_S800000x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S800000x1_S800000_d1 h_S_),
    TRef.binary (.of main_v27 : StableHlo.TRef sig ⟨S50000x256, .f32⟩) main_call4.v5 main_call4.v13 (fun x i => Host.gather gather_S50000x256_S800000x1_S800000x256_1_0_n_n_0_1_1256 x i),
    TRef.unary main_call4.v12 main_call4.v14 (broadcastInDim S800000x256 ![0] bcast_S800000_S800000x256_0),
    TRef.nullary main_call4.cst (constant S_ .f32 0x7FC00000#32),
    TRef.unary main_call4.cst main_call4.v15 (broadcastInDim S800000x256 ![] bcast_S_S800000x256),
    TRef.ternary main_call4.v14 main_call4.v13 main_call4.v15 main_call4.v16 select ]

/-- Operations 82 … 85 of the line. -/
abbrev segB2a : List (HloOp τ sig (Elt F)) :=
  [
    nullary main_cst_1 (constant S_ .f32 0x00000000#32),
    unary main_cst_1 main_v29 (broadcastInDim S50000x256 ![] bcast_S_S50000x256 : (⟨S_, .f32⟩ : BufTy).Contents (Elt F) → (⟨S50000x256, .f32⟩ : BufTy).Contents (Elt F)),
    unary main_arg8 main_v30 (broadcastInDim S800000x1 ![0] bcast_S800000_S800000x1_0 : (⟨S800000, .i32⟩ : BufTy).Contents (Elt F) → (⟨S800000x1, .i32⟩ : BufTy).Contents (Elt F)),
    ternary main_v29 main_v30 main_v28 main_v31 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) ]

/-- Operations 86 … 91 of the line. -/
abbrev segB2b : List (HloOp τ sig (Elt F)) :=
  [
    unary main_arg15 main_v32 (broadcastInDim S1x256 ![1] bcast_S256_S1x256_1 : (⟨S256, .f32⟩ : BufTy).Contents (Elt F) → (⟨S1x256, .f32⟩ : BufTy).Contents (Elt F)),
    unary main_v32 main_v33 (broadcastInDim S50000x256 ![0, 1] bcast_S1x256_S50000x256_0_1 : (⟨S1x256, .f32⟩ : BufTy).Contents (Elt F) → (⟨S50000x256, .f32⟩ : BufTy).Contents (Elt F)),
    binary main_v31 main_v33 main_v34 (addf : (⟨S50000x256, .f32⟩ : BufTy).Contents (Elt F) → (⟨S50000x256, .f32⟩ : BufTy).Contents (Elt F) → (⟨S50000x256, .f32⟩ : BufTy).Contents (Elt F)),
    TRef.nullary main_call5.cst (constant S_ .f32 0x00000000#32),
    TRef.unary main_call5.cst main_call5.v0 (broadcastInDim S50000x256 ![] bcast_S_S50000x256),
    TRef.binary (.of main_v34 : StableHlo.TRef sig ⟨S50000x256, .f32⟩) main_call5.v0 main_call5.v1 maximumf ]

/-- Operations 92 … 98 of the line. -/
abbrev segB2c : List (HloOp τ sig (Elt F)) :=
  [
    binary main_arg2 main_arg16 main_v36 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg17 main_v37 (broadcastInDim S1x256 ![1] bcast_S256_S1x256_1 : (⟨S256, .f32⟩ : BufTy).Contents (Elt F) → (⟨S1x256, .f32⟩ : BufTy).Contents (Elt F)),
    unary main_v37 main_v38 (broadcastInDim S50000x256 ![0, 1] bcast_S1x256_S50000x256_0_1 : (⟨S1x256, .f32⟩ : BufTy).Contents (Elt F) → (⟨S50000x256, .f32⟩ : BufTy).Contents (Elt F)),
    binary main_v36 main_v38 main_v39 (addf : (⟨S50000x256, .f32⟩ : BufTy).Contents (Elt F) → (⟨S50000x256, .f32⟩ : BufTy).Contents (Elt F) → (⟨S50000x256, .f32⟩ : BufTy).Contents (Elt F)),
    TRef.nullary main_call6.cst (constant S_ .f32 0x00000000#32),
    TRef.unary main_call6.cst main_call6.v0 (broadcastInDim S50000x256 ![] bcast_S_S50000x256),
    TRef.binary (.of main_v39 : StableHlo.TRef sig ⟨S50000x256, .f32⟩) main_call6.v0 main_call6.v1 maximumf ]

/-- Operations 99 … 99 of the line. -/
abbrev segB2d : List (HloOp τ sig (Elt F)) :=
  [
    binary main_v35 main_v40 main_v41 (addf : (⟨S50000x256, .f32⟩ : BufTy).Contents (Elt F) → (⟨S50000x256, .f32⟩ : BufTy).Contents (Elt F) → (⟨S50000x256, .f32⟩ : BufTy).Contents (Elt F)) ]

/-- Operations 100 … 106 of the line. -/
abbrev segB2e1 : List (HloOp τ sig (Elt F)) :=
  [
    binary main_v41 main_arg22 main_v42 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg23 main_v43 (broadcastInDim S1x256 ![1] bcast_S256_S1x256_1 : (⟨S256, .f32⟩ : BufTy).Contents (Elt F) → (⟨S1x256, .f32⟩ : BufTy).Contents (Elt F)),
    unary main_v43 main_v44 (broadcastInDim S50000x256 ![0, 1] bcast_S1x256_S50000x256_0_1 : (⟨S1x256, .f32⟩ : BufTy).Contents (Elt F) → (⟨S50000x256, .f32⟩ : BufTy).Contents (Elt F)),
    binary main_v42 main_v44 main_v45 (addf : (⟨S50000x256, .f32⟩ : BufTy).Contents (Elt F) → (⟨S50000x256, .f32⟩ : BufTy).Contents (Elt F) → (⟨S50000x256, .f32⟩ : BufTy).Contents (Elt F)),
    TRef.nullary main_call7.cst (constant S_ .f32 0x00000000#32),
    TRef.unary main_call7.cst main_call7.v0 (broadcastInDim S50000x256 ![] bcast_S_S50000x256),
    TRef.binary (.of main_v45 : StableHlo.TRef sig ⟨S50000x256, .f32⟩) main_call7.v0 main_call7.v1 maximumf ]

/-- Operations 107 … 110 of the line. -/
abbrev segB2e2 : List (HloOp τ sig (Elt F)) :=
  [
    binary main_v46 main_arg24 main_v47 ((fun l r => Host.dotGeneral dot_S50000x256_S256x200_S50000x200_1_0_0_1_n_n none l r) : (⟨S50000x256, .f32⟩ : BufTy).Contents (Elt F) → (⟨S256x200, .f32⟩ : BufTy).Contents (Elt F) → (⟨S50000x200, .f32⟩ : BufTy).Contents (Elt F)),
    unary main_arg25 main_v48 (broadcastInDim S1x200 ![1] bcast_S200_S1x200_1 : (⟨S200, .f32⟩ : BufTy).Contents (Elt F) → (⟨S1x200, .f32⟩ : BufTy).Contents (Elt F)),
    unary main_v48 main_v49 (broadcastInDim S50000x200 ![0, 1] bcast_S1x200_S50000x200_0_1 : (⟨S1x200, .f32⟩ : BufTy).Contents (Elt F) → (⟨S50000x200, .f32⟩ : BufTy).Contents (Elt F)),
    binary main_v47 main_v49 main_v50 (addf : (⟨S50000x200, .f32⟩ : BufTy).Contents (Elt F) → (⟨S50000x200, .f32⟩ : BufTy).Contents (Elt F) → (⟨S50000x200, .f32⟩ : BufTy).Contents (Elt F)) ]

/-- Operations 111 … 114 of the line. -/
abbrev segB2f : List (HloOp τ sig (Elt F)) :=
  [
    nullary main_cst_2 (constant S_ .f32 0x00000000#32),
    unary main_cst_2 main_v51 (broadcastInDim S512x200 ![] bcast_S_S512x200 : (⟨S_, .f32⟩ : BufTy).Contents (Elt F) → (⟨S512x200, .f32⟩ : BufTy).Contents (Elt F)),
    unary main_arg9 main_v52 (broadcastInDim S50000x1 ![0] bcast_S50000_S50000x1_0 : (⟨S50000, .i32⟩ : BufTy).Contents (Elt F) → (⟨S50000x1, .i32⟩ : BufTy).Contents (Elt F)),
    ternary main_v51 main_v52 main_v50 main_v53 ((fun x i u => Host.scatterAdd scatter_S512x200_S50000x1_S50000x200_1_0_0_1 x i u) : (⟨S512x200, .f32⟩ : BufTy).Contents (Elt F) → (⟨S50000x1, .i32⟩ : BufTy).Contents (Elt F) → (⟨S50000x200, .f32⟩ : BufTy).Contents (Elt F) → (⟨S512x200, .f32⟩ : BufTy).Contents (Elt F)) ]

/-- Operations 115 … 120 of the line. -/
abbrev segC : List (HloOp τ sig (Elt F)) :=
  [
    binary main_v26 main_v53 main_v54 (addf : (⟨S512x200, .f32⟩ : BufTy).Contents (Elt F) → (⟨S512x200, .f32⟩ : BufTy).Contents (Elt F) → (⟨S512x200, .f32⟩ : BufTy).Contents (Elt F)),
    binary main_v54 main_arg26 main_v55 ((fun l r => Host.dotGeneral dot_S512x200_S200x1_S512x1_1_0_0_1_n_n none l r) : (⟨S512x200, .f32⟩ : BufTy).Contents (Elt F) → (⟨S200x1, .f32⟩ : BufTy).Contents (Elt F) → (⟨S512x1, .f32⟩ : BufTy).Contents (Elt F)),
    unary main_arg27 main_v56 (broadcastInDim S1x1 ![1] bcast_S1_S1x1_1 : (⟨S1, .f32⟩ : BufTy).Contents (Elt F) → (⟨S1x1, .f32⟩ : BufTy).Contents (Elt F)),
    unary main_v56 main_v57 (broadcastInDim S512x1 ![0, 1] bcast_S1x1_S512x1_0_1 : (⟨S1x1, .f32⟩ : BufTy).Contents (Elt F) → (⟨S512x1, .f32⟩ : BufTy).Contents (Elt F)),
    binary main_v55 main_v57 main_v58 (addf : (⟨S512x1, .f32⟩ : BufTy).Contents (Elt F) → (⟨S512x1, .f32⟩ : BufTy).Contents (Elt F) → (⟨S512x1, .f32⟩ : BufTy).Contents (Elt F)),
    reshape main_v58 main_v59 rfl shapeCasts_S512x1_S512 ]

/-- The line is the stretches in order. -/
theorem ops_split : ops (F := F) = segA1 ++ (segA2a ++ (segA2b ++ (segA2c ++ (segA2d ++ (segA2e1 ++ (segA2e2 ++ (segA2f ++ (segB1 ++ (segB2a ++ (segB2b ++ (segB2c ++ (segB2d ++ (segB2e1 ++ (segB2e2 ++ (segB2f ++ (segC)))))))))))))))) := rfl

end Cert.ReferenceIdeal.Line

end
-- ==== Proof.LibAfterAppend.lean ====
/-
  A line of host operations run in two parts.

  The buffer contents after a list of host operations are a fold of the operations over the starting contents, so the
  contents after a concatenation are those after the second part, started from what the first part left. A long line
  one of whose intermediate results is read several times can thus be read part by part, the shared result kept as
  one term.
-/
import Idealize.ShloMosaic.Lib.StableHlo.Run

namespace Cert.LibAfterAppend

open Idealize.ShloMosaic Idealize.ShloMosaic.StableHlo

variable {τ : Topo} {sig : RefSig} {Val : EltTy → Type}

/-- Running `l₁ ++ l₂` from the contents `V` is running `l₂` from what `l₁` leaves of `V`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.LibAfterAppend
-- ==== Proof.RefValue.lean ====
/-
  The reference program's result as the network function of its arguments.

  The program's line of operations is read stretch by stretch: the contents after the line are those after the last
  stretch started from what the earlier ones leave. Each stretch writes a few buffers, every other buffer keeps its
  contents, and the buffer a stretch is read at holds the host's operation of buffers written earlier. Composed, the
  host's dense operations are the pieces of `Layers`, so the result is the network function of the argument arrays;
  and no operation writes an argument array.
-/
import proofs.«143796_j45518063403266_1_alg».proof.Proof.RefRun
import proofs.«143796_j45518063403266_1_alg».proof.Proof.Net
import proofs.«143796_j45518063403266_1_alg».proof.Proof.LibTypedRefCasts
import proofs.«143796_j45518063403266_1_alg».proof.Proof.LibAfterAppend

set_option maxRecDepth 16384

noncomputable section

namespace Cert.ReferenceIdeal.Result

open Idealize.ShloMosaic Idealize.ShloMosaic.TcCoe Idealize.ShloMosaic.ValueIdx Idealize.SL.Sem Idealize.ShloMosaic.StableHlo
open Cert.ReferenceIdeal Cert.ReferenceIdeal.Gen Cert.Layers Cert.Net

local notation "segA1" => Line.segA1 (F := Ideal)
local notation "segA2a" => Line.segA2a (F := Ideal)
local notation "segA2b" => Line.segA2b (F := Ideal)
local notation "segA2c" => Line.segA2c (F := Ideal)
local notation "segA2d" => Line.segA2d (F := Ideal)
local notation "segA2e1" => Line.segA2e1 (F := Ideal)
local notation "segA2e2" => Line.segA2e2 (F := Ideal)
local notation "segA2f" => Line.segA2f (F := Ideal)
local notation "segB1" => Line.segB1 (F := Ideal)
local notation "segB2a" => Line.segB2a (F := Ideal)
local notation "segB2b" => Line.segB2b (F := Ideal)
local notation "segB2c" => Line.segB2c (F := Ideal)
local notation "segB2d" => Line.segB2d (F := Ideal)
local notation "segB2e1" => Line.segB2e1 (F := Ideal)
local notation "segB2e2" => Line.segB2e2 (F := Ideal)
local notation "segB2f" => Line.segB2f (F := Ideal)
local notation "segC" => Line.segC (F := Ideal)

/-- The edge's source index brought into range: a negative index counted from the end, laid out as a column. -/
def wrapIdx (i : Cert.Net.EdgeIds) : (⟨S800000x1, .i32⟩ : BufTy).Contents (Elt Ideal) :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

/-- Whether each wrapped index lies in 0 … 49999. -/
def inRange (j : (⟨S800000x1, .i32⟩ : BufTy).Contents (Elt Ideal)) : (⟨S800000, .i1⟩ : BufTy).Contents (Elt Ideal) :=
  Host.reduce IntOp.andi
    (andi (cmpi .sge j (broadcastInDim S800000x1 ![] bcast_S_S800000x1 (constantI S_ 32 0#32)))
      (cmpi .sle j (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- Each edge's row of x at its source node; a row whose index is out of range is filled with the fill word. -/
def takeRows (x : Cert.Net.NodeFeats) (i : Cert.Net.EdgeIds) : Cert.Net.EdgeRows :=
  select (broadcastInDim S800000x256 ![0] bcast_S800000_S800000x256_0 (inRange (wrapIdx i)))
    (Host.gather gather_S50000x256_S800000x1_S800000x256_1_0_n_n_0_1_1256 x (wrapIdx i))
    (broadcastInDim S800000x256 ![] bcast_S_S800000x256 (constant (F := Ideal) S_ .f32 0x7FC00000#32))

/-- The edge rows summed into their destination nodes, from zero. -/
def sumToNodes (u : Cert.Net.EdgeRows) (i : Cert.Net.EdgeIds) : Cert.Net.NodeFeats :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 i) u

/-- The node rows summed into their graphs, from zero. -/
def sumToGraphs (u : Cert.Net.NodeOut) (i : Cert.Net.NodeIds) : Cert.Net.GraphOut :=
  Host.scatterAdd scatter_S512x200_S50000x1_S50000x200_1_0_0_1
    (broadcastInDim S512x200 ![] bcast_S_S512x200 (constant (F := Ideal) S_ .f32 0x00000000#32))
    (broadcastInDim S50000x1 ![0] bcast_S50000_S50000x1_0 i) u

/-- The two graph-level results added, through the last linear map, as a vector of 512. -/
def closing (Wp : FVec Ideal S200x1 .f32) (bp : FVec Ideal S1 .f32)
    (g1 g2 : Cert.Net.GraphOut) : (⟨S512, .f32⟩ : BufTy).Contents (Elt Ideal) :=
  shapeCast S512
    ((addf (Host.dotGeneral dot_S512x200_S200x1_S512x1_1_0_0_1_n_n none (addf g1 g2 : FVec Ideal S512x200 .f32) Wp)
      (broadcastInDim S512x1 ![0, 1] bcast_S1x1_S512x1_0_1 (broadcastInDim S1x1 ![1] bcast_S1_S1x1_1 bp))) : FVec Ideal S512x1 .f32)
    shapeCasts_S512x1_S512

/-! ## The host's dense operations, as the program spells them -/

def hostProduct (A : FVec Ideal S50000x256 .f32) (B : FVec Ideal S256x256 .f32) : FVec Ideal S50000x256 .f32 :=
  Host.dotGeneral dot_S50000x256_S256x256_S50000x256_1_0_0_1_n_n none A B

/-- A length-256 vector added to every row. -/
def hostBias (A : FVec Ideal S50000x256 .f32) (v : FVec Ideal S256 .f32) : FVec Ideal S50000x256 .f32 :=
  addf A (broadcastInDim S50000x256 ![0, 1] bcast_S1x256_S50000x256_0_1 (broadcastInDim S1x256 ![1] bcast_S256_S1x256_1 v))

/-- The clamp below at zero. -/
def hostClamp (A : FVec Ideal S50000x256 .f32) : FVec Ideal S50000x256 .f32 :=
  maximumf A (broadcastInDim S50000x256 ![] bcast_S_S50000x256 (constant (F := Ideal) S_ .f32 0x00000000#32))

def hostDense (h : FVec Ideal S50000x256 .f32) (W : FVec Ideal S256x256 .f32) (v : FVec Ideal S256 .f32) : FVec Ideal S50000x256 .f32 :=
  addf (Host.dotGeneral dot_S50000x256_S256x256_S50000x256_1_0_0_1_n_n none h W)
    (broadcastInDim S50000x256 ![0, 1] bcast_S1x256_S50000x256_0_1 (broadcastInDim S1x256 ![1] bcast_S256_S1x256_1 v))

def hostDenseOut (h : FVec Ideal S50000x256 .f32) (W : FVec Ideal S256x200 .f32) (v : FVec Ideal S200 .f32) : FVec Ideal S50000x200 .f32 :=
  addf (Host.dotGeneral dot_S50000x256_S256x200_S50000x200_1_0_0_1_n_n none h W)
    (broadcastInDim S50000x200 ![0, 1] bcast_S1x200_S50000x200_0_1 (broadcastInDim S1x200 ![1] bcast_S200_S1x200_1 v))

def hostSum (A B : FVec Ideal S50000x256 .f32) : FVec Ideal S50000x256 .f32 := addf A B

theorem hostProduct_eq (A : FVec Ideal S50000x256 .f32) (B : FVec Ideal S256x256 .f32) : hostProduct A B = product A B :=
  host_product A B

theorem hostLayer_eq (h : FVec Ideal S50000x256 .f32) (Wr : FVec Ideal S256x256 .f32) (br : FVec Ideal S256 .f32)
    (agg : FVec Ideal S50000x256 .f32) (b : FVec Ideal S256 .f32) :
    hostSum (hostClamp (hostBias agg b)) (hostClamp (hostDense h Wr br)) = combine h Wr (asRow br) agg (asRow b) :=
  host_combine h Wr br agg b bcast_S_S50000x256 bcast_S256_S1x256_1 bcast_S1x256_S50000x256_0_1

theorem hostReadout_eq (h : FVec Ideal S50000x256 .f32) (Wi : FVec Ideal S256x256 .f32) (bi : FVec Ideal S256 .f32)
    (Wo : FVec Ideal S256x200 .f32) (bo : FVec Ideal S200 .f32) :
    hostDenseOut (hostClamp (hostDense h Wi bi)) Wo bo = readout h Wi (asRow bi) Wo (asRow bo) :=
  host_readout h Wi bi Wo bo bcast_S_S50000x256 bcast_S256_S1x256_1 bcast_S1x256_S50000x256_0_1 bcast_S200_S1x200_1
    bcast_S1x200_S50000x200_0_1

/-! ## A stretch keeps every buffer it does not write -/

/-- The buffers stretch A1 writes. -/
def writes_A1 : List (Ref sig .tc) := [main_v0, (main_call0.c).ref, (main_call0.v0).ref, (main_call0.v1).ref, (main_call0.c_0).ref, (main_call0.v2).ref, (main_call0.v3).ref, (main_call0.call0.v0).ref, (main_call0.v5).ref, (main_call0.c_1).ref, (main_call0.c_2).ref, (main_call0.v6).ref, (main_call0.v7).ref, (main_call0.v8).ref, (main_call0.v9).ref, (main_call0.v10).ref, (main_call0.v11).ref, (main_call0.c_3).ref, (main_call0.v12).ref, (main_call0.v13).ref, (main_call0.v14).ref, (main_call0.cst).ref, (main_call0.v15).ref, (main_call0.v16).ref]
theorem writes_A1_ge : ∀ y ∈ writes_A1, 28 ≤ y.idx.val := by decide
theorem keep_A1 (X : Valuation τ sig (Elt Ideal)) (b : Ref sig .tc) (hb : ∀ y ∈ writes_A1, b ≠ y) :
    after segA1 X (Proc.devRef .tc b) = X (Proc.devRef .tc b) := by
  refine after_of_forall_not_mem _ _ (List.forall_iff_forall_mem.mp ?_)
  simp only [Line.segA1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact devRef_ne_of_ne (hb _ (by decide))

/-- The buffers stretch A2a writes. -/
def writes_A2a : List (Ref sig .tc) := [main_cst, main_v2, main_v3, main_v4]
theorem writes_A2a_ge : ∀ y ∈ writes_A2a, 28 ≤ y.idx.val := by decide
theorem keep_A2a (X : Valuation τ sig (Elt Ideal)) (b : Ref sig .tc) (hb : ∀ y ∈ writes_A2a, b ≠ y) :
    after segA2a X (Proc.devRef .tc b) = X (Proc.devRef .tc b) := by
  refine after_of_forall_not_mem _ _ (List.forall_iff_forall_mem.mp ?_)
  simp only [Line.segA2a, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact devRef_ne_of_ne (hb _ (by decide))

/-- The buffers stretch A2b writes. -/
def writes_A2b : List (Ref sig .tc) := [main_v5, main_v6, main_v7, (main_call1.cst).ref, (main_call1.v0).ref, (main_call1.v1).ref]
theorem writes_A2b_ge : ∀ y ∈ writes_A2b, 28 ≤ y.idx.val := by decide
theorem keep_A2b (X : Valuation τ sig (Elt Ideal)) (b : Ref sig .tc) (hb : ∀ y ∈ writes_A2b, b ≠ y) :
    after segA2b X (Proc.devRef .tc b) = X (Proc.devRef .tc b) := by
  refine after_of_forall_not_mem _ _ (List.forall_iff_forall_mem.mp ?_)
  simp only [Line.segA2b, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact devRef_ne_of_ne (hb _ (by decide))

/-- The buffers stretch A2c writes. -/
def writes_A2c : List (Ref sig .tc) := [main_v9, main_v10, main_v11, main_v12, (main_call2.cst).ref, (main_call2.v0).ref, (main_call2.v1).ref]
theorem writes_A2c_ge : ∀ y ∈ writes_A2c, 28 ≤ y.idx.val := by decide
theorem keep_A2c (X : Valuation τ sig (Elt Ideal)) (b : Ref sig .tc) (hb : ∀ y ∈ writes_A2c, b ≠ y) :
    after segA2c X (Proc.devRef .tc b) = X (Proc.devRef .tc b) := by
  refine after_of_forall_not_mem _ _ (List.forall_iff_forall_mem.mp ?_)
  simp only [Line.segA2c, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact devRef_ne_of_ne (hb _ (by decide))

/-- The buffers stretch A2d writes. -/
def writes_A2d : List (Ref sig .tc) := [main_v14]
theorem writes_A2d_ge : ∀ y ∈ writes_A2d, 28 ≤ y.idx.val := by decide
theorem keep_A2d (X : Valuation τ sig (Elt Ideal)) (b : Ref sig .tc) (hb : ∀ y ∈ writes_A2d, b ≠ y) :
    after segA2d X (Proc.devRef .tc b) = X (Proc.devRef .tc b) := by
  refine after_of_forall_not_mem _ _ (List.forall_iff_forall_mem.mp ?_)
  simp only [Line.segA2d, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact devRef_ne_of_ne (hb _ (by decide))

/-- The buffers stretch A2e1 writes. -/
def writes_A2e1 : List (Ref sig .tc) := [main_v15, main_v16, main_v17, main_v18, (main_call3.cst).ref, (main_call3.v0).ref, (main_call3.v1).ref]
theorem writes_A2e1_ge : ∀ y ∈ writes_A2e1, 28 ≤ y.idx.val := by decide
theorem keep_A2e1 (X : Valuation τ sig (Elt Ideal)) (b : Ref sig .tc) (hb : ∀ y ∈ writes_A2e1, b ≠ y) :
    after segA2e1 X (Proc.devRef .tc b) = X (Proc.devRef .tc b) := by
  refine after_of_forall_not_mem _ _ (List.forall_iff_forall_mem.mp ?_)
  simp only [Line.segA2e1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact devRef_ne_of_ne (hb _ (by decide))

/-- The buffers stretch A2e2 writes. -/
def writes_A2e2 : List (Ref sig .tc) := [main_v20, main_v21, main_v22, main_v23]
theorem writes_A2e2_ge : ∀ y ∈ writes_A2e2, 28 ≤ y.idx.val := by decide
theorem keep_A2e2 (X : Valuation τ sig (Elt Ideal)) (b : Ref sig .tc) (hb : ∀ y ∈ writes_A2e2, b ≠ y) :
    after segA2e2 X (Proc.devRef .tc b) = X (Proc.devRef .tc b) := by
  refine after_of_forall_not_mem _ _ (List.forall_iff_forall_mem.mp ?_)
  simp only [Line.segA2e2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact devRef_ne_of_ne (hb _ (by decide))

/-- The buffers stretch A2f writes. -/
def writes_A2f : List (Ref sig .tc) := [main_cst_0, main_v24, main_v25, main_v26]
theorem writes_A2f_ge : ∀ y ∈ writes_A2f, 28 ≤ y.idx.val := by decide
theorem keep_A2f (X : Valuation τ sig (Elt Ideal)) (b : Ref sig .tc) (hb : ∀ y ∈ writes_A2f, b ≠ y) :
    after segA2f X (Proc.devRef .tc b) = X (Proc.devRef .tc b) := by
  refine after_of_forall_not_mem _ _ (List.forall_iff_forall_mem.mp ?_)
  simp only [Line.segA2f, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact devRef_ne_of_ne (hb _ (by decide))

/-- The buffers stretch B1 writes. -/
def writes_B1 : List (Ref sig .tc) := [main_v27, (main_call4.c).ref, (main_call4.v0).ref, (main_call4.v1).ref, (main_call4.c_0).ref, (main_call4.v2).ref, (main_call4.v3).ref, (main_call4.call0.v0).ref, (main_call4.v5).ref, (main_call4.c_1).ref, (main_call4.c_2).ref, (main_call4.v6).ref, (main_call4.v7).ref, (main_call4.v8).ref, (main_call4.v9).ref, (main_call4.v10).ref, (main_call4.v11).ref, (main_call4.c_3).ref, (main_call4.v12).ref, (main_call4.v13).ref, (main_call4.v14).ref, (main_call4.cst).ref, (main_call4.v15).ref, (main_call4.v16).ref]
theorem writes_B1_ge : ∀ y ∈ writes_B1, 28 ≤ y.idx.val := by decide
theorem keep_B1 (X : Valuation τ sig (Elt Ideal)) (b : Ref sig .tc) (hb : ∀ y ∈ writes_B1, b ≠ y) :
    after segB1 X (Proc.devRef .tc b) = X (Proc.devRef .tc b) := by
  refine after_of_forall_not_mem _ _ (List.forall_iff_forall_mem.mp ?_)
  simp only [Line.segB1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact devRef_ne_of_ne (hb _ (by decide))

/-- The buffers stretch B2a writes. -/
def writes_B2a : List (Ref sig .tc) := [main_cst_1, main_v29, main_v30, main_v31]
theorem writes_B2a_ge : ∀ y ∈ writes_B2a, 28 ≤ y.idx.val := by decide
theorem keep_B2a (X : Valuation τ sig (Elt Ideal)) (b : Ref sig .tc) (hb : ∀ y ∈ writes_B2a, b ≠ y) :
    after segB2a X (Proc.devRef .tc b) = X (Proc.devRef .tc b) := by
  refine after_of_forall_not_mem _ _ (List.forall_iff_forall_mem.mp ?_)
  simp only [Line.segB2a, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact devRef_ne_of_ne (hb _ (by decide))

/-- The buffers stretch B2b writes. -/
def writes_B2b : List (Ref sig .tc) := [main_v32, main_v33, main_v34, (main_call5.cst).ref, (main_call5.v0).ref, (main_call5.v1).ref]
theorem writes_B2b_ge : ∀ y ∈ writes_B2b, 28 ≤ y.idx.val := by decide
theorem keep_B2b (X : Valuation τ sig (Elt Ideal)) (b : Ref sig .tc) (hb : ∀ y ∈ writes_B2b, b ≠ y) :
    after segB2b X (Proc.devRef .tc b) = X (Proc.devRef .tc b) := by
  refine after_of_forall_not_mem _ _ (List.forall_iff_forall_mem.mp ?_)
  simp only [Line.segB2b, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact devRef_ne_of_ne (hb _ (by decide))

/-- The buffers stretch B2c writes. -/
def writes_B2c : List (Ref sig .tc) := [main_v36, main_v37, main_v38, main_v39, (main_call6.cst).ref, (main_call6.v0).ref, (main_call6.v1).ref]
theorem writes_B2c_ge : ∀ y ∈ writes_B2c, 28 ≤ y.idx.val := by decide
theorem keep_B2c (X : Valuation τ sig (Elt Ideal)) (b : Ref sig .tc) (hb : ∀ y ∈ writes_B2c, b ≠ y) :
    after segB2c X (Proc.devRef .tc b) = X (Proc.devRef .tc b) := by
  refine after_of_forall_not_mem _ _ (List.forall_iff_forall_mem.mp ?_)
  simp only [Line.segB2c, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact devRef_ne_of_ne (hb _ (by decide))

/-- The buffers stretch B2d writes. -/
def writes_B2d : List (Ref sig .tc) := [main_v41]
theorem writes_B2d_ge : ∀ y ∈ writes_B2d, 28 ≤ y.idx.val := by decide
theorem keep_B2d (X : Valuation τ sig (Elt Ideal)) (b : Ref sig .tc) (hb : ∀ y ∈ writes_B2d, b ≠ y) :
    after segB2d X (Proc.devRef .tc b) = X (Proc.devRef .tc b) := by
  refine after_of_forall_not_mem _ _ (List.forall_iff_forall_mem.mp ?_)
  simp only [Line.segB2d, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact devRef_ne_of_ne (hb _ (by decide))

/-- The buffers stretch B2e1 writes. -/
def writes_B2e1 : List (Ref sig .tc) := [main_v42, main_v43, main_v44, main_v45, (main_call7.cst).ref, (main_call7.v0).ref, (main_call7.v1).ref]
theorem writes_B2e1_ge : ∀ y ∈ writes_B2e1, 28 ≤ y.idx.val := by decide
theorem keep_B2e1 (X : Valuation τ sig (Elt Ideal)) (b : Ref sig .tc) (hb : ∀ y ∈ writes_B2e1, b ≠ y) :
    after segB2e1 X (Proc.devRef .tc b) = X (Proc.devRef .tc b) := by
  refine after_of_forall_not_mem _ _ (List.forall_iff_forall_mem.mp ?_)
  simp only [Line.segB2e1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact devRef_ne_of_ne (hb _ (by decide))

/-- The buffers stretch B2e2 writes. -/
def writes_B2e2 : List (Ref sig .tc) := [main_v47, main_v48, main_v49, main_v50]
theorem writes_B2e2_ge : ∀ y ∈ writes_B2e2, 28 ≤ y.idx.val := by decide
theorem keep_B2e2 (X : Valuation τ sig (Elt Ideal)) (b : Ref sig .tc) (hb : ∀ y ∈ writes_B2e2, b ≠ y) :
    after segB2e2 X (Proc.devRef .tc b) = X (Proc.devRef .tc b) := by
  refine after_of_forall_not_mem _ _ (List.forall_iff_forall_mem.mp ?_)
  simp only [Line.segB2e2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact devRef_ne_of_ne (hb _ (by decide))

/-- The buffers stretch B2f writes. -/
def writes_B2f : List (Ref sig .tc) := [main_cst_2, main_v51, main_v52, main_v53]
theorem writes_B2f_ge : ∀ y ∈ writes_B2f, 28 ≤ y.idx.val := by decide
theorem keep_B2f (X : Valuation τ sig (Elt Ideal)) (b : Ref sig .tc) (hb : ∀ y ∈ writes_B2f, b ≠ y) :
    after segB2f X (Proc.devRef .tc b) = X (Proc.devRef .tc b) := by
  refine after_of_forall_not_mem _ _ (List.forall_iff_forall_mem.mp ?_)
  simp only [Line.segB2f, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact devRef_ne_of_ne (hb _ (by decide))

/-- The buffers stretch C writes. -/
def writes_C : List (Ref sig .tc) := [main_v54, main_v55, main_v56, main_v57, main_v58, main_v59]
theorem writes_C_ge : ∀ y ∈ writes_C, 28 ≤ y.idx.val := by decide
theorem keep_C (X : Valuation τ sig (Elt Ideal)) (b : Ref sig .tc) (hb : ∀ y ∈ writes_C, b ≠ y) :
    after segC X (Proc.devRef .tc b) = X (Proc.devRef .tc b) := by
  refine after_of_forall_not_mem _ _ (List.forall_iff_forall_mem.mp ?_)
  simp only [Line.segC, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact devRef_ne_of_ne (hb _ (by decide))

/-! ## What each stretch leaves in the buffer it is read at -/

attribute [local irreducible] Host.reduce Host.gather Host.scatterAdd in
set_option maxHeartbeats 2000000 in
theorem sA1 (X : Valuation τ sig (Elt Ideal)) :
    after segA1 X (Proc.devRef .tc main_v1) = takeRows (hostProduct (X (Proc.devRef .tc main_arg0)) (X (Proc.devRef .tc main_arg10))) (X (Proc.devRef .tc main_arg4)) := by
  after_results_simp
  try simp only [Cert.LibTypedRefCasts.ofBuf_toBuf]
  rfl

attribute [local irreducible] Host.reduce Host.gather Host.scatterAdd in
set_option maxHeartbeats 2000000 in
theorem sA2a (X : Valuation τ sig (Elt Ideal)) :
    after segA2a X (Proc.devRef .tc main_v4) = sumToNodes (X (Proc.devRef .tc main_v1)) (X (Proc.devRef .tc main_arg5)) := by
  after_results_simp
  rfl

attribute [local irreducible] Host.reduce Host.gather Host.scatterAdd in
set_option maxHeartbeats 2000000 in
theorem sA2b (X : Valuation τ sig (Elt Ideal)) :
    after segA2b X (Proc.devRef .tc main_v8) = hostClamp (hostBias (X (Proc.devRef .tc main_v4)) (X (Proc.devRef .tc main_arg11))) := by
  after_results_simp
  try simp only [Cert.LibTypedRefCasts.ofBuf_toBuf]
  rfl

attribute [local irreducible] Host.reduce Host.gather Host.scatterAdd in
set_option maxHeartbeats 2000000 in
theorem sA2c (X : Valuation τ sig (Elt Ideal)) :
    after segA2c X (Proc.devRef .tc main_v13) = hostClamp (hostDense (X (Proc.devRef .tc main_arg0)) (X (Proc.devRef .tc main_arg12)) (X (Proc.devRef .tc main_arg13))) := by
  after_results_simp
  try simp only [Cert.LibTypedRefCasts.ofBuf_toBuf]
  rfl

attribute [local irreducible] Host.reduce Host.gather Host.scatterAdd in
set_option maxHeartbeats 2000000 in
theorem sA2d (X : Valuation τ sig (Elt Ideal)) :
    after segA2d X (Proc.devRef .tc main_v14) = hostSum (X (Proc.devRef .tc main_v8)) (X (Proc.devRef .tc main_v13)) := by
  after_results_simp
  rfl

attribute [local irreducible] Host.reduce Host.gather Host.scatterAdd in
set_option maxHeartbeats 2000000 in
theorem sA2e1 (X : Valuation τ sig (Elt Ideal)) :
    after segA2e1 X (Proc.devRef .tc main_v19) = hostClamp (hostDense (X (Proc.devRef .tc main_v14)) (X (Proc.devRef .tc main_arg18)) (X (Proc.devRef .tc main_arg19))) := by
  after_results_simp
  try simp only [Cert.LibTypedRefCasts.ofBuf_toBuf]
  rfl

attribute [local irreducible] Host.reduce Host.gather Host.scatterAdd in
set_option maxHeartbeats 2000000 in
theorem sA2e2 (X : Valuation τ sig (Elt Ideal)) :
    after segA2e2 X (Proc.devRef .tc main_v23) = hostDenseOut (X (Proc.devRef .tc main_v19)) (X (Proc.devRef .tc main_arg20)) (X (Proc.devRef .tc main_arg21)) := by
  after_results_simp
  rfl

attribute [local irreducible] Host.reduce Host.gather Host.scatterAdd in
set_option maxHeartbeats 2000000 in
theorem sA2f (X : Valuation τ sig (Elt Ideal)) :
    after segA2f X (Proc.devRef .tc main_v26) = sumToGraphs (X (Proc.devRef .tc main_v23)) (X (Proc.devRef .tc main_arg6)) := by
  after_results_simp
  rfl

attribute [local irreducible] Host.reduce Host.gather Host.scatterAdd in
set_option maxHeartbeats 2000000 in
theorem sB1 (X : Valuation τ sig (Elt Ideal)) :
    after segB1 X (Proc.devRef .tc main_v28) = takeRows (hostProduct (X (Proc.devRef .tc main_arg2)) (X (Proc.devRef .tc main_arg14))) (X (Proc.devRef .tc main_arg7)) := by
  after_results_simp
  try simp only [Cert.LibTypedRefCasts.ofBuf_toBuf]
  rfl

attribute [local irreducible] Host.reduce Host.gather Host.scatterAdd in
set_option maxHeartbeats 2000000 in
theorem sB2a (X : Valuation τ sig (Elt Ideal)) :
    after segB2a X (Proc.devRef .tc main_v31) = sumToNodes (X (Proc.devRef .tc main_v28)) (X (Proc.devRef .tc main_arg8)) := by
  after_results_simp
  rfl

attribute [local irreducible] Host.reduce Host.gather Host.scatterAdd in
set_option maxHeartbeats 2000000 in
theorem sB2b (X : Valuation τ sig (Elt Ideal)) :
    after segB2b X (Proc.devRef .tc main_v35) = hostClamp (hostBias (X (Proc.devRef .tc main_v31)) (X (Proc.devRef .tc main_arg15))) := by
  after_results_simp
  try simp only [Cert.LibTypedRefCasts.ofBuf_toBuf]
  rfl

attribute [local irreducible] Host.reduce Host.gather Host.scatterAdd in
set_option maxHeartbeats 2000000 in
theorem sB2c (X : Valuation τ sig (Elt Ideal)) :
    after segB2c X (Proc.devRef .tc main_v40) = hostClamp (hostDense (X (Proc.devRef .tc main_arg2)) (X (Proc.devRef .tc main_arg16)) (X (Proc.devRef .tc main_arg17))) := by
  after_results_simp
  try simp only [Cert.LibTypedRefCasts.ofBuf_toBuf]
  rfl

attribute [local irreducible] Host.reduce Host.gather Host.scatterAdd in
set_option maxHeartbeats 2000000 in
theorem sB2d (X : Valuation τ sig (Elt Ideal)) :
    after segB2d X (Proc.devRef .tc main_v41) = hostSum (X (Proc.devRef .tc main_v35)) (X (Proc.devRef .tc main_v40)) := by
  after_results_simp
  rfl

attribute [local irreducible] Host.reduce Host.gather Host.scatterAdd in
set_option maxHeartbeats 2000000 in
theorem sB2e1 (X : Valuation τ sig (Elt Ideal)) :
    after segB2e1 X (Proc.devRef .tc main_v46) = hostClamp (hostDense (X (Proc.devRef .tc main_v41)) (X (Proc.devRef .tc main_arg22)) (X (Proc.devRef .tc main_arg23))) := by
  after_results_simp
  try simp only [Cert.LibTypedRefCasts.ofBuf_toBuf]
  rfl

attribute [local irreducible] Host.reduce Host.gather Host.scatterAdd in
set_option maxHeartbeats 2000000 in
theorem sB2e2 (X : Valuation τ sig (Elt Ideal)) :
    after segB2e2 X (Proc.devRef .tc main_v50) = hostDenseOut (X (Proc.devRef .tc main_v46)) (X (Proc.devRef .tc main_arg24)) (X (Proc.devRef .tc main_arg25)) := by
  after_results_simp
  rfl

attribute [local irreducible] Host.reduce Host.gather Host.scatterAdd in
set_option maxHeartbeats 2000000 in
theorem sB2f (X : Valuation τ sig (Elt Ideal)) :
    after segB2f X (Proc.devRef .tc main_v53) = sumToGraphs (X (Proc.devRef .tc main_v50)) (X (Proc.devRef .tc main_arg9)) := by
  after_results_simp
  rfl

attribute [local irreducible] Host.reduce Host.gather Host.scatterAdd in
/-- The closing steps. -/
theorem sC (X : Valuation τ sig (Elt Ideal)) :
    after segC X (Proc.devRef .tc main_v59) = closing (X (Proc.devRef .tc main_arg26)) (X (Proc.devRef .tc main_arg27)) (X (Proc.devRef .tc main_v26)) (X (Proc.devRef .tc main_v53)) := by
  after_results_simp
  rfl

/-! ## The same facts, stated for rewriting at any buffer -/

theorem sA1' (X : Valuation τ sig (Elt Ideal)) :
    after segA1 X (no_index (Proc.devRef .tc main_v1)) = takeRows (hostProduct (X (Proc.devRef .tc main_arg0)) (X (Proc.devRef .tc main_arg10))) (X (Proc.devRef .tc main_arg4)) := sA1 X
theorem sA2a' (X : Valuation τ sig (Elt Ideal)) :
    after segA2a X (no_index (Proc.devRef .tc main_v4)) = sumToNodes (X (Proc.devRef .tc main_v1)) (X (Proc.devRef .tc main_arg5)) := sA2a X
theorem sA2b' (X : Valuation τ sig (Elt Ideal)) :
    after segA2b X (no_index (Proc.devRef .tc main_v8)) = hostClamp (hostBias (X (Proc.devRef .tc main_v4)) (X (Proc.devRef .tc main_arg11))) := sA2b X
theorem sA2c' (X : Valuation τ sig (Elt Ideal)) :
    after segA2c X (no_index (Proc.devRef .tc main_v13)) = hostClamp (hostDense (X (Proc.devRef .tc main_arg0)) (X (Proc.devRef .tc main_arg12)) (X (Proc.devRef .tc main_arg13))) := sA2c X
theorem sA2d' (X : Valuation τ sig (Elt Ideal)) :
    after segA2d X (no_index (Proc.devRef .tc main_v14)) = hostSum (X (Proc.devRef .tc main_v8)) (X (Proc.devRef .tc main_v13)) := sA2d X
theorem sA2e1' (X : Valuation τ sig (Elt Ideal)) :
    after segA2e1 X (no_index (Proc.devRef .tc main_v19)) = hostClamp (hostDense (X (Proc.devRef .tc main_v14)) (X (Proc.devRef .tc main_arg18)) (X (Proc.devRef .tc main_arg19))) := sA2e1 X
theorem sA2e2' (X : Valuation τ sig (Elt Ideal)) :
    after segA2e2 X (no_index (Proc.devRef .tc main_v23)) = hostDenseOut (X (Proc.devRef .tc main_v19)) (X (Proc.devRef .tc main_arg20)) (X (Proc.devRef .tc main_arg21)) := sA2e2 X
theorem sA2f' (X : Valuation τ sig (Elt Ideal)) :
    after segA2f X (no_index (Proc.devRef .tc main_v26)) = sumToGraphs (X (Proc.devRef .tc main_v23)) (X (Proc.devRef .tc main_arg6)) := sA2f X
theorem sB1' (X : Valuation τ sig (Elt Ideal)) :
    after segB1 X (no_index (Proc.devRef .tc main_v28)) = takeRows (hostProduct (X (Proc.devRef .tc main_arg2)) (X (Proc.devRef .tc main_arg14))) (X (Proc.devRef .tc main_arg7)) := sB1 X
theorem sB2a' (X : Valuation τ sig (Elt Ideal)) :
    after segB2a X (no_index (Proc.devRef .tc main_v31)) = sumToNodes (X (Proc.devRef .tc main_v28)) (X (Proc.devRef .tc main_arg8)) := sB2a X
theorem sB2b' (X : Valuation τ sig (Elt Ideal)) :
    after segB2b X (no_index (Proc.devRef .tc main_v35)) = hostClamp (hostBias (X (Proc.devRef .tc main_v31)) (X (Proc.devRef .tc main_arg15))) := sB2b X
theorem sB2c' (X : Valuation τ sig (Elt Ideal)) :
    after segB2c X (no_index (Proc.devRef .tc main_v40)) = hostClamp (hostDense (X (Proc.devRef .tc main_arg2)) (X (Proc.devRef .tc main_arg16)) (X (Proc.devRef .tc main_arg17))) := sB2c X
theorem sB2d' (X : Valuation τ sig (Elt Ideal)) :
    after segB2d X (no_index (Proc.devRef .tc main_v41)) = hostSum (X (Proc.devRef .tc main_v35)) (X (Proc.devRef .tc main_v40)) := sB2d X
theorem sB2e1' (X : Valuation τ sig (Elt Ideal)) :
    after segB2e1 X (no_index (Proc.devRef .tc main_v46)) = hostClamp (hostDense (X (Proc.devRef .tc main_v41)) (X (Proc.devRef .tc main_arg22)) (X (Proc.devRef .tc main_arg23))) := sB2e1 X
theorem sB2e2' (X : Valuation τ sig (Elt Ideal)) :
    after segB2e2 X (no_index (Proc.devRef .tc main_v50)) = hostDenseOut (X (Proc.devRef .tc main_v46)) (X (Proc.devRef .tc main_arg24)) (X (Proc.devRef .tc main_arg25)) := sB2e2 X
theorem sB2f' (X : Valuation τ sig (Elt Ideal)) :
    after segB2f X (no_index (Proc.devRef .tc main_v53)) = sumToGraphs (X (Proc.devRef .tc main_v50)) (X (Proc.devRef .tc main_arg9)) := sB2f X
theorem sC' (X : Valuation τ sig (Elt Ideal)) :
    after segC X (no_index (Proc.devRef .tc main_v59)) = closing (X (Proc.devRef .tc main_arg26)) (X (Proc.devRef .tc main_arg27)) (X (Proc.devRef .tc main_v26)) (X (Proc.devRef .tc main_v53)) := sC X
theorem keep_A1' (X : Valuation τ sig (Elt Ideal)) (b : Ref sig .tc) (hb : ∀ y ∈ writes_A1, b ≠ y) :
    after segA1 X (no_index (Proc.devRef .tc b)) = X (Proc.devRef .tc b) := keep_A1 X b hb
theorem keep_A2a' (X : Valuation τ sig (Elt Ideal)) (b : Ref sig .tc) (hb : ∀ y ∈ writes_A2a, b ≠ y) :
    after segA2a X (no_index (Proc.devRef .tc b)) = X (Proc.devRef .tc b) := keep_A2a X b hb
theorem keep_A2b' (X : Valuation τ sig (Elt Ideal)) (b : Ref sig .tc) (hb : ∀ y ∈ writes_A2b, b ≠ y) :
    after segA2b X (no_index (Proc.devRef .tc b)) = X (Proc.devRef .tc b) := keep_A2b X b hb
theorem keep_A2c' (X : Valuation τ sig (Elt Ideal)) (b : Ref sig .tc) (hb : ∀ y ∈ writes_A2c, b ≠ y) :
    after segA2c X (no_index (Proc.devRef .tc b)) = X (Proc.devRef .tc b) := keep_A2c X b hb
theorem keep_A2d' (X : Valuation τ sig (Elt Ideal)) (b : Ref sig .tc) (hb : ∀ y ∈ writes_A2d, b ≠ y) :
    after segA2d X (no_index (Proc.devRef .tc b)) = X (Proc.devRef .tc b) := keep_A2d X b hb
theorem keep_A2e1' (X : Valuation τ sig (Elt Ideal)) (b : Ref sig .tc) (hb : ∀ y ∈ writes_A2e1, b ≠ y) :
    after segA2e1 X (no_index (Proc.devRef .tc b)) = X (Proc.devRef .tc b) := keep_A2e1 X b hb
theorem keep_A2e2' (X : Valuation τ sig (Elt Ideal)) (b : Ref sig .tc) (hb : ∀ y ∈ writes_A2e2, b ≠ y) :
    after segA2e2 X (no_index (Proc.devRef .tc b)) = X (Proc.devRef .tc b) := keep_A2e2 X b hb
theorem keep_A2f' (X : Valuation τ sig (Elt Ideal)) (b : Ref sig .tc) (hb : ∀ y ∈ writes_A2f, b ≠ y) :
    after segA2f X (no_index (Proc.devRef .tc b)) = X (Proc.devRef .tc b) := keep_A2f X b hb
theorem keep_B1' (X : Valuation τ sig (Elt Ideal)) (b : Ref sig .tc) (hb : ∀ y ∈ writes_B1, b ≠ y) :
    after segB1 X (no_index (Proc.devRef .tc b)) = X (Proc.devRef .tc b) := keep_B1 X b hb
theorem keep_B2a' (X : Valuation τ sig (Elt Ideal)) (b : Ref sig .tc) (hb : ∀ y ∈ writes_B2a, b ≠ y) :
    after segB2a X (no_index (Proc.devRef .tc b)) = X (Proc.devRef .tc b) := keep_B2a X b hb
theorem keep_B2b' (X : Valuation τ sig (Elt Ideal)) (b : Ref sig .tc) (hb : ∀ y ∈ writes_B2b, b ≠ y) :
    after segB2b X (no_index (Proc.devRef .tc b)) = X (Proc.devRef .tc b) := keep_B2b X b hb
theorem keep_B2c' (X : Valuation τ sig (Elt Ideal)) (b : Ref sig .tc) (hb : ∀ y ∈ writes_B2c, b ≠ y) :
    after segB2c X (no_index (Proc.devRef .tc b)) = X (Proc.devRef .tc b) := keep_B2c X b hb
theorem keep_B2d' (X : Valuation τ sig (Elt Ideal)) (b : Ref sig .tc) (hb : ∀ y ∈ writes_B2d, b ≠ y) :
    after segB2d X (no_index (Proc.devRef .tc b)) = X (Proc.devRef .tc b) := keep_B2d X b hb
theorem keep_B2e1' (X : Valuation τ sig (Elt Ideal)) (b : Ref sig .tc) (hb : ∀ y ∈ writes_B2e1, b ≠ y) :
    after segB2e1 X (no_index (Proc.devRef .tc b)) = X (Proc.devRef .tc b) := keep_B2e1 X b hb
theorem keep_B2e2' (X : Valuation τ sig (Elt Ideal)) (b : Ref sig .tc) (hb : ∀ y ∈ writes_B2e2, b ≠ y) :
    after segB2e2 X (no_index (Proc.devRef .tc b)) = X (Proc.devRef .tc b) := keep_B2e2 X b hb
theorem keep_B2f' (X : Valuation τ sig (Elt Ideal)) (b : Ref sig .tc) (hb : ∀ y ∈ writes_B2f, b ≠ y) :
    after segB2f X (no_index (Proc.devRef .tc b)) = X (Proc.devRef .tc b) := keep_B2f X b hb
theorem keep_C' (X : Valuation τ sig (Elt Ideal)) (b : Ref sig .tc) (hb : ∀ y ∈ writes_C, b ≠ y) :
    after segC X (no_index (Proc.devRef .tc b)) = X (Proc.devRef .tc b) := keep_C X b hb

/-! ## The line as a whole -/

theorem after_split (V : Valuation τ sig (Elt Ideal)) :
    after (Line.ops (F := Ideal)) V = after segC (after segB2f (after segB2e2 (after segB2e1 (after segB2d (after segB2c (after segB2b (after segB2a (after segB1 (after segA2f (after segA2e2 (after segA2e1 (after segA2d (after segA2c (after segA2b (after segA2a (after segA1 V)))))))))))))))) := by
  rw [Line.ops_split]
  simp only [Cert.LibAfterAppend.after_append]

/-- No operation of the line writes an argument array. -/
theorem keep_arg (V : Valuation τ sig (Elt Ideal)) (b : Ref sig .tc) (hb : b.idx.val < 28) :
    after (Line.ops (F := Ideal)) V (Proc.devRef .tc b) = V (Proc.devRef .tc b) := by
  rw [after_split]
  have hne : ∀ y : Ref sig .tc, 28 ≤ y.idx.val → b ≠ y := fun y hy e => by subst e; omega
  rw [keep_C _ b (fun y hy => hne y (writes_C_ge y hy)),
    keep_B2f _ b (fun y hy => hne y (writes_B2f_ge y hy)),
    keep_B2e2 _ b (fun y hy => hne y (writes_B2e2_ge y hy)),
    keep_B2e1 _ b (fun y hy => hne y (writes_B2e1_ge y hy)),
    keep_B2d _ b (fun y hy => hne y (writes_B2d_ge y hy)),
    keep_B2c _ b (fun y hy => hne y (writes_B2c_ge y hy)),
    keep_B2b _ b (fun y hy => hne y (writes_B2b_ge y hy)),
    keep_B2a _ b (fun y hy => hne y (writes_B2a_ge y hy)),
    keep_B1 _ b (fun y hy => hne y (writes_B1_ge y hy)),
    keep_A2f _ b (fun y hy => hne y (writes_A2f_ge y hy)),
    keep_A2e2 _ b (fun y hy => hne y (writes_A2e2_ge y hy)),
    keep_A2e1 _ b (fun y hy => hne y (writes_A2e1_ge y hy)),
    keep_A2d _ b (fun y hy => hne y (writes_A2d_ge y hy)),
    keep_A2c _ b (fun y hy => hne y (writes_A2c_ge y hy)),
    keep_A2b _ b (fun y hy => hne y (writes_A2b_ge y hy)),
    keep_A2a _ b (fun y hy => hne y (writes_A2a_ge y hy)),
    keep_A1 _ b (fun y hy => hne y (writes_A1_ge y hy))]

set_option maxHeartbeats 4000000 in
/-- The result buffer after the line, from any starting contents. -/
theorem out_eq (V : Valuation τ sig (Elt Ideal)) :
    after (Line.ops (F := Ideal)) V (Proc.devRef .tc main_v59)
      = net takeRows sumToNodes sumToGraphs (closing (V (Proc.devRef .tc main_arg26)) (V (Proc.devRef .tc main_arg27))) (V (Proc.devRef .tc main_arg0)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) := by
  rw [after_split]
  simp (disch := decide) only [sA1', sA2a', sA2b', sA2c', sA2d', sA2e1', sA2e2', sA2f', sB1', sB2a', sB2b', sB2c', sB2d', sB2e1', sB2e2', sB2f', sC',
    keep_A1', keep_A2a', keep_A2b', keep_A2c', keep_A2d', keep_A2e1', keep_A2e2', keep_A2f', keep_B1', keep_B2a', keep_B2b', keep_B2c', keep_B2d', keep_B2e1', keep_B2e2', keep_B2f', keep_C']
  rw [hostLayer_eq, hostLayer_eq, hostReadout_eq, hostReadout_eq, hostProduct_eq, hostProduct_eq]
  rfl

/-- The run: the result is the network function of the arguments, which end unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v59)
        = net takeRows sumToNodes sumToGraphs (closing (m ((c.tc : Thread nD τ).loc main_arg26)) (m ((c.tc : Thread nD τ).loc main_arg27))) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun _ h c => ⟨(h c main_v59).trans (out_eq _),
      (h c main_arg0).trans (keep_arg _ main_arg0 (by decide)),
      (h c main_arg1).trans (keep_arg _ main_arg1 (by decide)),
      (h c main_arg2).trans (keep_arg _ main_arg2 (by decide)),
      (h c main_arg3).trans (keep_arg _ main_arg3 (by decide)),
      (h c main_arg4).trans (keep_arg _ main_arg4 (by decide)),
      (h c main_arg5).trans (keep_arg _ main_arg5 (by decide)),
      (h c main_arg6).trans (keep_arg _ main_arg6 (by decide)),
      (h c main_arg7).trans (keep_arg _ main_arg7 (by decide)),
      (h c main_arg8).trans (keep_arg _ main_arg8 (by decide)),
      (h c main_arg9).trans (keep_arg _ main_arg9 (by decide)),
      (h c main_arg10).trans (keep_arg _ main_arg10 (by decide)),
      (h c main_arg11).trans (keep_arg _ main_arg11 (by decide)),
      (h c main_arg12).trans (keep_arg _ main_arg12 (by decide)),
      (h c main_arg13).trans (keep_arg _ main_arg13 (by decide)),
      (h c main_arg14).trans (keep_arg _ main_arg14 (by decide)),
      (h c main_arg15).trans (keep_arg _ main_arg15 (by decide)),
      (h c main_arg16).trans (keep_arg _ main_arg16 (by decide)),
      (h c main_arg17).trans (keep_arg _ main_arg17 (by decide)),
      (h c main_arg18).trans (keep_arg _ main_arg18 (by decide)),
      (h c main_arg19).trans (keep_arg _ main_arg19 (by decide)),
      (h c main_arg20).trans (keep_arg _ main_arg20 (by decide)),
      (h c main_arg21).trans (keep_arg _ main_arg21 (by decide)),
      (h c main_arg22).trans (keep_arg _ main_arg22 (by decide)),
      (h c main_arg23).trans (keep_arg _ main_arg23 (by decide)),
      (h c main_arg24).trans (keep_arg _ main_arg24 (by decide)),
      (h c main_arg25).trans (keep_arg _ main_arg25 (by decide)),
      (h c main_arg26).trans (keep_arg _ main_arg26 (by decide)),
      (h c main_arg27).trans (keep_arg _ main_arg27 (by decide))⟩)
    (Line.run_line m ρ)

end Cert.ReferenceIdeal.Result

end
-- ==== Proof.lean ====
/-
  A two-layer graph network on two graphs, computed with six grids of row blocks, against the same network on the host.

  For each graph: the node features times a weight (a grid of 25 blocks of 2000 rows); each edge takes the row of
  that product at its source node and the rows are summed into their destination nodes (host operations, the same in
  both programs); the combine step max(agg + b, 0) + max(h · Wr + br, 0) (a grid); the readout
  max(h · Wi + bi, 0) · Wo + bo (a grid); and the sum of the nodes of each graph (host). The two graph results are
  added and go through the last linear map (host).

  On the extended reals a change of float format is the identity and a product accumulated into zero is the plain
  sum of products, so a block computes exactly the rows of the whole-array piece (`Layers`), the blocks cover the
  array (the region modules), and the kernel program's result is the network function `Net.net` of its arguments
  (`KernelValue`). The host program's dense stretches are the same pieces, so its result is the same function
  (`RefValue`). Both sides add and multiply the same numbers in the same order, so nothing is asked of the inputs:
  the equality holds at every extended-real input, infinite ones included. The idealization rewrote nothing, so
  there is nothing to preserve.
-/
import proofs.«143796_j45518063403266_1_alg».proof.Defs
import proofs.«143796_j45518063403266_1_alg».proof.Proof.Gen.Kernel
import proofs.«143796_j45518063403266_1_alg».proof.Proof.Gen.Kernel.Frame
import proofs.«143796_j45518063403266_1_alg».proof.Proof.Gen.KernelIdeal
import proofs.«143796_j45518063403266_1_alg».proof.Proof.Gen.KernelIdeal.Frame
import proofs.«143796_j45518063403266_1_alg».proof.Proof.Gen.ReferenceIdeal
import proofs.«143796_j45518063403266_1_alg».proof.Proof.Gen.Pre_finite_inputs
import proofs.«143796_j45518063403266_1_alg».proof.Proof.KernelValue
import proofs.«143796_j45518063403266_1_alg».proof.Proof.RefValue
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The host program's run, its result dropped. -/
theorem frame_reference : Cert.frame_ReferenceIdeal := fun m ρ _ =>
  (θ_run Cert.ReferenceIdeal.defs _ _).mono (fun _ h c => (h c).2) (Cert.ReferenceIdeal.Result.run m ρ)

theorem preserves : Cert.preserves_Kernel_KernelIdeal := trivial

/-! The host steps the two programs share are the same functions. -/

attribute [local irreducible] Host.reduce Host.gather Host.scatterAdd in
theorem takeRows_eq : Cert.ReferenceIdeal.Result.takeRows = Cert.KernelIdeal.Result.takeRows := rfl
attribute [local irreducible] Host.reduce Host.gather Host.scatterAdd in
theorem sumToNodes_eq : Cert.ReferenceIdeal.Result.sumToNodes = Cert.KernelIdeal.Result.sumToNodes := rfl
attribute [local irreducible] Host.reduce Host.gather Host.scatterAdd in
theorem sumToGraphs_eq : Cert.ReferenceIdeal.Result.sumToGraphs = Cert.KernelIdeal.Result.sumToGraphs := rfl
attribute [local irreducible] Host.reduce Host.gather Host.scatterAdd in
theorem closing_eq : Cert.ReferenceIdeal.Result.closing = Cert.KernelIdeal.Result.closing := rfl

/-- The network function of equal steps at equal arguments. -/
theorem net_congr {Out : Type}
    {tk tk' : Cert.Net.NodeFeats → Cert.Net.EdgeIds → Cert.Net.EdgeRows}
    {sE sE' : Cert.Net.EdgeRows → Cert.Net.EdgeIds → Cert.Net.NodeFeats}
    {sN sN' : Cert.Net.NodeOut → Cert.Net.NodeIds → Cert.Net.GraphOut}
    {tl tl' : Cert.Net.GraphOut → Cert.Net.GraphOut → Out}
    {x0 y0 : Cert.Net.NodeFeats} {x1 y1 : Cert.Net.NodeFeats} {x2 y2 : Cert.Net.EdgeIds} {x3 y3 : Cert.Net.EdgeIds} {x4 y4 : Cert.Net.NodeIds} {x5 y5 : Cert.Net.EdgeIds} {x6 y6 : Cert.Net.EdgeIds} {x7 y7 : Cert.Net.NodeIds} {x8 y8 : Cert.Net.Weight} {x9 y9 : Cert.Net.Bias} {x10 y10 : Cert.Net.Weight} {x11 y11 : Cert.Net.Bias} {x12 y12 : Cert.Net.Weight} {x13 y13 : Cert.Net.Bias} {x14 y14 : Cert.Net.Weight} {x15 y15 : Cert.Net.Bias} {x16 y16 : Cert.Net.Weight} {x17 y17 : Cert.Net.Bias} {x18 y18 : Cert.Net.WeightOut} {x19 y19 : Cert.Net.BiasOut} {x20 y20 : Cert.Net.Weight} {x21 y21 : Cert.Net.Bias} {x22 y22 : Cert.Net.WeightOut} {x23 y23 : Cert.Net.BiasOut}
    (ht : tk = tk') (hE : sE = sE') (hN : sN = sN') (hl : tl = tl')
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) (e15 : x15 = y15) (e16 : x16 = y16) (e17 : x17 = y17) (e18 : x18 = y18) (e19 : x19 = y19) (e20 : x20 = y20) (e21 : x21 = y21) (e22 : x22 = y22) (e23 : x23 = y23) :
    Cert.Net.net tk sE sN tl x0 x1 x2 x3 x4 x5 x6 x7 x8 x9 x10 x11 x12 x13 x14 x15 x16 x17 x18 x19 x20 x21 x22 x23
      = Cert.Net.net tk' sE' sN' tl' y0 y1 y2 y3 y4 y5 y6 y7 y8 y9 y10 y11 y12 y13 y14 y15 y16 y17 y18 y19 y20 y21 y22 y23 := by
  subst_vars
  rfl

/-- Both programs end at the network function of the arguments they share. -/
theorem algebraic : Cert.algebraic_KernelIdeal_ReferenceIdeal := by
  intro m ρ m' ρ' _ hagree
  refine ⟨fun c => Cert.Net.net Cert.KernelIdeal.Result.takeRows Cert.KernelIdeal.Result.sumToNodes Cert.KernelIdeal.Result.sumToGraphs
      (Cert.KernelIdeal.Result.closing (m ((c.tc : Thread Cert.KernelIdeal.nD Cert.KernelIdeal.τ).loc Cert.KernelIdeal.main_arg26)) (m ((c.tc : Thread Cert.KernelIdeal.nD Cert.KernelIdeal.τ).loc Cert.KernelIdeal.main_arg27)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)), ?_, ?_⟩
  · exact (θ_run Cert.KernelIdeal.defs _ _).mono
      (fun r h c => ⟨(h c).1.trans (Cert.KernelIdeal.Result.result m ρ c), (h c).2⟩)
      (Cert.KernelIdeal.Run.run_value (F := Ideal) m ρ)
  · refine (θ_run Cert.ReferenceIdeal.defs _ _).mono (fun _ h c => ⟨(h c).1.trans ?_, (h c).2⟩)
      (Cert.ReferenceIdeal.Result.run m' ρ')
    obtain ⟨h0, h1, h2, h3, h4, h5, h6, h7, h8, h9, h10, h11, h12, h13, h14, h15, h16, h17, h18, h19, h20, h21, h22, h23, h24, h25, h26, h27⟩ := hagree c
    have hl : Cert.ReferenceIdeal.Result.closing (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27))
        = Cert.KernelIdeal.Result.closing (m ((c.tc : Thread Cert.KernelIdeal.nD Cert.KernelIdeal.τ).loc Cert.KernelIdeal.main_arg26)) (m ((c.tc : Thread Cert.KernelIdeal.nD Cert.KernelIdeal.τ).loc Cert.KernelIdeal.main_arg27)) := by
      rw [closing_eq, h26, h27]
    exact net_congr takeRows_eq sumToNodes_eq sumToGraphs_eq hl h0 h2 h4 h5 h6 h7 h8 h9 h10 h11 h12 h13 h14 h15 h16 h17 h18 h19 h20 h21 h22 h23 h24 h25

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
